-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1536 : Shape := ⟨2, ![16384, 1536]⟩
abbrev S1024x512 : Shape := ⟨2, ![1024, 512]⟩
abbrev S1024 : Shape := ⟨1, ![1024]⟩
abbrev S1024x3072 : Shape := ⟨2, ![1024, 3072]⟩
abbrev S2048x2048 : Shape := ⟨2, ![2048, 2048]⟩
abbrev S2048 : Shape := ⟨1, ![2048]⟩
abbrev S1000x2048 : Shape := ⟨2, ![1000, 2048]⟩
abbrev S1000 : Shape := ⟨1, ![1000]⟩
abbrev S_ : Shape := ⟨0, ![]⟩

class Facts : Prop where
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1000x2048 : S_.BroadcastsInDim S1000x2048 (![] : Fin 0 → Fin S1000x2048.rank)
  reducesTo_S1000x2048_S_d0_1 : S1000x2048.ReducesTo [0, 1] S_
  bcast_S_S1000 : S_.BroadcastsInDim S1000 (![] : Fin 0 → Fin S1000.rank)
  reducesTo_S1000_S_d0 : S1000.ReducesTo [0] S_

variable [Facts]

def fn_part3 {F : FTy → Type} [FloatOps F] (main_arg11 : FVec F S1000x2048 .f32) (main_arg12 : FVec F S1000 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S1000x2048 .f32 := Host.absf main_arg11
  let main_cst_20 : FVec F S_ .f32 := constant S_ .f32 0x7F800000#32
  let main_v55 : FVec F S1000x2048 .f32 := broadcastInDim S1000x2048 ![] bcast_S_S1000x2048 main_cst_20
  let main_v56 : IVec S1000x2048 1 := cmpf .olt main_v54 main_v55
  let main_c_21 : IVec S_ 1 := constantI S_ 1 1#1
  let main_v57 : IVec S_ 1 := (fun x v => Host.reduce IntOp.andi x v reducesTo_S1000x2048_S_d0_1 h_S_) main_v56 main_c_21
  let main_v58 : IVec S_ 1 := andi main_v53 main_v57
  let main_v59 : FVec F S1000 .f32 := Host.absf main_arg12
  let main_cst_22 : FVec F S_ .f32 := constant S_ .f32 0x7F800000#32
  let main_v60 : FVec F S1000 .f32 := broadcastInDim S1000 ![] bcast_S_S1000 main_cst_22
  let main_v61 : IVec S1000 1 := cmpf .olt main_v59 main_v60
  let main_c_23 : IVec S_ 1 := constantI S_ 1 1#1
  let main_v62 : IVec S_ 1 := (fun x v => Host.reduce IntOp.andi x v reducesTo_S1000_S_d0 h_S_) main_v61 main_c_23
  let main_v63 : IVec S_ 1 := andi main_v58 main_v62
  main_v63

def fn_part2 {F : FTy → Type} [FloatOps F] (main_arg7 : FVec F S1024x3072 .f32) (main_arg8 : FVec F S1024 .f32) (main_arg9 : FVec F S2048x2048 .f32) (main_arg10 : FVec F S2048 .f32) (main_arg11 : FVec F S1000x2048 .f32) (main_arg12 : FVec F S1000 .f32) (main_v33 : IVec S_ 1) : IVec S_ 1 :=
  let main_v34 : FVec F S1024x3072 .f32 := Host.absf main_arg7
  let main_cst_12 : FVec F S_ .f32 := constant S_ .f32 0x7F800000#32
  let main_v35 : FVec F S1024x3072 .f32 := broadcastInDim S1024x3072 ![] bcast_S_S1024x3072 main_cst_12
  let main_v36 : IVec S1024x3072 1 := cmpf .olt main_v34 main_v35
  let main_c_13 : IVec S_ 1 := constantI S_ 1 1#1
  let main_v37 : IVec S_ 1 := (fun x v => Host.reduce IntOp.andi x v reducesTo_S1024x3072_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S1024 .f32) (main_arg5 : FVec F S1024x512 .f32) (main_arg6 : FVec F S1024 .f32) (main_arg7 : FVec F S1024x3072 .f32) (main_arg8 : FVec F S1024 .f32) (main_arg9 : FVec F S2048x2048 .f32) (main_arg10 : FVec F S2048 .f32) (main_arg11 : FVec F S1000x2048 .f32) (main_arg12 : FVec F S1000 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x1536 .f32) (main_arg1 : FVec F S1024x512 .f32) (main_arg2 : FVec F S1024 .f32) (main_arg3 : FVec F S1024x512 .f32) (main_arg4 : FVec F S1024 .f32) (main_arg5 : FVec F S1024x512 .f32) (main_arg6 : FVec F S1024 .f32) (main_arg7 : FVec F S1024x3072 .f32) (main_arg8 : FVec F S1024 .f32) (main_arg9 : FVec F S2048x2048 .f32) (main_arg10 : FVec F S2048 .f32) (main_arg11 : FVec F S1000x2048 .f32) (main_arg12 : FVec F S1000 .f32) : IVec S_ 1 :=
  let main_v0 : FVec F S16384x1536 .f32 := Host.absf main_arg0
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_c : IVec S_ 1 := constantI S_ 1 1#1
  let main_v3 : IVec S_ 1 := (fun x v => Host.reduce IntOp.andi x v reducesTo_S16384x1536_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_arg11 main_arg12 main_v13 main_v16
-- ==== Kernel.lean ====
abbrev S16384x1536 : Shape := ⟨2, ![16384, 1536]⟩
abbrev S1024x512 : Shape := ⟨2, ![1024, 512]⟩
abbrev S1024 : Shape := ⟨1, ![1024]⟩
abbrev S1024x3072 : Shape := ⟨2, ![1024, 3072]⟩
abbrev S2048x2048 : Shape := ⟨2, ![2048, 2048]⟩
abbrev S2048 : Shape := ⟨1, ![2048]⟩
abbrev S1000x2048 : Shape := ⟨2, ![1000, 2048]⟩
abbrev S1000 : Shape := ⟨1, ![1000]⟩
abbrev S512x1024 : Shape := ⟨2, ![512, 1024]⟩
abbrev S3072x1024 : Shape := ⟨2, ![3072, 1024]⟩
abbrev S_ : Shape := ⟨0, ![]⟩
abbrev S1024x2048 : Shape := ⟨2, ![1024, 2048]⟩
abbrev S1 : Shape := ⟨1, ![1]⟩
abbrev S2048x1024 : Shape := ⟨2, ![2048, 1024]⟩
abbrev S1x1024 : Shape := ⟨2, ![1, 1024]⟩
abbrev S1x2048 : Shape := ⟨2, ![1, 2048]⟩
abbrev S16384x1024 : Shape := ⟨2, ![16384, 1024]⟩
abbrev S256x1536 : Shape := ⟨2, ![256, 1536]⟩
abbrev S256x1024 : Shape := ⟨2, ![256, 1024]⟩
abbrev S256x512 : Shape := ⟨2, ![256, 512]⟩
abbrev S1024x1024 : Shape := ⟨2, ![1024, 1024]⟩
abbrev S256 : Shape := ⟨1, ![256]⟩
abbrev S256x1 : Shape := ⟨2, ![256, 1]⟩
abbrev S256x2048 : Shape := ⟨2, ![256, 2048]⟩
abbrev S16384x1000 : Shape := ⟨2, ![16384, 1000]⟩

abbrev nBuf : Space → Nat
  | .hbm => 43
  | .vmem => 16
  | .smem => 0
  | _ => 0

abbrev bufTy : (tb : Table) → Fin (tcTables nBuf tb) → BufTy
  | .hbm, ⟨0, _⟩ => ⟨S16384x1536, .f32⟩
  | .hbm, ⟨1, _⟩ => ⟨S1024x512, .f32⟩
  | .hbm, ⟨2, _⟩ => ⟨S1024, .f32⟩
  | .hbm, ⟨3, _⟩ => ⟨S1024x512, .f32⟩
  | .hbm, ⟨4, _⟩ => ⟨S1024, .f32⟩
  | .hbm, ⟨5, _⟩ => ⟨S1024x512, .f32⟩
  | .hbm, ⟨6, _⟩ => ⟨S1024, .f32⟩
  | .hbm, ⟨7, _⟩ => ⟨S1024x3072, .f32⟩
  | .hbm, ⟨8, _⟩ => ⟨S1024, .f32⟩
  | .hbm, ⟨9, _⟩ => ⟨S2048x2048, .f32⟩
  | .hbm, ⟨10, _⟩ => ⟨S2048, .f32⟩
  | .hbm, ⟨11, _⟩ => ⟨S1000x2048, .f32⟩
  | .hbm, ⟨12, _⟩ => ⟨S1000, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S3072x1024, .f32⟩
  | .hbm, ⟨20, _⟩ => ⟨S3072x1024, .bf16⟩
  | .hbm, ⟨21, _⟩ => ⟨S2048x2048, .f32⟩
  | .hbm, ⟨22, _⟩ => ⟨S2048x2048, .bf16⟩
  | .hbm, ⟨23, _⟩ => ⟨S_, .f32⟩
  | .hbm, ⟨24, _⟩ => ⟨S1024x2048, .f32⟩
  | .hbm, ⟨25, _⟩ => ⟨S_, .i32⟩
  | .hbm, ⟨26, _⟩ => ⟨S1, .i32⟩
  | .hbm, ⟨27, _⟩ => ⟨S1024x2048, .f32⟩
  | .hbm, ⟨28, _⟩ => ⟨S2048x1024, .f32⟩
  | .hbm, ⟨29, _⟩ => ⟨S2048x1024, .bf16⟩
  | .hbm, ⟨30, _⟩ => ⟨S_, .f32⟩
  | .hbm, ⟨31, _⟩ => ⟨S1024, .f32⟩
  | .hbm, ⟨32, _⟩ => ⟨S_, .i32⟩
  | .hbm, ⟨33, _⟩ => ⟨S1, .i32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x2048, .f32⟩
  | .hbm, ⟨40, _⟩ => ⟨S1x1024, .f32⟩
  | .hbm, ⟨41, _⟩ => ⟨S16384x1024, .f32⟩
  | .hbm, ⟨42, _⟩ => ⟨S16384x1000, .f32⟩
  | .local _ .vmem, ⟨0, _⟩ => ⟨S256x1536, .f32⟩
  | .local _ .vmem, ⟨1, _⟩ => ⟨S256x1536, .f32⟩
  | .local _ .vmem, ⟨2, _⟩ => ⟨S512x1024, .bf16⟩
  | .local _ .vmem, ⟨3, _⟩ => ⟨S1x1024, .f32⟩
  | .local _ .vmem, ⟨4, _⟩ => ⟨S512x1024, .bf16⟩
  | .local _ .vmem, ⟨5, _⟩ => ⟨S1x1024, .f32⟩
  | .local _ .vmem, ⟨6, _⟩ => ⟨S512x1024, .bf16⟩
  | .local _ .vmem, ⟨7, _⟩ => ⟨S1x1024, .f32⟩
  | .local _ .vmem, ⟨8, _⟩ => ⟨S3072x1024, .bf16⟩
  | .local _ .vmem, ⟨9, _⟩ => ⟨S1x1024, .f32⟩
  | .local _ .vmem, ⟨10, _⟩ => ⟨S2048x2048, .bf16⟩
  | .local _ .vmem, ⟨11, _⟩ => ⟨S1x2048, .f32⟩
  | .local _ .vmem, ⟨12, _⟩ => ⟨S2048x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S1024x512_S512x1024_1_0 : S1024x512.Transposes [1, 0] S512x1024
  bitsLt_bf16_f32 : FTy.bits .bf16 < FTy.bits .f32
  transposes_S1024x3072_S3072x1024_1_0 : S1024x3072.Transposes [1, 0] S3072x1024
  transposes_S2048x2048_S2048x2048_1_0 : S2048x2048.Transposes [1, 0] S2048x2048
  bcast_S_S1024x2048 : S_.BroadcastsInDim S1024x2048 (![] : Fin 0 → Fin S1024x2048.rank)
  bcast_S_S1 : S_.BroadcastsInDim S1 (![] : Fin 0 → Fin S1.rank)
  transposes_S1024x2048_S2048x1024_1_0 : S1024x2048.Transposes [1, 0] S2048x1024
  bcast_S_S1024 : S_.BroadcastsInDim S1024 (![] : Fin 0 → Fin S1024.rank)
  shapeCasts_S1024_S1x1024 : S1024.ShapeCasts S1x1024
  shapeCasts_S2048_S1x2048 : S2048.ShapeCasts S1x2048
  inb_S256x1536_S256x512_0_0 : ∀ a, (![0, 0] : Fin 2 → Nat) a + S256x512.size a ≤ S256x1536.size a
  h_S256x512 : 0 < S256x512.numel
  inb_S256x1536_S256x512_0_512 : ∀ a, (![0, 512] : Fin 2 → Nat) a + S256x512.size a ≤ S256x1536.size a
  inb_S256x1536_S256x512_0_1024 : ∀ a, (![0, 1024] : Fin 2 → Nat) a + S256x512.size a ≤ S256x1536.size a
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S3072x1024_S1024x1024_0_0 : ∀ a, (![0, 0] : Fin 2 → Nat) a + S1024x1024.size a ≤ S3072x1024.size a
  h_S1024x1024 : 0 < S1024x1024.numel
  shapeCasts_S1024x1024_S1024x1024 : S1024x1024.ShapeCasts S1024x1024
  inb_S3072x1024_S1024x1024_1024_0 : ∀ a, (![1024, 0] : Fin 2 → Nat) a + S1024x1024.size a ≤ S3072x1024.size a
  inb_S3072x1024_S1024x1024_2048_0 : ∀ a, (![2048, 0] : Fin 2 → Nat) a + S1024x1024.size a ≤ S3072x1024.size a
  reduces_S256x1024_S256 : S256x1024.Reduces [1] S256
  shapeCasts_S256_S256x1 : S256.ShapeCasts S256x1
  broadcasts_S256x1_S256x1024 : S256x1.Broadcasts S256x1024
  inb_S2048x2048_S1024x2048_0_0 : ∀ a, (![0, 0] : Fin 2 → Nat) a + S1024x2048.size a ≤ S2048x2048.size a
  h_S1024x2048 : 0 < S1024x2048.numel
  shapeCasts_S1024x2048_S1024x2048 : S1024x2048.ShapeCasts S1024x2048
  inb_S2048x2048_S1024x2048_1024_0 : ∀ a, (![1024, 0] : Fin 2 → Nat) a + S1024x2048.size a ≤ S2048x2048.size a
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S256x1024_S256x1024_0_0 : ∀ a, (![0, 0] : Fin 2 → Nat) a + S256x1024.size a ≤ S256x1024.size a
  h_S256x1024 : 0 < S256x1024.numel
  slices_S16384x1024_S16384x1000_0_0 : S16384x1024.Slices ![0, 0] S16384x1000
  scatter_S1024x2048_S1_S1000x2048_01_n_0_0_wf : ScatterDims.WF S1024x2048 S1 S1000x2048 [0, 1] [] [0] 0
  scatter_S1024_S1_S1000_0_n_0_0_wf : ScatterDims.WF S1024 S1 S1000 [0] [] [0] 0
  dot_S256x512_S512x1024_S256x1024_1_0_0_1_n_n_wf : DotDims.WF S256x512 S512x1024 S256x1024 [1] [0] [0] [1] [] []
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1536.size a ≤ S16384x1536.size a
  hwx0_0 : ∀ i : grid0.Coords, EltTy.bits .f32 = 32 ∨ (Rect.block (s := S16384x1536) S256x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3072x1024.size a ≤ S3072x1024.size a
  hwx0_7 : ∀ i : grid0.Coords, EltTy.bits .bf16 = 32 ∨ (Rect.block (s := S3072x1024) S3072x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x2048.size a ≤ S2048x2048.size a
  hwx0_9 : ∀ i : grid0.Coords, EltTy.bits .bf16 = 32 ∨ (Rect.block (s := S2048x2048) S2048x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x1024.size a ≤ S2048x1024.size a
  hwx0_11 : ∀ i : grid0.Coords, EltTy.bits .bf16 = 32 ∨ (Rect.block (s := S2048x1024) S2048x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S16384x1024.size a
  hwx0_13 : ∀ i : grid0.Coords, EltTy.bits .f32 = 32 ∨ (Rect.block (s := S16384x1024) S256x1024.size (cc0_transform_13 i) (hinb0_13 i)).WholeWords (EltTy.packing .f32)

variable [Facts₀]

def scatter_S1024x2048_S1_S1000x2048_01_n_0_0 : ScatterDims S1024x2048 S1 S1000x2048 where
  updateWindowDims := [0, 1]
  insertedWindowDims := []
  scatterDimsToOperandDims := [0]
  indexVectorDim := 0
  wf := scatter_S1024x2048_S1_S1000x2048_01_n_0_0_wf
def scatter_S1024_S1_S1000_0_n_0_0 : ScatterDims S1024 S1 S1000 where
  updateWindowDims := [0]
  insertedWindowDims := []
  scatterDimsToOperandDims := [0]
  indexVectorDim := 0
  wf := scatter_S1024_S1_S1000_0_n_0_0_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S3072x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S2048x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S2048x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S256x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x1536 : Shape := ⟨2, ![16384, 1536]⟩
abbrev S1024x512 : Shape := ⟨2, ![1024, 512]⟩
abbrev S1024 : Shape := ⟨1, ![1024]⟩
abbrev S1024x3072 : Shape := ⟨2, ![1024, 3072]⟩
abbrev S2048x2048 : Shape := ⟨2, ![2048, 2048]⟩
abbrev S2048 : Shape := ⟨1, ![2048]⟩
abbrev S1000x2048 : Shape := ⟨2, ![1000, 2048]⟩
abbrev S1000 : Shape := ⟨1, ![1000]⟩
abbrev S16384x512 : Shape := ⟨2, ![16384, 512]⟩
abbrev S512x1024 : Shape := ⟨2, ![512, 1024]⟩
abbrev S16384x1024 : Shape := ⟨2, ![16384, 1024]⟩
abbrev S1x1024 : Shape := ⟨2, ![1, 1024]⟩
abbrev S_ : Shape := ⟨0, ![]⟩
abbrev S16384x3072 : Shape := ⟨2, ![16384, 3072]⟩
abbrev S3072x1024 : Shape := ⟨2, ![3072, 1024]⟩
abbrev S16384 : Shape := ⟨1, ![16384]⟩
abbrev S16384x1 : Shape := ⟨2, ![16384, 1]⟩
abbrev S16384x3 : Shape := ⟨2, ![16384, 3]⟩
abbrev S16384x2048 : Shape := ⟨2, ![16384, 2048]⟩
abbrev S1x2048 : Shape := ⟨2, ![1, 2048]⟩
abbrev S2048x1000 : Shape := ⟨2, ![2048, 1000]⟩
abbrev S16384x1000 : Shape := ⟨2, ![16384, 1000]⟩
abbrev S1x1000 : Shape := ⟨2, ![1, 1000]⟩

abbrev nBuf : Space → Nat
  | .hbm => 101
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S1024x512, .f32⟩
  | .hbm, ⟨2, _⟩ => ⟨S1024, .f32⟩
  | .hbm, ⟨3, _⟩ => ⟨S1024x512, .f32⟩
  | .hbm, ⟨4, _⟩ => ⟨S1024, .f32⟩
  | .hbm, ⟨5, _⟩ => ⟨S1024x512, .f32⟩
  | .hbm, ⟨6, _⟩ => ⟨S1024, .f32⟩
  | .hbm, ⟨7, _⟩ => ⟨S1024x3072, .f32⟩
  | .hbm, ⟨8, _⟩ => ⟨S1024, .f32⟩
  | .hbm, ⟨9, _⟩ => ⟨S2048x2048, .f32⟩
  | .hbm, ⟨10, _⟩ => ⟨S2048, .f32⟩
  | .hbm, ⟨11, _⟩ => ⟨S1000x2048, .f32⟩
  | .hbm, ⟨12, _⟩ => ⟨S1000, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S512x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S512x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S512x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x3072, .f32⟩
  | .hbm, ⟨41, _⟩ => ⟨S3072x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x3, .f32⟩
  | .hbm, ⟨62, _⟩ => ⟨S_, .f32⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S16384, .f32⟩
  | .hbm, ⟨67, _⟩ => ⟨S16384x1, .f32⟩
  | .hbm, ⟨68, _⟩ => ⟨S16384x3, .f32⟩
  | .hbm, ⟨69, _⟩ => ⟨S16384x3, .f32⟩
  | .hbm, ⟨70, _⟩ => ⟨S16384x3, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S16384x3, .f32⟩
  | .hbm, ⟨75, _⟩ => ⟨S16384x3, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x2048, .f32⟩
  | .hbm, ⟨88, _⟩ => ⟨S2048x2048, .f32⟩
  | .hbm, ⟨89, _⟩ => ⟨S16384x2048, .f32⟩
  | .hbm, ⟨90, _⟩ => ⟨S1x2048, .f32⟩
  | .hbm, ⟨91, _⟩ => ⟨S16384x2048, .f32⟩
  | .hbm, ⟨92, _⟩ => ⟨S16384x2048, .f32⟩
  | .hbm, ⟨93, _⟩ => ⟨S_, .f32⟩
  | .hbm, ⟨94, _⟩ => ⟨S16384x2048, .f32⟩
  | .hbm, ⟨95, _⟩ => ⟨S16384x2048, .f32⟩
  | .hbm, ⟨96, _⟩ => ⟨S2048x1000, .f32⟩
  | .hbm, ⟨97, _⟩ => ⟨S16384x1000, .f32⟩
  | .hbm, ⟨98, _⟩ => ⟨S1x1000, .f32⟩
  | .hbm, ⟨99, _⟩ => ⟨S16384x1000, .f32⟩
  | .hbm, ⟨100, _⟩ => ⟨S16384x1000, .f32⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_cst : Ref sig .tc := ⟨.hbm, 29, rfl⟩
abbrev main_call1_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call2_cst : Ref sig .tc := ⟨.hbm, 37, rfl⟩
abbrev main_call2_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call3_cst : Ref sig .tc := ⟨.hbm, 46, rfl⟩
abbrev main_call3_v0 : Ref sig .tc := ⟨.hbm, 47, rfl⟩
abbrev main_v27 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_v30 : Ref sig .tc := ⟨.hbm, 52, rfl⟩
abbrev main_cst_0 : Ref sig .tc := ⟨.hbm, 53, rfl⟩
abbrev main_v31 : Ref sig .tc := ⟨.hbm, 54, rfl⟩
abbrev main_v32 : Ref sig .tc := ⟨.hbm, 55, rfl⟩
abbrev main_cst_1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_2 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call4_cst : Ref sig .tc := ⟨.hbm, 93, rfl⟩
abbrev main_call4_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S16384x1536_S16384x512_0_0 : S16384x1536.Slices ![0, 0] S16384x512
  slices_S16384x1536_S16384x512_0_512 : S16384x1536.Slices ![0, 512] S16384x512
  slices_S16384x1536_S16384x512_0_1024 : S16384x1536.Slices ![0, 1024] S16384x512
  transposes_S1024x512_S512x1024_1_0 : S1024x512.Transposes [1, 0] S512x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  concatenates_S16384x1024_S16384x1024_S16384x1024_S16384x3072_d1 : Shape.Concatenates [S16384x1024, S16384x1024, S16384x1024] S16384x3072 1
  transposes_S1024x3072_S3072x1024_1_0 : S1024x3072.Transposes [1, 0] S3072x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  concatenates_S16384x1_S16384x1_S16384x1_S16384x3_d1 : Shape.Concatenates [S16384x1, S16384x1, S16384x1] S16384x3 1
  reducesTo_S16384x3_S16384_d1 : S16384x3.ReducesTo [1] S16384
  bcast_S_S16384 : S_.BroadcastsInDim S16384 (![] : Fin 0 → Fin S16384.rank)
  bcast_S16384x1_S16384x3_0_1 : S16384x1.BroadcastsInDim S16384x3 (![0, 1] : Fin 2 → Fin S16384x3.rank)
  slices_S16384x3_S16384x1_0_0 : S16384x3.Slices ![0, 0] S16384x1
  bcast_S16384x1_S16384x1024_0_1 : S16384x1.BroadcastsInDim S16384x1024 (![0, 1] : Fin 2 → Fin S16384x1024.rank)
  slices_S16384x3_S16384x1_0_1 : S16384x3.Slices ![0, 1] S16384x1
  slices_S16384x3_S16384x1_0_2 : S16384x3.Slices ![0, 2] S16384x1
  concatenates_S16384x1024_S16384x1024_S16384x2048_d1 : Shape.Concatenates [S16384x1024, S16384x1024] S16384x2048 1
  transposes_S2048x2048_S2048x2048_1_0 : S2048x2048.Transposes [1, 0] S2048x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  transposes_S1000x2048_S2048x1000_1_0 : S1000x2048.Transposes [1, 0] S2048x1000
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  dot_S16384x512_S512x1024_S16384x1024_1_0_0_1_n_n_wf : DotDims.WF S16384x512 S512x1024 S16384x1024 [1] [0] [0] [1] [] []
  dot_S16384x3072_S3072x1024_S16384x1024_1_0_0_1_n_n_wf : DotDims.WF S16384x3072 S3072x1024 S16384x1024 [1] [0] [0] [1] [] []
  dot_S16384x2048_S2048x2048_S16384x2048_1_0_0_1_n_n_wf : DotDims.WF S16384x2048 S2048x2048 S16384x2048 [1] [0] [0] [1] [] []
  dot_S16384x2048_S2048x1000_S16384x1000_1_0_0_1_n_n_wf : DotDims.WF S16384x2048 S2048x1000 S16384x1000 [1] [0] [0] [1] [] []

variable [Facts₀]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x3072_S3072x1024_S16384x1024_1_0_0_1_n_n : DotDims S16384x3072 S3072x1024 S16384x1024 where
  lhsContracting := [1]
  rhsContracting := [0]
  lhsNonContracting := [0]
  rhsNonContracting := [1]
  lhsBatch := []
  rhsBatch := []
  wf := dot_S16384x3072_S3072x1024_S16384x1024_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x1000_S16384x1000_1_0_0_1_n_n : DotDims S16384x2048 S2048x1000 S16384x1000 where
  lhsContracting := [1]
  rhsContracting := [0]
  lhsNonContracting := [0]
  rhsNonContracting := [1]
  lhsBatch := []
  rhsBatch := []
  wf := dot_S16384x2048_S2048x1000_S16384x1000_1_0_0_1_n_n_wf

class Facts : Prop extends Facts₀ where

variable [Facts]
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.KernelDots.lean ====
/-
  The four matrix products of the kernel's body -- [256,512]x[512,1024], [256,1024]x[1024,1024],
  [256,1024]x[1024,2048] and [256,2048]x[2048,1024] -- are plain products: each contracts the left operand's second
  axis with the right operand's first and batches nothing. Stated as the four coordinate facts of the operand
  indices, this is what lets each product, into a zero accumulator, be read at (row, column) as the finite sum over
  the inner position of left (row, k) * right (k, column).
-/
import proofs.«174068_j74491912782221_2_alg».proof.KernelIdeal
import proofs.«174068_j74491912782221_2_alg».proof.Proof.Gen.KernelIdeal
import proofs.«174068_j74491912782221_2_alg».proof.Proof.LibDotIx2

noncomputable section

namespace Cert.KernelIdeal.Dots

open Idealize.ShloMosaic Idealize.ShloMosaic.ValueIdx Cert.KernelIdeal

attribute [local instance] Cert.KernelIdeal.Gen.facts

/-- The product record dot_S256x512_S512x1024_S256x1024_1_0_0_1_n_n is a plain one: the left operand's second axis is contracted with the
    right operand's first, nothing is batched. -/
theorem plain_S256x512_S512x1024_S256x1024_1_0_0_1_n_n : PlainDot dot_S256x512_S512x1024_S256x1024_1_0_0_1_n_n where
  rank := rfl
  size := rfl
  l0 := fun j q => by
    unfold DotDims.lhsIdx
    rw [dif_neg (show ¬(0 : Fin (2 : ℕ)) ∈ dot_S256x512_S512x1024_S256x1024_1_0_0_1_n_n.lhsBatch by decide),
      dif_pos (show (0 : Fin (2 : ℕ)) ∈ dot_S256x512_S512x1024_S256x1024_1_0_0_1_n_n.lhsNonContracting by decide)]
    rfl
  l1 := fun j q => dot_S256x512_S512x1024_S256x1024_1_0_0_1_n_n.lhsIdx_val_of_single rfl j q
  r0 := fun j q => dot_S256x512_S512x1024_S256x1024_1_0_0_1_n_n.rhsIdx_val_of_single rfl j q
  r1 := fun j q => by
    unfold DotDims.rhsIdx
    rw [dif_neg (show ¬(1 : Fin (2 : ℕ)) ∈ dot_S256x512_S512x1024_S256x1024_1_0_0_1_n_n.rhsBatch by decide),
      dif_pos (show (1 : Fin (2 : ℕ)) ∈ dot_S256x512_S512x1024_S256x1024_1_0_0_1_n_n.rhsNonContracting by decide)]
    rfl

/-- The product record dot_S256x1024_S1024x1024_S256x1024_1_0_0_1_n_n is a plain one: the left operand's second axis is contracted with the
    right operand's first, nothing is batched. -/
theorem plain_S256x1024_S1024x1024_S256x1024_1_0_0_1_n_n : PlainDot dot_S256x1024_S1024x1024_S256x1024_1_0_0_1_n_n where
  rank := rfl
  size := rfl
  l0 := fun j q => by
    unfold DotDims.lhsIdx
    rw [dif_neg (show ¬(0 : Fin (2 : ℕ)) ∈ dot_S256x1024_S1024x1024_S256x1024_1_0_0_1_n_n.lhsBatch by decide),
      dif_pos (show (0 : Fin (2 : ℕ)) ∈ dot_S256x1024_S1024x1024_S256x1024_1_0_0_1_n_n.lhsNonContracting by decide)]
    rfl
  l1 := fun j q => dot_S256x1024_S1024x1024_S256x1024_1_0_0_1_n_n.lhsIdx_val_of_single rfl j q
  r0 := fun j q => dot_S256x1024_S1024x1024_S256x1024_1_0_0_1_n_n.rhsIdx_val_of_single rfl j q
  r1 := fun j q => by
    unfold DotDims.rhsIdx
    rw [dif_neg (show ¬(1 : Fin (2 : ℕ)) ∈ dot_S256x1024_S1024x1024_S256x1024_1_0_0_1_n_n.rhsBatch by decide),
      dif_pos (show (1 : Fin (2 : ℕ)) ∈ dot_S256x1024_S1024x1024_S256x1024_1_0_0_1_n_n.rhsNonContracting by decide)]
    rfl

/-- The product record dot_S256x1024_S1024x2048_S256x2048_1_0_0_1_n_n is a plain one: the left operand's second axis is contracted with the
    right operand's first, nothing is batched. -/
theorem plain_S256x1024_S1024x2048_S256x2048_1_0_0_1_n_n : PlainDot dot_S256x1024_S1024x2048_S256x2048_1_0_0_1_n_n where
  rank := rfl
  size := rfl
  l0 := fun j q => by
    unfold DotDims.lhsIdx
    rw [dif_neg (show ¬(0 : Fin (2 : ℕ)) ∈ dot_S256x1024_S1024x2048_S256x2048_1_0_0_1_n_n.lhsBatch by decide),
      dif_pos (show (0 : Fin (2 : ℕ)) ∈ dot_S256x1024_S1024x2048_S256x2048_1_0_0_1_n_n.lhsNonContracting by decide)]
    rfl
  l1 := fun j q => dot_S256x1024_S1024x2048_S256x2048_1_0_0_1_n_n.lhsIdx_val_of_single rfl j q
  r0 := fun j q => dot_S256x1024_S1024x2048_S256x2048_1_0_0_1_n_n.rhsIdx_val_of_single rfl j q
  r1 := fun j q => by
    unfold DotDims.rhsIdx
    rw [dif_neg (show ¬(1 : Fin (2 : ℕ)) ∈ dot_S256x1024_S1024x2048_S256x2048_1_0_0_1_n_n.rhsBatch by decide),
      dif_pos (show (1 : Fin (2 : ℕ)) ∈ dot_S256x1024_S1024x2048_S256x2048_1_0_0_1_n_n.rhsNonContracting by decide)]
    rfl

/-- The product record dot_S256x2048_S2048x1024_S256x1024_1_0_0_1_n_n is a plain one: the left operand's second axis is contracted with the
    right operand's first, nothing is batched. -/
theorem plain_S256x2048_S2048x1024_S256x1024_1_0_0_1_n_n : PlainDot dot_S256x2048_S2048x1024_S256x1024_1_0_0_1_n_n where
  rank := rfl
  size := rfl
  l0 := fun j q => by
    unfold DotDims.lhsIdx
    rw [dif_neg (show ¬(0 : Fin (2 : ℕ)) ∈ dot_S256x2048_S2048x1024_S256x1024_1_0_0_1_n_n.lhsBatch by decide),
      dif_pos (show (0 : Fin (2 : ℕ)) ∈ dot_S256x2048_S2048x1024_S256x1024_1_0_0_1_n_n.lhsNonContracting by decide)]
    rfl
  l1 := fun j q => dot_S256x2048_S2048x1024_S256x1024_1_0_0_1_n_n.lhsIdx_val_of_single rfl j q
  r0 := fun j q => dot_S256x2048_S2048x1024_S256x1024_1_0_0_1_n_n.rhsIdx_val_of_single rfl j q
  r1 := fun j q => by
    unfold DotDims.rhsIdx
    rw [dif_neg (show ¬(1 : Fin (2 : ℕ)) ∈ dot_S256x2048_S2048x1024_S256x1024_1_0_0_1_n_n.rhsBatch by decide),
      dif_pos (show (1 : Fin (2 : ℕ)) ∈ dot_S256x2048_S2048x1024_S256x1024_1_0_0_1_n_n.rhsNonContracting by decide)]
    rfl

end Cert.KernelIdeal.Dots

end
-- ==== Proof.RowNet.lean ====
/-
  The network this kernel computes, one input row at a time, on the extended reals.

  A row of the input is three vectors x1, x2, x3 of 512 entries. Three rectified dense layers give p1, p2, p3
  (1024 entries each); a rectified dense layer on their concatenation gives h (1024 entries), written here as the
  sum of three partial products, one per third of the weight rows; the three scores a_k = <h, p_k> are turned into
  weights g_k = exp (a_k - m) / ((e_1 + e_2) + e_3), m the largest score; the mixture g_1 p1 + g_2 p2 + g_3 p3 and h,
  concatenated, go through a rectified dense layer of width 2048, again written as two partial products; a last
  dense layer maps that to the output entry.

  Also here: a sum over 3072 (over 2048) positions is the sum of the sums over its thirds (halves) -- the one law
  that joins a product with a concatenated operand to the sum of the partial products -- and the maximum of three
  scores as a fold from the bottom element.
-/
import Idealize.ShloMosaic.PureOps.Ideal
import Mathlib.Algebra.BigOperators.Fin
import Mathlib.Data.Finset.Fold

noncomputable section

open scoped BigOperators

namespace Cert.RowNet

open Idealize.ShloMosaic

/-! ## Sums over a concatenated axis -/

/-- A sum over 2048 positions is the sum over the first 1024 plus the sum over the last 1024. -/
theorem sum_halves {M : Type*} [AddCommMonoid M] (f : Fin 2048 → M) :
    ∑ k, f k = ∑ k : Fin 1024, f ⟨k.val, by omega⟩ + ∑ k : Fin 1024, f ⟨1024 + k.val, by omega⟩ :=
  Fin.sum_univ_add (a := 1024) (b := 1024) f

/-- A sum over 3072 positions is the sum of the sums over its three thirds, the first two added first. -/
theorem sum_thirds {M : Type*} [AddCommMonoid M] (f : Fin 3072 → M) :
    ∑ k, f k = (∑ k : Fin 1024, f ⟨k.val, by omega⟩ + ∑ k : Fin 1024, f ⟨1024 + k.val, by omega⟩)
      + ∑ k : Fin 1024, f ⟨2048 + k.val, by omega⟩ := by
  have h1 : ∑ k, f k = ∑ k : Fin 2048, f ⟨k.val, by omega⟩ + ∑ k : Fin 1024, f ⟨2048 + k.val, by omega⟩ :=
    Fin.sum_univ_add (a := 2048) (b := 1024) f
  rw [h1, sum_halves fun k : Fin 2048 => f ⟨k.val, by omega⟩]

/-! ## The layers, entry by entry -/

/-- Entry c of a rectified dense layer: max (sum_k x_k w_kc + b_c) 0. -/
def act1 {K N : ℕ} (x : Fin K → EReal) (w : Fin K → Fin N → EReal) (b : Fin N → EReal) (c : Fin N) : EReal :=
  max (∑ k, x k * w k c + b c) 0

/-- Entry c of a rectified dense layer on two inputs, each with its own weights: the two products added, then the bias. -/
def act2 {K N : ℕ} (x y : Fin K → EReal) (wx wy : Fin K → Fin N → EReal) (b : Fin N → EReal) (c : Fin N) : EReal :=
  max ((∑ k, x k * wx k c + ∑ k, y k * wy k c) + b c) 0

/-- Entry c of a rectified dense layer on three inputs: the three products added left to right, then the bias. -/
def act3 {K N : ℕ} (x y z : Fin K → EReal) (wx wy wz : Fin K → Fin N → EReal) (b : Fin N → EReal) (c : Fin N) : EReal :=
  max (((∑ k, x k * wx k c + ∑ k, y k * wy k c) + ∑ k, z k * wz k c) + b c) 0

/-- The score of a vector p against h. -/
def score {N : ℕ} (h p : Fin N → EReal) : EReal := ∑ j, h j * p j

/-- The largest of three scores. -/
def top (a b c : EReal) : EReal := max (max a b) c

/-- The unnormalised weight of a score a under the largest score m. -/
def ex (a m : EReal) : EReal := Ideal.exp (a - m)

/-- The normaliser. -/
def tot (e1 e2 e3 : EReal) : EReal := (e1 + e2) + e3

/-- Entry c of the mixture of three vectors under three weights. -/
def mix {N : ℕ} (g1 g2 g3 : EReal) (p1 p2 p3 : Fin N → EReal) (c : Fin N) : EReal :=
  (g1 * p1 c + g2 * p2 c) + g3 * p3 c

/-- Entry of the last dense layer. -/
def lin {K : ℕ} (x : Fin K → EReal) (w : Fin K → EReal) (b : EReal) : EReal := ∑ k, x k * w k + b

/-! ## The weights, and the network on one row -/

/-- The weights of every layer but the last, each matrix indexed (input position, output position). -/
structure Params where
  w1 : Fin 512 → Fin 1024 → EReal
  b1 : Fin 1024 → EReal
  w2 : Fin 512 → Fin 1024 → EReal
  b2 : Fin 1024 → EReal
  w3 : Fin 512 → Fin 1024 → EReal
  b3 : Fin 1024 → EReal
  h1 : Fin 1024 → Fin 1024 → EReal
  h2 : Fin 1024 → Fin 1024 → EReal
  h3 : Fin 1024 → Fin 1024 → EReal
  bh : Fin 1024 → EReal
  da : Fin 1024 → Fin 2048 → EReal
  db : Fin 1024 → Fin 2048 → EReal
  bd : Fin 2048 → EReal

variable (θ : Params) (x1 x2 x3 : Fin 512 → EReal)

def p1 : Fin 1024 → EReal := act1 x1 θ.w1 θ.b1
def p2 : Fin 1024 → EReal := act1 x2 θ.w2 θ.b2
def p3 : Fin 1024 → EReal := act1 x3 θ.w3 θ.b3

/-- The hidden vector of a row. -/
def hid : Fin 1024 → EReal := act3 (p1 θ x1) (p2 θ x2) (p3 θ x3) θ.h1 θ.h2 θ.h3 θ.bh

def a1 : EReal := score (hid θ x1 x2 x3) (p1 θ x1)
def a2 : EReal := score (hid θ x1 x2 x3) (p2 θ x2)
def a3 : EReal := score (hid θ x1 x2 x3) (p3 θ x3)
def am : EReal := top (a1 θ x1 x2 x3) (a2 θ x1 x2 x3) (a3 θ x1 x2 x3)
def e1 : EReal := ex (a1 θ x1 x2 x3) (am θ x1 x2 x3)
def e2 : EReal := ex (a2 θ x1 x2 x3) (am θ x1 x2 x3)
def e3 : EReal := ex (a3 θ x1 x2 x3) (am θ x1 x2 x3)
def et : EReal := tot (e1 θ x1 x2 x3) (e2 θ x1 x2 x3) (e3 θ x1 x2 x3)
def g1 : EReal := Ideal.div (e1 θ x1 x2 x3) (et θ x1 x2 x3)
def g2 : EReal := Ideal.div (e2 θ x1 x2 x3) (et θ x1 x2 x3)
def g3 : EReal := Ideal.div (e3 θ x1 x2 x3) (et θ x1 x2 x3)

/-- The mixture of p1, p2, p3 under the softmax of their scores. -/
def ctx : Fin 1024 → EReal := mix (g1 θ x1 x2 x3) (g2 θ x1 x2 x3) (g3 θ x1 x2 x3) (p1 θ x1) (p2 θ x2) (p3 θ x3)

/-- The decoder's hidden vector of a row. -/
def dec : Fin 2048 → EReal := act2 (ctx θ x1 x2 x3) (hid θ x1 x2 x3) θ.da θ.db θ.bd

/-- One output entry of a row, from the column w of the last layer's weights and the bias entry b. -/
def out (w : Fin 2048 → EReal) (b : EReal) : EReal := lin (dec θ x1 x2 x3) w b

/-! ## The same layers with a concatenated input -/

/-- Three vectors of 1024 entries laid end to end. -/
def cat3 (u v w : Fin 1024 → EReal) (k : Fin 3072) : EReal :=
  if h : k.val < 1024 then u ⟨k.val, h⟩ else if h' : k.val < 2048 then v ⟨k.val - 1024, by omega⟩ else w ⟨k.val - 2048, by omega⟩

/-- Two vectors of 1024 entries laid end to end. -/
def cat2 (u v : Fin 1024 → EReal) (k : Fin 2048) : EReal :=
  if h : k.val < 1024 then u ⟨k.val, h⟩ else v ⟨k.val - 1024, by omega⟩

/-- A rectified dense layer on the concatenation of three vectors, against one 3072-row weight matrix, is the
    three-input layer against the matrix's three thirds. -/
theorem act_cat3 (u v w : Fin 1024 → EReal) (W : Fin 3072 → Fin 1024 → EReal) (b : Fin 1024 → EReal) (c : Fin 1024) :
    max (∑ k, cat3 u v w k * W k c + b c) 0
      = act3 u v w (fun k c => W ⟨k.val, by omega⟩ c) (fun k c => W ⟨1024 + k.val, by omega⟩ c)
          (fun k c => W ⟨2048 + k.val, by omega⟩ c) b c := by
  unfold act3
  rw [sum_thirds]
  have e1 : ∀ k : Fin 1024, cat3 u v w ⟨k.val, by omega⟩ = u k := fun k => by
    unfold cat3; rw [dif_pos (show k.val < 1024 from k.isLt)]
  have e2 : ∀ k : Fin 1024, cat3 u v w ⟨1024 + k.val, by omega⟩ = v k := fun k => by
    unfold cat3
    rw [dif_neg (show ¬ (1024 + k.val < 1024) by omega), dif_pos (show 1024 + k.val < 2048 by omega)]
    exact congrArg v (Fin.ext (by show 1024 + k.val - 1024 = k.val; omega))
  have e3 : ∀ k : Fin 1024, cat3 u v w ⟨2048 + k.val, by omega⟩ = w k := fun k => by
    unfold cat3
    rw [dif_neg (show ¬ (2048 + k.val < 1024) by omega), dif_neg (show ¬ (2048 + k.val < 2048) by omega)]
    exact congrArg w (Fin.ext (by show 2048 + k.val - 2048 = k.val; omega))
  simp only [e1, e2, e3]

/-- The same for two vectors against a 2048-row weight matrix. -/
theorem act_cat2 (u v : Fin 1024 → EReal) (W : Fin 2048 → Fin 2048 → EReal) (b : Fin 2048 → EReal) (c : Fin 2048) :
    max (∑ k, cat2 u v k * W k c + b c) 0
      = act2 u v (fun k c => W ⟨k.val, by omega⟩ c) (fun k c => W ⟨1024 + k.val, by omega⟩ c) b c := by
  unfold act2
  rw [sum_halves]
  have e1 : ∀ k : Fin 1024, cat2 u v ⟨k.val, by omega⟩ = u k := fun k => by
    unfold cat2; rw [dif_pos (show k.val < 1024 from k.isLt)]
  have e2 : ∀ k : Fin 1024, cat2 u v ⟨1024 + k.val, by omega⟩ = v k := fun k => by
    unfold cat2
    rw [dif_neg (show ¬ (1024 + k.val < 1024) by omega)]
    exact congrArg v (Fin.ext (by show 1024 + k.val - 1024 = k.val; omega))
  simp only [e1, e2]

/-! ## The softmax's spelling with folds -/

/-- The f32 word of minus infinity is the bottom element. -/
theorem negInf_f32 : Ideal.ofBits .f32 0xFF800000#32 = (⊥ : EReal) := by simp [Ideal.ofBits, Ideal.ieee]

/-- The maximum with the bottom element of the fold of max from the bottom element over three scores is their largest. -/
theorem top_eq_fold (s : Fin 3 → EReal) :
    max (⊥ : EReal) ((Finset.univ : Finset (Fin 3)).fold max (⊥ : EReal) s) = top (s 0) (s 1) (s 2) := by
  rw [max_eq_right bot_le]
  unfold top
  refine le_antisymm ?_ ?_
  · refine (Finset.fold_max_le _).mpr ⟨bot_le, fun j _ => ?_⟩
    fin_cases j
    · exact le_max_of_le_left (le_max_left _ _)
    · exact le_max_of_le_left (le_max_right _ _)
    · exact le_max_right _ _
  · exact max_le (max_le ((Finset.le_fold_max _).mpr (Or.inr ⟨0, Finset.mem_univ _, le_rfl⟩))
      ((Finset.le_fold_max _).mpr (Or.inr ⟨1, Finset.mem_univ _, le_rfl⟩)))
      ((Finset.le_fold_max _).mpr (Or.inr ⟨2, Finset.mem_univ _, le_rfl⟩))

/-- Zero plus the sum over three weights is the normaliser. -/
theorem tot_eq_sum (s : Fin 3 → EReal) : (0 : EReal) + ∑ j, s j = tot (s 0) (s 1) (s 2) := by
  rw [zero_add, Fin.sum_univ_three]; rfl

end Cert.RowNet

end
-- ==== Proof.KernelPay1.lean ====
/-
  The body's first three values, read at an index. Each of the three pieces of the input block (columns 0-511,
  512-1023, 1024-1535 of a block of 256 rows) is multiplied on the matrix unit by its [512,1024] weight block into a
  zero accumulator, the [1,1024] bias row is added to every row, and the result is rectified. Rounding the operands to
  bf16 changes nothing on the extended reals. So entry (p, c) is max (sum_k piece (p,k) * weight (k,c) + bias (0,c)) 0:
  the rectified dense layer of the row network, on row p of the piece.
-/
import proofs.«174068_j74491912782221_2_alg».proof.Proof.Gen.KernelIdeal.Skeleton
import proofs.«174068_j74491912782221_2_alg».proof.Proof.KernelDots
import proofs.«174068_j74491912782221_2_alg».proof.Proof.RowNet
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert

attribute [local instance] Cert.KernelIdeal.Gen.facts

/-- Payload 2 -- a [256,512] piece of the input block times a [512,1024] weight block, plus the bias row, rectified --
    at (p, c): the rectified dense layer's entry c on row p of the piece. -/
theorem pay2_apply (v0 : Vec Ideal S256x512 .f32) (v6 : Vec Ideal S512x1024 .bf16) (v9 : Vec Ideal S1x1024 .f32)
    (p : Fin 256) (c : Fin 1024) :
    k0_pay2 (F := Ideal) v0 v6 v9 (ix2 p c)
      = RowNet.act1 (fun k : Fin 512 => v0 (ix2 p k)) (fun (k : Fin 512) (c : Fin 1024) => v6 (ix2 k c))
          (fun c : Fin 1024 => v9 (ix2 (0 : Fin 1) c)) c := by
  unfold k0_pay2 RowNet.act1
  refine congrArg₂ max (congrArg₂ (· + ·) ?_ ?_) Ideal.ofBits_zero_f32
  · refine (matmul_zero_ix2_any Dots.plain_S256x512_S512x1024_S256x1024_1_0_0_1_n_n none _ _ p c).trans ?_
    refine Finset.sum_congr rfl fun k _ => congrArg₂ (· * ·) rfl ?_
    exact congrFun (shapeCast_self v6 shapeCasts_S512x1024_S512x1024) (ix2 k c)
  · refine (broadcastTo_1b_ab_apply _ broadcasts_S1x1024_S256x1024 p c).trans ?_
    exact congrFun (shapeCast_self v9 shapeCasts_S1x1024_S1x1024) (ix2 (0 : Fin 1) c)

/-- Payload 3 -- a [256,512] piece of the input block times a [512,1024] weight block, plus the bias row, rectified --
    at (p, c): the rectified dense layer's entry c on row p of the piece. -/
theorem pay3_apply (v2 : Vec Ideal S256x512 .f32) (v15 : Vec Ideal S512x1024 .bf16) (v18 : Vec Ideal S1x1024 .f32)
    (p : Fin 256) (c : Fin 1024) :
    k0_pay3 (F := Ideal) v2 v15 v18 (ix2 p c)
      = RowNet.act1 (fun k : Fin 512 => v2 (ix2 p k)) (fun (k : Fin 512) (c : Fin 1024) => v15 (ix2 k c))
          (fun c : Fin 1024 => v18 (ix2 (0 : Fin 1) c)) c := by
  unfold k0_pay3 RowNet.act1
  refine congrArg₂ max (congrArg₂ (· + ·) ?_ ?_) Ideal.ofBits_zero_f32
  · refine (matmul_zero_ix2_any Dots.plain_S256x512_S512x1024_S256x1024_1_0_0_1_n_n none _ _ p c).trans ?_
    refine Finset.sum_congr rfl fun k _ => congrArg₂ (· * ·) rfl ?_
    exact congrFun (shapeCast_self v15 shapeCasts_S512x1024_S512x1024) (ix2 k c)
  · refine (broadcastTo_1b_ab_apply _ broadcasts_S1x1024_S256x1024 p c).trans ?_
    exact congrFun (shapeCast_self v18 shapeCasts_S1x1024_S1x1024) (ix2 (0 : Fin 1) c)

/-- Payload 4 -- a [256,512] piece of the input block times a [512,1024] weight block, plus the bias row, rectified --
    at (p, c): the rectified dense layer's entry c on row p of the piece. -/
theorem pay4_apply (v4 : Vec Ideal S256x512 .f32) (v24 : Vec Ideal S512x1024 .bf16) (v27 : Vec Ideal S1x1024 .f32)
    (p : Fin 256) (c : Fin 1024) :
    k0_pay4 (F := Ideal) v4 v24 v27 (ix2 p c)
      = RowNet.act1 (fun k : Fin 512 => v4 (ix2 p k)) (fun (k : Fin 512) (c : Fin 1024) => v24 (ix2 k c))
          (fun c : Fin 1024 => v27 (ix2 (0 : Fin 1) c)) c := by
  unfold k0_pay4 RowNet.act1
  refine congrArg₂ max (congrArg₂ (· + ·) ?_ ?_) Ideal.ofBits_zero_f32
  · refine (matmul_zero_ix2_any Dots.plain_S256x512_S512x1024_S256x1024_1_0_0_1_n_n none _ _ p c).trans ?_
    refine Finset.sum_congr rfl fun k _ => congrArg₂ (· * ·) rfl ?_
    exact congrFun (shapeCast_self v24 shapeCasts_S512x1024_S512x1024) (ix2 k c)
  · refine (broadcastTo_1b_ab_apply _ broadcasts_S1x1024_S256x1024 p c).trans ?_
    exact congrFun (shapeCast_self v27 shapeCasts_S1x1024_S1x1024) (ix2 (0 : Fin 1) c)

end Cert.KernelIdeal.Pay

end
-- ==== Proof.KernelPay2.lean ====
/-
  The body's hidden layer, read at an index. The three rectified values p1, p2, p3 of a block of rows, recast to
  bf16 (no change on the extended reals), are each multiplied by one [1024,1024] third of the hidden layer's weights
  into a zero accumulator; the three products are added left to right, the [1,1024] bias row is added to every row,
  and the result is rectified. So entry (p, c) is the three-input rectified dense layer of the row network on row p
  of the three values.
-/
import proofs.«174068_j74491912782221_2_alg».proof.Proof.KernelPay1

noncomputable section

namespace Cert.KernelIdeal.Pay

open Idealize.ShloMosaic Idealize.ShloMosaic.ValueIdx Cert.KernelIdeal Cert.KernelIdeal.Gen Cert

attribute [local instance] Cert.KernelIdeal.Gen.facts

/-- Recasting the first rectified value to bf16 leaves every entry as it is. -/
theorem pay5_apply (v0 : Vec Ideal S256x512 .f32) (v6 : Vec Ideal S512x1024 .bf16) (v9 : Vec Ideal S1x1024 .f32)
    (i : S256x1024.Idx) : (k0_pay5 (F := Ideal) v0 v6 v9 i : EReal) = k0_pay2 (F := Ideal) v0 v6 v9 i := rfl

/-- Recasting the second rectified value to bf16 leaves every entry as it is. -/
theorem pay6_apply (v2 : Vec Ideal S256x512 .f32) (v15 : Vec Ideal S512x1024 .bf16) (v18 : Vec Ideal S1x1024 .f32)
    (i : S256x1024.Idx) : (k0_pay6 (F := Ideal) v2 v15 v18 i : EReal) = k0_pay3 (F := Ideal) v2 v15 v18 i := rfl

/-- The hidden layer at (p, c): three products against the three thirds of the weights, the bias, rectified. -/
theorem pay7_apply (v32 : FVec Ideal S256x1024 .f32) (v33 v34 : FVec Ideal S256x1024 .bf16)
    (v36 v38 v40 : Vec Ideal S1024x1024 .bf16) (v47 : Vec Ideal S1x1024 .f32) (p : Fin 256) (c : Fin 1024) :
    k0_pay7 (F := Ideal) v32 v33 v34 v36 v38 v40 v47 (ix2 p c)
      = RowNet.act3 (fun k : Fin 1024 => (v33 (ix2 p k) : EReal)) (fun k : Fin 1024 => (v34 (ix2 p k) : EReal))
          (fun k : Fin 1024 => (v32 (ix2 p k) : EReal))
          (fun (k : Fin 1024) (c : Fin 1024) => (v36 (ix2 k c) : EReal)) (fun (k : Fin 1024) (c : Fin 1024) => (v38 (ix2 k c) : EReal))
          (fun (k : Fin 1024) (c : Fin 1024) => (v40 (ix2 k c) : EReal))
          (fun c : Fin 1024 => v47 (ix2 (0 : Fin 1) c)) c := by
  unfold k0_pay7 RowNet.act3
  refine congrArg₂ max (congrArg₂ (· + ·) (congrArg₂ (· + ·) (congrArg₂ (· + ·) ?_ ?_) ?_) ?_) Ideal.ofBits_zero_f32
  · refine (matmul_zero_ix2_any Dots.plain_S256x1024_S1024x1024_S256x1024_1_0_0_1_n_n none _ _ p c).trans ?_
    refine Finset.sum_congr rfl fun k _ => congrArg₂ (· * ·) rfl ?_
    exact congrFun (shapeCast_self v36 shapeCasts_S1024x1024_S1024x1024) (ix2 k c)
  · refine (matmul_zero_ix2_any Dots.plain_S256x1024_S1024x1024_S256x1024_1_0_0_1_n_n none _ _ p c).trans ?_
    refine Finset.sum_congr rfl fun k _ => congrArg₂ (· * ·) rfl ?_
    exact congrFun (shapeCast_self v38 shapeCasts_S1024x1024_S1024x1024) (ix2 k c)
  · refine (matmul_zero_ix2_any Dots.plain_S256x1024_S1024x1024_S256x1024_1_0_0_1_n_n none _ _ p c).trans ?_
    refine Finset.sum_congr rfl fun k _ => congrArg₂ (· * ·) rfl ?_
    exact congrFun (shapeCast_self v40 shapeCasts_S1024x1024_S1024x1024) (ix2 k c)
  · refine (broadcastTo_1b_ab_apply _ broadcasts_S1x1024_S256x1024 p c).trans ?_
    exact congrFun (shapeCast_self v47 shapeCasts_S1x1024_S1x1024) (ix2 (0 : Fin 1) c)

/-- Recasting the hidden layer to bf16 leaves every entry as it is. -/
theorem pay8_apply (v32 : FVec Ideal S256x1024 .f32) (v33 v34 : FVec Ideal S256x1024 .bf16)
    (v36 v38 v40 : Vec Ideal S1024x1024 .bf16) (v47 : Vec Ideal S1x1024 .f32) (i : S256x1024.Idx) :
    (k0_pay8 (F := Ideal) v32 v33 v34 v36 v38 v40 v47 i : EReal) = k0_pay7 (F := Ideal) v32 v33 v34 v36 v38 v40 v47 i := rfl

end Cert.KernelIdeal.Pay

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.KernelPay3.lean ====
/-
  The body's three scores and the softmax of them, read at an index. Each score is the lane sum, along a row, of the
  hidden layer times one of the three rectified values, kept as a [256,1] column. On that column, entry by entry: m is
  the largest of the three scores, e_k = exp (a_k - m), the normaliser is (e_1 + e_2) + e_3, and the third weight is
  e_3 divided by the normaliser (the first two weights are formed where they are used).
-/
import proofs.«174068_j74491912782221_2_alg».proof.Proof.KernelPay2
import proofs.«174068_j74491912782221_2_alg».proof.Proof.LibKeepdims
import proofs.«174068_j74491912782221_2_alg».proof.Proof.LibRowReduce

noncomputable section

namespace Cert.KernelIdeal.Pay

open Idealize.ShloMosaic Idealize.ShloMosaic.ValueIdx Cert.KernelIdeal Cert.KernelIdeal.Gen Cert

attribute [local instance] Cert.KernelIdeal.Gen.facts

/-- The first score of a block of rows, kept as a column: at (p, u) the sum over j of hidden (p, j) times the first rectified value (p, j). -/
theorem pay9_apply (v14 : FVec Ideal S256x1024 .f32) (v32 : FVec Ideal S256x1024 .f32) (v33 v34 : FVec Ideal S256x1024 .bf16) (v36 v38 v40 : Vec Ideal S1024x1024 .bf16) (v47 : Vec Ideal S1x1024 .f32) (p : Fin 256) (u : Fin 1) :
    k0_pay9 (F := Ideal) v14 v32 v33 v34 v36 v38 v40 v47 (ix2 p u)
      = RowNet.score (fun j : Fin 1024 => k0_pay7 (F := Ideal) v32 v33 v34 v36 v38 v40 v47 (ix2 p j)) (fun j : Fin 1024 => (v14 (ix2 p j) : EReal)) := by
  unfold k0_pay9 RowNet.score
  exact (shapeCast_a_a1_apply _ shapeCasts_S256_S256x1 p u).trans
    (multiReduction_add_row _ _ reduces_S256x1024_S256 (.inl rfl) rfl p)

/-- The second score of a block of rows, kept as a column: at (p, u) the sum over j of hidden (p, j) times the second rectified value (p, j). -/
theorem pay10_apply (v23 : FVec Ideal S256x1024 .f32) (v32 : FVec Ideal S256x1024 .f32) (v33 v34 : FVec Ideal S256x1024 .bf16) (v36 v38 v40 : Vec Ideal S1024x1024 .bf16) (v47 : Vec Ideal S1x1024 .f32) (p : Fin 256) (u : Fin 1) :
    k0_pay10 (F := Ideal) v23 v32 v33 v34 v36 v38 v40 v47 (ix2 p u)
      = RowNet.score (fun j : Fin 1024 => k0_pay7 (F := Ideal) v32 v33 v34 v36 v38 v40 v47 (ix2 p j)) (fun j : Fin 1024 => (v23 (ix2 p j) : EReal)) := by
  unfold k0_pay10 RowNet.score
  exact (shapeCast_a_a1_apply _ shapeCasts_S256_S256x1 p u).trans
    (multiReduction_add_row _ _ reduces_S256x1024_S256 (.inl rfl) rfl p)

/-- The third score of a block of rows, kept as a column: at (p, u) the sum over j of hidden (p, j) times the third rectified value (p, j). -/
theorem pay11_apply  (v32 : FVec Ideal S256x1024 .f32) (v33 v34 : FVec Ideal S256x1024 .bf16) (v36 v38 v40 : Vec Ideal S1024x1024 .bf16) (v47 : Vec Ideal S1x1024 .f32) (p : Fin 256) (u : Fin 1) :
    k0_pay11 (F := Ideal) v32 v33 v34 v36 v38 v40 v47 (ix2 p u)
      = RowNet.score (fun j : Fin 1024 => k0_pay7 (F := Ideal) v32 v33 v34 v36 v38 v40 v47 (ix2 p j)) (fun j : Fin 1024 => (v32 (ix2 p j) : EReal)) := by
  unfold k0_pay11 RowNet.score
  exact (shapeCast_a_a1_apply _ shapeCasts_S256_S256x1 p u).trans
    (multiReduction_add_row _ _ reduces_S256x1024_S256 (.inl rfl) rfl p)

/-- The largest of the three scores, entry by entry. -/
theorem pay12_apply (v14 v23 : FVec Ideal S256x1024 .f32) (v32 : FVec Ideal S256x1024 .f32) (v33 v34 : FVec Ideal S256x1024 .bf16) (v36 v38 v40 : Vec Ideal S1024x1024 .bf16) (v47 : Vec Ideal S1x1024 .f32) (i : S256x1.Idx) :
    k0_pay12 (F := Ideal) v14 v23 v32 v33 v34 v36 v38 v40 v47 i
      = RowNet.top (k0_pay9 (F := Ideal) v14 v32 v33 v34 v36 v38 v40 v47 i) (k0_pay10 (F := Ideal) v23 v32 v33 v34 v36 v38 v40 v47 i) (k0_pay11 (F := Ideal) v32 v33 v34 v36 v38 v40 v47 i) := rfl

/-- The first unnormalised weight, entry by entry. -/
theorem pay13_apply (v14 v23 : FVec Ideal S256x1024 .f32) (v32 : FVec Ideal S256x1024 .f32) (v33 v34 : FVec Ideal S256x1024 .bf16) (v36 v38 v40 : Vec Ideal S1024x1024 .bf16) (v47 : Vec Ideal S1x1024 .f32) (i : S256x1.Idx) :
    k0_pay13 (F := Ideal) v14 v23 v32 v33 v34 v36 v38 v40 v47 i = RowNet.ex (k0_pay9 (F := Ideal) v14 v32 v33 v34 v36 v38 v40 v47 i) (k0_pay12 (F := Ideal) v14 v23 v32 v33 v34 v36 v38 v40 v47 i) := rfl

/-- The second unnormalised weight, entry by entry. -/
theorem pay14_apply (v14 v23 : FVec Ideal S256x1024 .f32) (v32 : FVec Ideal S256x1024 .f32) (v33 v34 : FVec Ideal S256x1024 .bf16) (v36 v38 v40 : Vec Ideal S1024x1024 .bf16) (v47 : Vec Ideal S1x1024 .f32) (i : S256x1.Idx) :
    k0_pay14 (F := Ideal) v14 v23 v32 v33 v34 v36 v38 v40 v47 i = RowNet.ex (k0_pay10 (F := Ideal) v23 v32 v33 v34 v36 v38 v40 v47 i) (k0_pay12 (F := Ideal) v14 v23 v32 v33 v34 v36 v38 v40 v47 i) := rfl

/-- The third unnormalised weight, entry by entry. -/
theorem pay15_apply (v14 v23 : FVec Ideal S256x1024 .f32) (v32 : FVec Ideal S256x1024 .f32) (v33 v34 : FVec Ideal S256x1024 .bf16) (v36 v38 v40 : Vec Ideal S1024x1024 .bf16) (v47 : Vec Ideal S1x1024 .f32) (i : S256x1.Idx) :
    k0_pay15 (F := Ideal) v14 v23 v32 v33 v34 v36 v38 v40 v47 i = RowNet.ex (k0_pay11 (F := Ideal) v32 v33 v34 v36 v38 v40 v47 i) (k0_pay12 (F := Ideal) v14 v23 v32 v33 v34 v36 v38 v40 v47 i) := rfl

/-- The normaliser, entry by entry. -/
theorem pay16_apply (v14 v23 : FVec Ideal S256x1024 .f32) (v32 : FVec Ideal S256x1024 .f32) (v33 v34 : FVec Ideal S256x1024 .bf16) (v36 v38 v40 : Vec Ideal S1024x1024 .bf16) (v47 : Vec Ideal S1x1024 .f32) (i : S256x1.Idx) :
    k0_pay16 (F := Ideal) v14 v23 v32 v33 v34 v36 v38 v40 v47 i
      = RowNet.tot (k0_pay13 (F := Ideal) v14 v23 v32 v33 v34 v36 v38 v40 v47 i) (k0_pay14 (F := Ideal) v14 v23 v32 v33 v34 v36 v38 v40 v47 i) (k0_pay15 (F := Ideal) v14 v23 v32 v33 v34 v36 v38 v40 v47 i) := rfl

/-- The third weight, entry by entry. -/
theorem pay17_apply (v14 v23 : FVec Ideal S256x1024 .f32) (v32 : FVec Ideal S256x1024 .f32) (v33 v34 : FVec Ideal S256x1024 .bf16) (v36 v38 v40 : Vec Ideal S1024x1024 .bf16) (v47 : Vec Ideal S1x1024 .f32) (i : S256x1.Idx) :
    k0_pay17 (F := Ideal) v14 v23 v32 v33 v34 v36 v38 v40 v47 i = Ideal.div (k0_pay15 (F := Ideal) v14 v23 v32 v33 v34 v36 v38 v40 v47 i) (k0_pay16 (F := Ideal) v14 v23 v32 v33 v34 v36 v38 v40 v47 i) := rfl

end Cert.KernelIdeal.Pay

end
-- ==== Proof.KernelPay4.lean ====
/-
  The rest of the body, read at an index. The first two softmax weights, each spread along its row, multiply the
  first two rectified values. The mixture (g1 p1 + g2 p2) + g3 p3 and the hidden layer, recast to bf16 (no change on
  the extended reals), are each multiplied by one [1024,2048] half of the decoder's weights into a zero accumulator;
  the two products are added, the [1,2048] bias row is added to every row and the result is rectified; that value
  times the [2048,1024] last-layer weights into a zero accumulator, plus the [1,1024] bias row, is what the body stores.
-/
import proofs.«174068_j74491912782221_2_alg».proof.Proof.KernelPay3

noncomputable section

namespace Cert.KernelIdeal.Pay

open Idealize.ShloMosaic Idealize.ShloMosaic.ValueIdx Cert.KernelIdeal Cert.KernelIdeal.Gen Cert

attribute [local instance] Cert.KernelIdeal.Gen.facts

/-- The first weight, spread along the row, times the first rectified value: at (p, c) the weight of row p times the value (p, c). -/
theorem pay18_apply (v14 v23 v32 : FVec Ideal S256x1024 .f32) (v33 v34 : FVec Ideal S256x1024 .bf16) (v36 v38 v40 : Vec Ideal S1024x1024 .bf16) (v47 : Vec Ideal S1x1024 .f32) (p : Fin 256) (c : Fin 1024) :
    k0_pay18 (F := Ideal) v14 v23 v32 v33 v34 v36 v38 v40 v47 (ix2 p c)
      = Ideal.div (k0_pay13 (F := Ideal) v14 v23 v32 v33 v34 v36 v38 v40 v47 (ix2 p (0 : Fin 1))) (k0_pay16 (F := Ideal) v14 v23 v32 v33 v34 v36 v38 v40 v47 (ix2 p (0 : Fin 1)))
          * v14 (ix2 p c) := by
  unfold k0_pay18
  exact congrArg₂ (· * ·) (broadcastTo_a1_ab_apply _ broadcasts_S256x1_S256x1024 p c) rfl

/-- The second weight, spread along the row, times the second rectified value: at (p, c) the weight of row p times the value (p, c). -/
theorem pay19_apply (v14 v23 v32 : FVec Ideal S256x1024 .f32) (v33 v34 : FVec Ideal S256x1024 .bf16) (v36 v38 v40 : Vec Ideal S1024x1024 .bf16) (v47 : Vec Ideal S1x1024 .f32) (p : Fin 256) (c : Fin 1024) :
    k0_pay19 (F := Ideal) v14 v23 v32 v33 v34 v36 v38 v40 v47 (ix2 p c)
      = Ideal.div (k0_pay14 (F := Ideal) v14 v23 v32 v33 v34 v36 v38 v40 v47 (ix2 p (0 : Fin 1))) (k0_pay16 (F := Ideal) v14 v23 v32 v33 v34 v36 v38 v40 v47 (ix2 p (0 : Fin 1)))
          * v23 (ix2 p c) := by
  unfold k0_pay19
  exact congrArg₂ (· * ·) (broadcastTo_a1_ab_apply _ broadcasts_S256x1_S256x1024 p c) rfl

/-- Entry (p, j) of the mixture as the body forms it: the two weighted values it is handed, added, plus the third
    weight of row p times the third rectified value. -/
def mixAt (v32 : FVec Ideal S256x1024 .f32) (v75 : FVec Ideal S256x1 .f32) (v77 v79 : FVec Ideal S256x1024 .f32)
    (p : Fin 256) (j : Fin 1024) : EReal :=
  (v77 (ix2 p j) + v79 (ix2 p j)) + v75 (ix2 p (0 : Fin 1)) * v32 (ix2 p j)

/-- What the body stores, at (p, q): the last dense layer's entry q on the decoder's hidden vector of row p, that
    vector being the two-input rectified layer on the mixture and the hidden layer of row p. -/
theorem pay1_apply (v32 : FVec Ideal S256x1024 .f32) (v53 : FVec Ideal S256x1024 .bf16) (v75 : FVec Ideal S256x1 .f32)
    (v77 v79 : FVec Ideal S256x1024 .f32) (v85 v87 : Vec Ideal S1024x2048 .bf16) (v92 : Vec Ideal S1x2048 .f32)
    (v99 : Vec Ideal S2048x1024 .bf16) (v102 : Vec Ideal S1x1024 .f32) (p : Fin 256) (q : Fin 1024) :
    k0_pay1 (F := Ideal) v32 v53 v75 v77 v79 v85 v87 v92 v99 v102 (ix2 p q)
      = RowNet.lin
          (RowNet.act2 (mixAt v32 v75 v77 v79 p) (fun j : Fin 1024 => (v53 (ix2 p j) : EReal))
            (fun (j : Fin 1024) (k : Fin 2048) => (v85 (ix2 j k) : EReal)) (fun (j : Fin 1024) (k : Fin 2048) => (v87 (ix2 j k) : EReal))
            (fun k : Fin 2048 => v92 (ix2 (0 : Fin 1) k)))
          (fun k : Fin 2048 => (v99 (ix2 k q) : EReal)) (v102 (ix2 (0 : Fin 1) q)) := by
  unfold k0_pay1 RowNet.lin
  refine congrArg₂ (· + ·) ?_ ?_
  · refine (matmul_zero_ix2_any Dots.plain_S256x2048_S2048x1024_S256x1024_1_0_0_1_n_n none _ _ p q).trans ?_
    refine Finset.sum_congr rfl fun k _ => congrArg₂ (· * ·) ?_ ?_
    · unfold RowNet.act2
      refine congrArg₂ max (congrArg₂ (· + ·) (congrArg₂ (· + ·) ?_ ?_) ?_) Ideal.ofBits_zero_f32
      · refine (matmul_zero_ix2_any Dots.plain_S256x1024_S1024x2048_S256x2048_1_0_0_1_n_n none _ _ p k).trans ?_
        refine Finset.sum_congr rfl fun j _ => congrArg₂ (· * ·) ?_ ?_
        · unfold mixAt
          exact congrArg₂ (· + ·) rfl (congrArg₂ (· * ·) (broadcastTo_a1_ab_apply v75 broadcasts_S256x1_S256x1024 p j) rfl)
        · exact congrFun (shapeCast_self v85 shapeCasts_S1024x2048_S1024x2048) (ix2 j k)
      · refine (matmul_zero_ix2_any Dots.plain_S256x1024_S1024x2048_S256x2048_1_0_0_1_n_n none _ _ p k).trans ?_
        refine Finset.sum_congr rfl fun j _ => congrArg₂ (· * ·) rfl ?_
        exact congrFun (shapeCast_self v87 shapeCasts_S1024x2048_S1024x2048) (ix2 j k)
      · refine (broadcastTo_1b_ab_apply _ broadcasts_S1x2048_S256x2048 p k).trans ?_
        exact congrFun (shapeCast_self v92 shapeCasts_S1x2048_S1x2048) (ix2 (0 : Fin 1) k)
    · exact congrFun (shapeCast_self v99 shapeCasts_S2048x1024_S2048x1024) (ix2 k q)
  · refine (broadcastTo_1b_ab_apply _ broadcasts_S1x1024_S256x1024 p q).trans ?_
    exact congrFun (shapeCast_self v102 shapeCasts_S1x1024_S1x1024) (ix2 (0 : Fin 1) q)

end Cert.KernelIdeal.Pay

end
-- ==== Proof.KernelCompose.lean ====
/-
  The body's stored value as the row network. Over the values the body loads -- three pieces of the input block,
  the weight blocks and bias rows -- the nested arithmetic of the body at (p, q) is the row network's output entry on
  row p: its three rectified values, hidden vector, scores, softmax weights, mixture and decoder vector are, in that
  order, the network's p1 p2 p3, hid, a1 a2 a3, am, e1 e2 e3, et, g3, ctx and dec of that row, with the weights read
  off the loaded blocks.
-/
import proofs.«174068_j74491912782221_2_alg».proof.Proof.KernelPay4

noncomputable section

namespace Cert.KernelIdeal.Compose

open Idealize.ShloMosaic Idealize.ShloMosaic.ValueIdx Cert.KernelIdeal Cert.KernelIdeal.Gen Cert Cert.KernelIdeal.Pay

attribute [local instance] Cert.KernelIdeal.Gen.facts

/-- The network's weights read off the loaded weight blocks and bias rows. -/
def theta (v6 v15 v24 : Vec Ideal S512x1024 .bf16) (v9 v18 v27 : Vec Ideal S1x1024 .f32) (v36 v38 v40 : Vec Ideal S1024x1024 .bf16)
    (v47 : Vec Ideal S1x1024 .f32) (v85 v87 : Vec Ideal S1024x2048 .bf16) (v92 : Vec Ideal S1x2048 .f32) : RowNet.Params where
  w1 := fun k c => v6 (ix2 k c)
  b1 := fun c => v9 (ix2 (0 : Fin 1) c)
  w2 := fun k c => v15 (ix2 k c)
  b2 := fun c => v18 (ix2 (0 : Fin 1) c)
  w3 := fun k c => v24 (ix2 k c)
  b3 := fun c => v27 (ix2 (0 : Fin 1) c)
  h1 := fun k c => v36 (ix2 k c)
  h2 := fun k c => v38 (ix2 k c)
  h3 := fun k c => v40 (ix2 k c)
  bh := fun c => v47 (ix2 (0 : Fin 1) c)
  da := fun j k => v85 (ix2 j k)
  db := fun j k => v87 (ix2 j k)
  bd := fun k => v92 (ix2 (0 : Fin 1) k)

/-- The body's stored value at (p, q) is the row network's output entry on row p of the three input pieces. -/
theorem body_apply (v0 v2 v4 : Vec Ideal S256x512 .f32) (v6 v15 v24 : Vec Ideal S512x1024 .bf16) (v9 v18 v27 : Vec Ideal S1x1024 .f32)
    (v36 v38 v40 : Vec Ideal S1024x1024 .bf16) (v47 : Vec Ideal S1x1024 .f32) (v85 v87 : Vec Ideal S1024x2048 .bf16)
    (v92 : Vec Ideal S1x2048 .f32) (v99 : Vec Ideal S2048x1024 .bf16) (v102 : Vec Ideal S1x1024 .f32) (p : Fin 256) (q : Fin 1024) :
    k0_pay1 (F := Ideal) (k0_pay4 (F := Ideal) v4 v24 v27) (k0_pay8 (F := Ideal) (k0_pay4 (F := Ideal) v4 v24 v27) (k0_pay5 (F := Ideal) v0 v6 v9) (k0_pay6 (F := Ideal) v2 v15 v18) v36 v38 v40 v47) (k0_pay17 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) (k0_pay18 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) (k0_pay19 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) v85 v87 v92 v99 v102 (ix2 p q)
      = RowNet.out (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) (fun k : Fin 2048 => (v99 (ix2 k q) : EReal)) (v102 (ix2 (0 : Fin 1) q)) := by
  have hp1 : (fun j : Fin 1024 => ((k0_pay2 (F := Ideal) v0 v6 v9) (ix2 p j) : EReal)) = RowNet.p1 (theta v6 v15 v24 v9 v18 v27 v36 v38 v40 v47 v85 v87 v92) (fun k : Fin 512 => (v0 (ix2 p k) : EReal)) :=
    funext fun j => pay2_apply v0 v6 v9 p j
  have hp2 : (fun j : Fin 1024 => ((k0_pay3 (F := Ideal) v2 v15 v18) (ix2 p j) : EReal)) = RowNet.p2 (theta v6 v15 v24 v9 v18 v27 v36 v38 v40 v47 v85 v87 v92) (fun k : Fin 512 => (v2 (ix2 p k) : EReal)) :=
    funext fun j => pay3_apply v2 v15 v18 p j
  have hp3 : (fun j : Fin 1024 => ((k0_pay4 (F := Ideal) v4 v24 v27) (ix2 p j) : EReal)) = RowNet.p3 (theta v6 v15 v24 v9 v18 v27 v36 v38 v40 v47 v85 v87 v92) (fun k : Fin 512 => (v4 (ix2 p k) : EReal)) :=
    funext fun j => pay4_apply v4 v24 v27 p j
  have hq1 : (fun j : Fin 1024 => ((k0_pay5 (F := Ideal) v0 v6 v9) (ix2 p j) : EReal)) = RowNet.p1 (theta v6 v15 v24 v9 v18 v27 v36 v38 v40 v47 v85 v87 v92) (fun k : Fin 512 => (v0 (ix2 p k) : EReal)) := hp1
  have hq2 : (fun j : Fin 1024 => ((k0_pay6 (F := Ideal) v2 v15 v18) (ix2 p j) : EReal)) = RowNet.p2 (theta v6 v15 v24 v9 v18 v27 v36 v38 v40 v47 v85 v87 v92) (fun k : Fin 512 => (v2 (ix2 p k) : EReal)) := hp2
  have hhid : (fun j : Fin 1024 => ((k0_pay7 (F := Ideal) (k0_pay4 (F := Ideal) v4 v24 v27) (k0_pay5 (F := Ideal) v0 v6 v9) (k0_pay6 (F := Ideal) v2 v15 v18) v36 v38 v40 v47) (ix2 p j) : EReal)) = RowNet.hid (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) :=
    funext fun j => (pay7_apply (k0_pay4 (F := Ideal) v4 v24 v27) (k0_pay5 (F := Ideal) v0 v6 v9) (k0_pay6 (F := Ideal) v2 v15 v18) v36 v38 v40 v47 p j).trans (by rw [hq1, hq2, hp3]; rfl)
  have hhid8 : (fun j : Fin 1024 => ((k0_pay8 (F := Ideal) (k0_pay4 (F := Ideal) v4 v24 v27) (k0_pay5 (F := Ideal) v0 v6 v9) (k0_pay6 (F := Ideal) v2 v15 v18) v36 v38 v40 v47) (ix2 p j) : EReal)) = RowNet.hid (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) := hhid
  have ha1 : (k0_pay9 (F := Ideal) (k0_pay2 (F := Ideal) v0 v6 v9) (k0_pay4 (F := Ideal) v4 v24 v27) (k0_pay5 (F := Ideal) v0 v6 v9) (k0_pay6 (F := Ideal) v2 v15 v18) v36 v38 v40 v47) (ix2 p (0 : Fin 1)) = RowNet.a1 (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) := (pay9_apply (k0_pay2 (F := Ideal) v0 v6 v9) (k0_pay4 (F := Ideal) v4 v24 v27) (k0_pay5 (F := Ideal) v0 v6 v9) (k0_pay6 (F := Ideal) v2 v15 v18) v36 v38 v40 v47 p 0).trans (by rw [hhid, hp1]; rfl)
  have ha2 : (k0_pay10 (F := Ideal) (k0_pay3 (F := Ideal) v2 v15 v18) (k0_pay4 (F := Ideal) v4 v24 v27) (k0_pay5 (F := Ideal) v0 v6 v9) (k0_pay6 (F := Ideal) v2 v15 v18) v36 v38 v40 v47) (ix2 p (0 : Fin 1)) = RowNet.a2 (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) := (pay10_apply (k0_pay3 (F := Ideal) v2 v15 v18) (k0_pay4 (F := Ideal) v4 v24 v27) (k0_pay5 (F := Ideal) v0 v6 v9) (k0_pay6 (F := Ideal) v2 v15 v18) v36 v38 v40 v47 p 0).trans (by rw [hhid, hp2]; rfl)
  have ha3 : (k0_pay11 (F := Ideal) (k0_pay4 (F := Ideal) v4 v24 v27) (k0_pay5 (F := Ideal) v0 v6 v9) (k0_pay6 (F := Ideal) v2 v15 v18) v36 v38 v40 v47) (ix2 p (0 : Fin 1)) = RowNet.a3 (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) := (pay11_apply (k0_pay4 (F := Ideal) v4 v24 v27) (k0_pay5 (F := Ideal) v0 v6 v9) (k0_pay6 (F := Ideal) v2 v15 v18) v36 v38 v40 v47 p 0).trans (by rw [hhid, hp3]; rfl)
  have ham : (k0_pay12 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) (ix2 p (0 : Fin 1)) = RowNet.am (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) := (pay12_apply (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47 (ix2 p (0 : Fin 1))).trans (by rw [ha1, ha2, ha3]; rfl)
  have he1 : (k0_pay13 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) (ix2 p (0 : Fin 1)) = RowNet.e1 (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) := (pay13_apply (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47 (ix2 p (0 : Fin 1))).trans (by rw [ha1, ham]; rfl)
  have he2 : (k0_pay14 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) (ix2 p (0 : Fin 1)) = RowNet.e2 (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) := (pay14_apply (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47 (ix2 p (0 : Fin 1))).trans (by rw [ha2, ham]; rfl)
  have he3 : (k0_pay15 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) (ix2 p (0 : Fin 1)) = RowNet.e3 (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) := (pay15_apply (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47 (ix2 p (0 : Fin 1))).trans (by rw [ha3, ham]; rfl)
  have het : (k0_pay16 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) (ix2 p (0 : Fin 1)) = RowNet.et (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) := (pay16_apply (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47 (ix2 p (0 : Fin 1))).trans (by rw [he1, he2, he3]; rfl)
  have hg3 : (k0_pay17 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) (ix2 p (0 : Fin 1)) = RowNet.g3 (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) := (pay17_apply (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47 (ix2 p (0 : Fin 1))).trans (by rw [he3, het]; rfl)
  have hmix : mixAt (k0_pay4 (F := Ideal) v4 v24 v27) (k0_pay17 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) (k0_pay18 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) (k0_pay19 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) p = RowNet.ctx (theta v6 v15 v24 v9 v18 v27 v36 v38 v40 v47 v85 v87 v92) (fun k : Fin 512 => (v0 (ix2 p k) : EReal)) (fun k : Fin 512 => (v2 (ix2 p k) : EReal)) (fun k : Fin 512 => (v4 (ix2 p k) : EReal)) := funext fun j => by
    unfold mixAt
    rw [pay18_apply, pay19_apply, he1, he2, het, hg3,
      show ((k0_pay2 (F := Ideal) v0 v6 v9) (ix2 p j) : EReal) = RowNet.p1 (theta v6 v15 v24 v9 v18 v27 v36 v38 v40 v47 v85 v87 v92) (fun k : Fin 512 => (v0 (ix2 p k) : EReal)) j from congrFun hp1 j,
      show ((k0_pay3 (F := Ideal) v2 v15 v18) (ix2 p j) : EReal) = RowNet.p2 (theta v6 v15 v24 v9 v18 v27 v36 v38 v40 v47 v85 v87 v92) (fun k : Fin 512 => (v2 (ix2 p k) : EReal)) j from congrFun hp2 j,
      show ((k0_pay4 (F := Ideal) v4 v24 v27) (ix2 p j) : EReal) = RowNet.p3 (theta v6 v15 v24 v9 v18 v27 v36 v38 v40 v47 v85 v87 v92) (fun k : Fin 512 => (v4 (ix2 p k) : EReal)) j from congrFun hp3 j]
    rfl
  refine (pay1_apply (k0_pay4 (F := Ideal) v4 v24 v27) (k0_pay8 (F := Ideal) (k0_pay4 (F := Ideal) v4 v24 v27) (k0_pay5 (F := Ideal) v0 v6 v9) (k0_pay6 (F := Ideal) v2 v15 v18) v36 v38 v40 v47) (k0_pay17 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) (k0_pay18 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) (k0_pay19 (F := Ideal) (k0_pay2 (F := Ideal) v0 v6 v9) (k0_pay3 (F := Ideal) v2 v15 v18) (k0_pay4 (F := Ideal) v4 v24 v27) (k0_pay5 (F := Ideal) v0 v6 v9) (k0_pay6 (F := Ideal) v2 v15 v18) v36 v38 v40 v47) v85 v87 v92 v99 v102 p q).trans ?_
  rw [hmix, hhid8]
  rfl

end Cert.KernelIdeal.Compose

end
-- ==== Proof.LibSliceLayout.lean ====
/-
  Two readings at an index given by coordinates, for the pieces a body cuts out of a staged block.

  A load through a unit-stride slice reads the contents at offset + local coordinate on every axis; and a [1, 1, n]
  piece recast as a [n] vector reads the piece's entry (0, 0, i) at i.
-/
import Idealize.ShloMosaic.Lib.Pipeline.Value
import Idealize.ShloMosaic.Lib.ValueIdx

namespace Idealize.ShloMosaic.ValueIdx

open Idealize.ShloMosaic

/-- A load through a unit-stride slice reads the contents at offset + local coordinate, axis by axis. -/
theorem ld_unit_apply {Val : EltTy → Type} {el : EltTy} {s : Shape} (X : s.Idx → Val el) (off size : Fin s.rank → ℕ) (inb : ∀ a, off a + size a ≤ s.size a)
    (y : (Rect.unit off size inb).shape.Idx) (i : s.Idx) (h : ∀ a, (i a).val = off a + (y a).val) :
    View.ld X (Rect.unit off size inb) y = X i :=
  congrArg X (funext fun a => Fin.ext (by rw [h a]; show off a + 1 * (y a).val = _; rw [Nat.one_mul]))

/-- A [1, 1, n] piece recast as a [n] vector reads, at i, the piece's entry (0, 0, i). -/
theorem shapeCast_11n_n_apply {α : Type} {n : ℕ} (x : (⟨3, ![1, 1, n]⟩ : Shape).Idx → α) (h : (⟨3, ![1, 1, n]⟩ : Shape).ShapeCasts ⟨1, ![n]⟩)
    (u u' : Fin 1) (i : Fin n) : shapeCast ⟨1, ![n]⟩ x h (ix1 i) = x (ix3 u u' i) :=
  shapeCast_apply x h _ _ (by
    have hu : u.val = 0 := by omega
    have hu' : u'.val = 0 := by omega
    rw [Shape.rowMajor_val_three, Shape.rowMajor_val_one]
    show (u.val * 1 + u'.val) * n + i.val = i.val
    simp [hu, hu'])

end Idealize.ShloMosaic.ValueIdx
-- ==== Proof.KernelLoads.lean ====
/-
  The body's sliced loads, read at an index. The body reads its [256,1536] input block in three column pieces of 512
  columns, the [3072,1024] hidden-layer weights in three row pieces of 1024 rows, and the [2048,2048] decoder weights in
  two row pieces of 1024 rows. Each piece at a local index is the block at the piece's offset plus that index.
-/
import proofs.«174068_j74491912782221_2_alg».proof.Proof.Gen.KernelIdeal.Frame
import proofs.«174068_j74491912782221_2_alg».proof.Proof.LibSliceLayout
import Idealize.ShloMosaic.PureOps.Ideal

noncomputable section

namespace Cert.KernelIdeal.Loads

open Idealize.ShloMosaic Idealize.ShloMosaic.ValueIdx Cert.KernelIdeal Cert.KernelIdeal.Gen

attribute [local instance] Cert.KernelIdeal.Gen.facts

/-- Columns 0-511 of the input block. -/
theorem ld_x_0 (x0 : Vec Ideal S256x1536 .f32) (p : Fin 256) (k : Fin 512) :
    View.ld x0 r0_0 (ix2 p k : S256x512.Idx) = x0 (ix2 p (⟨k.val, by omega⟩ : Fin 1536)) :=
  ld_unit_apply x0 _ _ _ _ _ (fun a => match a with
    | ⟨0, _⟩ => by show p.val = 0 + p.val; omega
    | ⟨1, _⟩ => by show k.val = 0 + k.val; omega)

/-- Columns 512-1023 of the input block. -/
theorem ld_x_1 (x0 : Vec Ideal S256x1536 .f32) (p : Fin 256) (k : Fin 512) :
    View.ld x0 r0_1 (ix2 p k : S256x512.Idx) = x0 (ix2 p (⟨512 + k.val, by omega⟩ : Fin 1536)) :=
  ld_unit_apply x0 _ _ _ _ _ (fun a => match a with
    | ⟨0, _⟩ => by show p.val = 0 + p.val; omega
    | ⟨1, _⟩ => by show 512 + k.val = 512 + k.val; rfl)

/-- Columns 1024-1535 of the input block. -/
theorem ld_x_2 (x0 : Vec Ideal S256x1536 .f32) (p : Fin 256) (k : Fin 512) :
    View.ld x0 r0_2 (ix2 p k : S256x512.Idx) = x0 (ix2 p (⟨1024 + k.val, by omega⟩ : Fin 1536)) :=
  ld_unit_apply x0 _ _ _ _ _ (fun a => match a with
    | ⟨0, _⟩ => by show p.val = 0 + p.val; omega
    | ⟨1, _⟩ => by show 1024 + k.val = 1024 + k.val; rfl)

/-- Rows 0-1023 of the hidden layer's weights. -/
theorem ld_h_0 (x7 : Vec Ideal S3072x1024 .bf16) (k : Fin 1024) (c : Fin 1024) :
    View.ld x7 r0_5 (ix2 k c : S1024x1024.Idx) = x7 (ix2 (⟨k.val, by omega⟩ : Fin 3072) c) :=
  ld_unit_apply x7 _ _ _ _ _ (fun a => match a with
    | ⟨0, _⟩ => by show k.val = 0 + k.val; omega
    | ⟨1, _⟩ => by show c.val = 0 + c.val; omega)

/-- Rows 1024-2047 of the hidden layer's weights. -/
theorem ld_h_1 (x7 : Vec Ideal S3072x1024 .bf16) (k : Fin 1024) (c : Fin 1024) :
    View.ld x7 r0_6 (ix2 k c : S1024x1024.Idx) = x7 (ix2 (⟨1024 + k.val, by omega⟩ : Fin 3072) c) :=
  ld_unit_apply x7 _ _ _ _ _ (fun a => match a with
    | ⟨0, _⟩ => by show 1024 + k.val = 1024 + k.val; rfl
    | ⟨1, _⟩ => by show c.val = 0 + c.val; omega)

/-- Rows 2048-3071 of the hidden layer's weights. -/
theorem ld_h_2 (x7 : Vec Ideal S3072x1024 .bf16) (k : Fin 1024) (c : Fin 1024) :
    View.ld x7 r0_7 (ix2 k c : S1024x1024.Idx) = x7 (ix2 (⟨2048 + k.val, by omega⟩ : Fin 3072) c) :=
  ld_unit_apply x7 _ _ _ _ _ (fun a => match a with
    | ⟨0, _⟩ => by show 2048 + k.val = 2048 + k.val; rfl
    | ⟨1, _⟩ => by show c.val = 0 + c.val; omega)

/-- Rows 0-1023 of the decoder's weights. -/
theorem ld_d_0 (x9 : Vec Ideal S2048x2048 .bf16) (k : Fin 1024) (c : Fin 2048) :
    View.ld x9 r0_8 (ix2 k c : S1024x2048.Idx) = x9 (ix2 (⟨k.val, by omega⟩ : Fin 2048) c) :=
  ld_unit_apply x9 _ _ _ _ _ (fun a => match a with
    | ⟨0, _⟩ => by show k.val = 0 + k.val; omega
    | ⟨1, _⟩ => by show c.val = 0 + c.val; omega)

/-- Rows 1024-2047 of the decoder's weights. -/
theorem ld_d_1 (x9 : Vec Ideal S2048x2048 .bf16) (k : Fin 1024) (c : Fin 2048) :
    View.ld x9 r0_9 (ix2 k c : S1024x2048.Idx) = x9 (ix2 (⟨1024 + k.val, by omega⟩ : Fin 2048) c) :=
  ld_unit_apply x9 _ _ _ _ _ (fun a => match a with
    | ⟨0, _⟩ => by show 1024 + k.val = 1024 + k.val; rfl
    | ⟨1, _⟩ => by show c.val = 0 + c.val; omega)

end Cert.KernelIdeal.Loads

end
-- ==== Proof.KernelBlock.lean ====
/-
  What the body leaves in the output block, at an index, from the thirteen input blocks. The body's one store covers
  the whole [256,1024] output block, so the block after the body is the stored value; its whole-block loads read the
  blocks themselves and its sliced loads read them at an offset. So entry (p, q) of the output block is the row
  network's output entry on row p of the input block -- columns 0-511, 512-1023 and 1024-1535 its three input vectors --
  with the weights read off the weight blocks: the hidden layer's three thirds are rows 0-1023, 1024-2047, 2048-3071
  of its block, the decoder's two halves rows 0-1023 and 1024-2047 of its block, and the last layer is column q of
  the [2048,1024] block and entry q of its bias row.
-/
import proofs.«174068_j74491912782221_2_alg».proof.Proof.KernelCompose
import proofs.«174068_j74491912782221_2_alg».proof.Proof.KernelLoads

noncomputable section

namespace Cert.KernelIdeal.Block

open Idealize.ShloMosaic Idealize.ShloMosaic.ValueIdx Cert.KernelIdeal Cert.KernelIdeal.Gen Cert
open Cert.KernelIdeal.Compose Cert.KernelIdeal.Loads

attribute [local instance] Cert.KernelIdeal.Gen.facts

theorem hz : (![0, 0] : Fin 2 → ℕ) = fun _ => 0 := funext fun a => by fin_cases a <;> rfl

/-- The network's weights read off the weight blocks of the windows. -/
def thetaX (x1 : Vec Ideal S512x1024 .bf16) (x2 : Vec Ideal S1x1024 .f32) (x3 : Vec Ideal S512x1024 .bf16) (x4 : Vec Ideal S1x1024 .f32)
    (x5 : Vec Ideal S512x1024 .bf16) (x6 : Vec Ideal S1x1024 .f32) (x7 : Vec Ideal S3072x1024 .bf16) (x8 : Vec Ideal S1x1024 .f32)
    (x9 : Vec Ideal S2048x2048 .bf16) (x10 : Vec Ideal S1x2048 .f32) : RowNet.Params where
  w1 := fun k c => x1 (ix2 k c)
  b1 := fun c => x2 (ix2 (0 : Fin 1) c)
  w2 := fun k c => x3 (ix2 k c)
  b2 := fun c => x4 (ix2 (0 : Fin 1) c)
  w3 := fun k c => x5 (ix2 k c)
  b3 := fun c => x6 (ix2 (0 : Fin 1) c)
  h1 := fun k c => x7 (ix2 (⟨k.val, by omega⟩ : Fin 3072) c)
  h2 := fun k c => x7 (ix2 (⟨1024 + k.val, by omega⟩ : Fin 3072) c)
  h3 := fun k c => x7 (ix2 (⟨2048 + k.val, by omega⟩ : Fin 3072) c)
  bh := fun c => x8 (ix2 (0 : Fin 1) c)
  da := fun j k => x9 (ix2 (⟨j.val, by omega⟩ : Fin 2048) k)
  db := fun j k => x9 (ix2 (⟨1024 + j.val, by omega⟩ : Fin 2048) k)
  bd := fun k => x10 (ix2 (0 : Fin 1) k)

/-- Entry (p, q) of the output block after the body. -/
theorem out_apply (x0 : Vec Ideal S256x1536 .f32) (x1 : Vec Ideal S512x1024 .bf16) (x2 : Vec Ideal S1x1024 .f32) (x3 : Vec Ideal S512x1024 .bf16) (x4 : Vec Ideal S1x1024 .f32) (x5 : Vec Ideal S512x1024 .bf16) (x6 : Vec Ideal S1x1024 .f32) (x7 : Vec Ideal S3072x1024 .bf16) (x8 : Vec Ideal S1x1024 .f32) (x9 : Vec Ideal S2048x2048 .bf16) (x10 : Vec Ideal S1x2048 .f32) (x11 : Vec Ideal S2048x1024 .bf16) (x12 : Vec Ideal S1x1024 .f32) (p : Fin 256) (q : Fin 1024) :
    out0_13 (F := Ideal) x0 x1 x2 x3 x4 x5 x6 x7 x8 x9 x10 x11 x12 (ix2 p q)
      = RowNet.out (thetaX x1 x2 x3 x4 x5 x6 x7 x8 x9 x10)
          (fun k : Fin 512 => (x0 (ix2 p (⟨k.val, by omega⟩ : Fin 1536)) : EReal))
          (fun k : Fin 512 => (x0 (ix2 p (⟨512 + k.val, by omega⟩ : Fin 1536)) : EReal))
          (fun k : Fin 512 => (x0 (ix2 p (⟨1024 + k.val, by omega⟩ : Fin 1536)) : EReal))
          (fun k : Fin 2048 => (x11 (ix2 k q) : EReal)) (x12 (ix2 (0 : Fin 1) q)) := by
  unfold out0_13
  rw [View.canon_unit_zero hz]
  simp only [View.ld_unit_zero (S := S512x1024) hz, View.ld_unit_zero (S := S1x1024) hz, View.ld_unit_zero (S := S1x2048) hz,
    View.ld_unit_zero (S := S2048x1024) hz]
  refine (body_apply (View.ld x0 r0_0) (View.ld x0 r0_1) (View.ld x0 r0_2) x1 x3 x5 x2 x4 x6 (View.ld x7 r0_5) (View.ld x7 r0_6)
    (View.ld x7 r0_7) x8 (View.ld x9 r0_8) (View.ld x9 r0_9) x10 x11 x12 p q).trans ?_
  have e0 : (fun k : Fin 512 => (View.ld x0 r0_0 (ix2 p k) : EReal)) = fun k : Fin 512 => x0 (ix2 p (⟨k.val, by omega⟩ : Fin 1536)) :=
    funext fun k => ld_x_0 x0 p k
  have e1 : (fun k : Fin 512 => (View.ld x0 r0_1 (ix2 p k) : EReal)) = fun k : Fin 512 => x0 (ix2 p (⟨512 + k.val, by omega⟩ : Fin 1536)) :=
    funext fun k => ld_x_1 x0 p k
  have e2 : (fun k : Fin 512 => (View.ld x0 r0_2 (ix2 p k) : EReal)) = fun k : Fin 512 => x0 (ix2 p (⟨1024 + k.val, by omega⟩ : Fin 1536)) :=
    funext fun k => ld_x_2 x0 p k
  have h5 : (fun (k : Fin 1024) (c : Fin 1024) => (View.ld x7 r0_5 (ix2 k c) : EReal)) = fun k c => x7 (ix2 (⟨k.val, by omega⟩ : Fin 3072) c) :=
    funext fun k => funext fun c => ld_h_0 x7 k c
  have h6 : (fun (k : Fin 1024) (c : Fin 1024) => (View.ld x7 r0_6 (ix2 k c) : EReal)) = fun k c => x7 (ix2 (⟨1024 + k.val, by omega⟩ : Fin 3072) c) :=
    funext fun k => funext fun c => ld_h_1 x7 k c
  have h7 : (fun (k : Fin 1024) (c : Fin 1024) => (View.ld x7 r0_7 (ix2 k c) : EReal)) = fun k c => x7 (ix2 (⟨2048 + k.val, by omega⟩ : Fin 3072) c) :=
    funext fun k => funext fun c => ld_h_2 x7 k c
  have h8 : (fun (j : Fin 1024) (k : Fin 2048) => (View.ld x9 r0_8 (ix2 j k) : EReal)) = fun j k => x9 (ix2 (⟨j.val, by omega⟩ : Fin 2048) k) :=
    funext fun j => funext fun k => ld_d_0 x9 j k
  have h9 : (fun (j : Fin 1024) (k : Fin 2048) => (View.ld x9 r0_9 (ix2 j k) : EReal)) = fun j k => x9 (ix2 (⟨1024 + j.val, by omega⟩ : Fin 2048) k) :=
    funext fun j => funext fun k => ld_d_1 x9 j k
  simp only [theta]
  rw [e0, e1, e2, h5, h6, h7, h8, h9]
  rfl

end Cert.KernelIdeal.Block

end
-- ==== Proof.KernelWhole.lean ====
/-
  The padded output as one function of the arrays, and the output block as its restriction. Stated over arbitrary
  arrays: if row p of an input block is row 256 t + p of an input array, then the output block the body leaves from
  that input block and the weight arrays is, at local index (p, q), the whole-array function at (256 t + p, q).
-/
import proofs.«174068_j74491912782221_2_alg».proof.Proof.KernelBlock

noncomputable section

namespace Cert.KernelIdeal.Whole

open Idealize.ShloMosaic Idealize.ShloMosaic.TcCoe Idealize.ShloMosaic.ValueIdx Idealize.SL.Sem Cert.KernelIdeal Cert.KernelIdeal.Gen Cert
open Cert.KernelIdeal.Block
open Idealize.ShloMosaic.Pipeline (Dat Cfg Window)

attribute [local instance] Cert.KernelIdeal.Gen.facts

/-! ## The whole-array function -/

/-- The padded output as one function of the arrays the call finds: at (r, q) the row network's output entry on row r
    of the input, the last layer being column q of the padded, transposed weights and entry q of the padded bias. -/
def Gpad (tube : S16384x1536.Idx → EReal) (a1 : Vec Ideal S512x1024 .bf16) (a2 : Vec Ideal S1x1024 .f32) (a3 : Vec Ideal S512x1024 .bf16)
    (a4 : Vec Ideal S1x1024 .f32) (a5 : Vec Ideal S512x1024 .bf16) (a6 : Vec Ideal S1x1024 .f32) (a7 : Vec Ideal S3072x1024 .bf16)
    (a8 : Vec Ideal S1x1024 .f32) (a9 : Vec Ideal S2048x2048 .bf16) (a10 : Vec Ideal S1x2048 .f32) (a11 : Vec Ideal S2048x1024 .bf16)
    (a12 : Vec Ideal S1x1024 .f32) (i : S16384x1024.Idx) : EReal :=
  RowNet.out (thetaX a1 a2 a3 a4 a5 a6 a7 a8 a9 a10)
    (fun k : Fin 512 => tube (ix2 (⟨(i 0).val, (i 0).isLt⟩ : Fin 16384) (⟨k.val, by omega⟩ : Fin 1536)))
    (fun k : Fin 512 => tube (ix2 (⟨(i 0).val, (i 0).isLt⟩ : Fin 16384) (⟨512 + k.val, by omega⟩ : Fin 1536)))
    (fun k : Fin 512 => tube (ix2 (⟨(i 0).val, (i 0).isLt⟩ : Fin 16384) (⟨1024 + k.val, by omega⟩ : Fin 1536)))
    (fun k : Fin 2048 => (a11 (ix2 k (⟨(i 1).val, (i 1).isLt⟩ : Fin 1024)) : EReal))
    (a12 (ix2 (0 : Fin 1) (⟨(i 1).val, (i 1).isLt⟩ : Fin 1024)))

/-- The output block from an input block whose rows are rows 256 tv .. of an input array: at a local index it is the
    whole-array function at row 256 tv + (local row), same column. -/
theorem point_var (tv : ℕ) (htv : tv < 64) (x0 : Vec Ideal S256x1536 .f32) (tube : S16384x1536.Idx → EReal) (a1 : Vec Ideal S512x1024 .bf16) (a2 : Vec Ideal S1x1024 .f32) (a3 : Vec Ideal S512x1024 .bf16) (a4 : Vec Ideal S1x1024 .f32) (a5 : Vec Ideal S512x1024 .bf16) (a6 : Vec Ideal S1x1024 .f32) (a7 : Vec Ideal S3072x1024 .bf16) (a8 : Vec Ideal S1x1024 .f32) (a9 : Vec Ideal S2048x2048 .bf16) (a10 : Vec Ideal S1x2048 .f32) (a11 : Vec Ideal S2048x1024 .bf16) (a12 : Vec Ideal S1x1024 .f32)
    (h0 : ∀ (p : Fin 256) (k : Fin 1536), x0 (ix2 p k) = tube (ix2 (⟨256 * tv + p.val, by omega⟩ : Fin 16384) k))
    (y : S256x1024.Idx) :
    out0_13 (F := Ideal) x0 a1 a2 a3 a4 a5 a6 a7 a8 a9 a10 a11 a12 y
      = Gpad tube a1 a2 a3 a4 a5 a6 a7 a8 a9 a10 a11 a12
          (ix2 (⟨256 * tv + (y 0).val, by have h : (y 0).val < 256 := (y 0).isLt; omega⟩ : Fin 16384) (⟨(y 1).val, (y 1).isLt⟩ : Fin 1024)) := by
  obtain ⟨p, q, rfl⟩ : ∃ (p : Fin 256) (q : Fin 1024), y = ix2 p q := ⟨y 0, y 1, eq_ix2 y⟩
  refine (out_apply x0 a1 a2 a3 a4 a5 a6 a7 a8 a9 a10 a11 a12 p q).trans ?_
  have r0 : (fun k : Fin 512 => (x0 (ix2 p (⟨k.val, by omega⟩ : Fin 1536)) : EReal)) = (fun k : Fin 512 => tube (ix2 (⟨256 * tv + p.val, by omega⟩ : Fin 16384) (⟨k.val, by omega⟩ : Fin 1536))) := funext fun k => h0 p _
  have r1 : (fun k : Fin 512 => (x0 (ix2 p (⟨512 + k.val, by omega⟩ : Fin 1536)) : EReal)) = (fun k : Fin 512 => tube (ix2 (⟨256 * tv + p.val, by omega⟩ : Fin 16384) (⟨512 + k.val, by omega⟩ : Fin 1536))) := funext fun k => h0 p _
  have r2 : (fun k : Fin 512 => (x0 (ix2 p (⟨1024 + k.val, by omega⟩ : Fin 1536)) : EReal)) = (fun k : Fin 512 => tube (ix2 (⟨256 * tv + p.val, by omega⟩ : Fin 16384) (⟨1024 + k.val, by omega⟩ : Fin 1536))) := funext fun k => h0 p _
  rw [r0, r1, r2]
  rfl

end Cert.KernelIdeal.Whole

end
-- ==== Proof.KernelIndex.lean ====
/-
  The printed index maps of the call's windows, decided over its 64 grid points: the input window and the output
  window are at block (t, 0) at point t; every weight window is at block (0, 0) at every point.
-/
import proofs.«174068_j74491912782221_2_alg».proof.Proof.Gen.KernelIdeal.Frame
import Idealize.ShloMosaic.Lib.ValueIdx

noncomputable section

namespace Cert.KernelIdeal.Points

open Idealize.ShloMosaic Idealize.ShloMosaic.TcCoe Idealize.ShloMosaic.ValueIdx Idealize.SL.Sem Cert.KernelIdeal Cert.KernelIdeal.Gen
open Idealize.ShloMosaic.Pipeline (Dat Cfg Window)

attribute [local instance] Cert.KernelIdeal.Gen.facts

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)
theorem idx1 : ∀ (t : Fin cfg0.N) (a : Fin 2), win0_1.index t a = 0 :=
  (by decide +kernel : ∀ (t : Fin grid0.N) (a : Fin 2), win0_1.index t a = 0)
theorem idx2 : ∀ (t : Fin cfg0.N) (a : Fin 2), win0_2.index t a = 0 :=
  (by decide +kernel : ∀ (t : Fin grid0.N) (a : Fin 2), win0_2.index t a = 0)
theorem idx3 : ∀ (t : Fin cfg0.N) (a : Fin 2), win0_3.index t a = 0 :=
  (by decide +kernel : ∀ (t : Fin grid0.N) (a : Fin 2), win0_3.index t a = 0)
theorem idx4 : ∀ (t : Fin cfg0.N) (a : Fin 2), win0_4.index t a = 0 :=
  (by decide +kernel : ∀ (t : Fin grid0.N) (a : Fin 2), win0_4.index t a = 0)
theorem idx5 : ∀ (t : Fin cfg0.N) (a : Fin 2), win0_5.index t a = 0 :=
  (by decide +kernel : ∀ (t : Fin grid0.N) (a : Fin 2), win0_5.index t a = 0)
theorem idx6 : ∀ (t : Fin cfg0.N) (a : Fin 2), win0_6.index t a = 0 :=
  (by decide +kernel : ∀ (t : Fin grid0.N) (a : Fin 2), win0_6.index t a = 0)
theorem idx7 : ∀ (t : Fin cfg0.N) (a : Fin 2), win0_7.index t a = 0 :=
  (by decide +kernel : ∀ (t : Fin grid0.N) (a : Fin 2), win0_7.index t a = 0)
theorem idx8 : ∀ (t : Fin cfg0.N) (a : Fin 2), win0_8.index t a = 0 :=
  (by decide +kernel : ∀ (t : Fin grid0.N) (a : Fin 2), win0_8.index t a = 0)
theorem idx9 : ∀ (t : Fin cfg0.N) (a : Fin 2), win0_9.index t a = 0 :=
  (by decide +kernel : ∀ (t : Fin grid0.N) (a : Fin 2), win0_9.index t a = 0)
theorem idx10 : ∀ (t : Fin cfg0.N) (a : Fin 2), win0_10.index t a = 0 :=
  (by decide +kernel : ∀ (t : Fin grid0.N) (a : Fin 2), win0_10.index t a = 0)
theorem idx11 : ∀ (t : Fin cfg0.N) (a : Fin 2), win0_11.index t a = 0 :=
  (by decide +kernel : ∀ (t : Fin grid0.N) (a : Fin 2), win0_11.index t a = 0)
theorem idx12 : ∀ (t : Fin cfg0.N) (a : Fin 2), win0_12.index t a = 0 :=
  (by decide +kernel : ∀ (t : Fin grid0.N) (a : Fin 2), win0_12.index t a = 0)

end Cert.KernelIdeal.Points

end
-- ==== Proof.KernelBlocksA.lean ====
/-
  The weight windows' blocks at a grid point (windows 1 to 4). A window that stays at block (0, 0) reads, at every point, its
  whole array: on each axis an element of the block has the same coordinate in the array.
-/
import proofs.«174068_j74491912782221_2_alg».proof.Proof.KernelIndex
import Idealize.ShloMosaic.Lib.Pipeline.Value
import Idealize.ShloMosaic.PureOps.Ideal

noncomputable section

namespace Cert.KernelIdeal.Points

open Idealize.ShloMosaic Idealize.ShloMosaic.TcCoe Idealize.ShloMosaic.ValueIdx Idealize.SL.Sem Cert.KernelIdeal Cert.KernelIdeal.Gen
open Idealize.ShloMosaic.Pipeline (Dat Cfg Window)

attribute [local instance] Cert.KernelIdeal.Gen.facts

variable (m : (ℓ : Loc nD τ sig) → Buf (Elt Ideal) ℓ)

/-- Window 1 stays at block (0, 0): its block at every point is its whole array. -/
theorem iblk1 (c : Dev nD) (t : Fin cfg0.N) : iblk m c 1 t = V m c main_v1 := by
  unfold iblk
  funext y
  rw [View.read_apply, cast_eq]
  refine congrArg (V m c main_v1) (funext fun a => Fin.ext ?_)
  exact (cfg0.win 1).rect_emb_val_of_index_zero t a (idx1 t a) y

/-- Window 2 stays at block (0, 0): its block at every point is its whole array. -/
theorem iblk2 (c : Dev nD) (t : Fin cfg0.N) : iblk m c 2 t = V m c main_v18 := by
  unfold iblk
  funext y
  rw [View.read_apply, cast_eq]
  refine congrArg (V m c main_v18) (funext fun a => Fin.ext ?_)
  exact (cfg0.win 2).rect_emb_val_of_index_zero t a (idx2 t a) y

/-- Window 3 stays at block (0, 0): its block at every point is its whole array. -/
theorem iblk3 (c : Dev nD) (t : Fin cfg0.N) : iblk m c 3 t = V m c main_v3 := by
  unfold iblk
  funext y
  rw [View.read_apply, cast_eq]
  refine congrArg (V m c main_v3) (funext fun a => Fin.ext ?_)
  exact (cfg0.win 3).rect_emb_val_of_index_zero t a (idx3 t a) y

/-- Window 4 stays at block (0, 0): its block at every point is its whole array. -/
theorem iblk4 (c : Dev nD) (t : Fin cfg0.N) : iblk m c 4 t = V m c main_v19 := by
  unfold iblk
  funext y
  rw [View.read_apply, cast_eq]
  refine congrArg (V m c main_v19) (funext fun a => Fin.ext ?_)
  exact (cfg0.win 4).rect_emb_val_of_index_zero t a (idx4 t a) y

end Cert.KernelIdeal.Points

end
-- ==== Proof.KernelBlocksB.lean ====
/-
  The weight windows' blocks at a grid point (windows 5 to 8). A window that stays at block (0, 0) reads, at every point, its
  whole array: on each axis an element of the block has the same coordinate in the array.
-/
import proofs.«174068_j74491912782221_2_alg».proof.Proof.KernelIndex
import Idealize.ShloMosaic.Lib.Pipeline.Value
import Idealize.ShloMosaic.PureOps.Ideal

noncomputable section

namespace Cert.KernelIdeal.Points

open Idealize.ShloMosaic Idealize.ShloMosaic.TcCoe Idealize.ShloMosaic.ValueIdx Idealize.SL.Sem Cert.KernelIdeal Cert.KernelIdeal.Gen
open Idealize.ShloMosaic.Pipeline (Dat Cfg Window)

attribute [local instance] Cert.KernelIdeal.Gen.facts

variable (m : (ℓ : Loc nD τ sig) → Buf (Elt Ideal) ℓ)

/-- Window 5 stays at block (0, 0): its block at every point is its whole array. -/
theorem iblk5 (c : Dev nD) (t : Fin cfg0.N) : iblk m c 5 t = V m c main_v5 := by
  unfold iblk
  funext y
  rw [View.read_apply, cast_eq]
  refine congrArg (V m c main_v5) (funext fun a => Fin.ext ?_)
  exact (cfg0.win 5).rect_emb_val_of_index_zero t a (idx5 t a) y

/-- Window 6 stays at block (0, 0): its block at every point is its whole array. -/
theorem iblk6 (c : Dev nD) (t : Fin cfg0.N) : iblk m c 6 t = V m c main_v20 := by
  unfold iblk
  funext y
  rw [View.read_apply, cast_eq]
  refine congrArg (V m c main_v20) (funext fun a => Fin.ext ?_)
  exact (cfg0.win 6).rect_emb_val_of_index_zero t a (idx6 t a) y

/-- Window 7 stays at block (0, 0): its block at every point is its whole array. -/
theorem iblk7 (c : Dev nD) (t : Fin cfg0.N) : iblk m c 7 t = V m c main_v7 := by
  unfold iblk
  funext y
  rw [View.read_apply, cast_eq]
  refine congrArg (V m c main_v7) (funext fun a => Fin.ext ?_)
  exact (cfg0.win 7).rect_emb_val_of_index_zero t a (idx7 t a) y

/-- Window 8 stays at block (0, 0): its block at every point is its whole array. -/
theorem iblk8 (c : Dev nD) (t : Fin cfg0.N) : iblk m c 8 t = V m c main_v21 := by
  unfold iblk
  funext y
  rw [View.read_apply, cast_eq]
  refine congrArg (V m c main_v21) (funext fun a => Fin.ext ?_)
  exact (cfg0.win 8).rect_emb_val_of_index_zero t a (idx8 t a) y

end Cert.KernelIdeal.Points

end
-- ==== Proof.KernelBlocksC.lean ====
/-
  The weight windows' blocks at a grid point (windows 9 to 12). A window that stays at block (0, 0) reads, at every point, its
  whole array: on each axis an element of the block has the same coordinate in the array.
-/
import proofs.«174068_j74491912782221_2_alg».proof.Proof.KernelIndex
import Idealize.ShloMosaic.Lib.Pipeline.Value
import Idealize.ShloMosaic.PureOps.Ideal

noncomputable section

namespace Cert.KernelIdeal.Points

open Idealize.ShloMosaic Idealize.ShloMosaic.TcCoe Idealize.ShloMosaic.ValueIdx Idealize.SL.Sem Cert.KernelIdeal Cert.KernelIdeal.Gen
open Idealize.ShloMosaic.Pipeline (Dat Cfg Window)

attribute [local instance] Cert.KernelIdeal.Gen.facts

variable (m : (ℓ : Loc nD τ sig) → Buf (Elt Ideal) ℓ)

/-- Window 9 stays at block (0, 0): its block at every point is its whole array. -/
theorem iblk9 (c : Dev nD) (t : Fin cfg0.N) : iblk m c 9 t = V m c main_v9 := by
  unfold iblk
  funext y
  rw [View.read_apply, cast_eq]
  refine congrArg (V m c main_v9) (funext fun a => Fin.ext ?_)
  exact (cfg0.win 9).rect_emb_val_of_index_zero t a (idx9 t a) y

/-- Window 10 stays at block (0, 0): its block at every point is its whole array. -/
theorem iblk10 (c : Dev nD) (t : Fin cfg0.N) : iblk m c 10 t = V m c main_v22 := by
  unfold iblk
  funext y
  rw [View.read_apply, cast_eq]
  refine congrArg (V m c main_v22) (funext fun a => Fin.ext ?_)
  exact (cfg0.win 10).rect_emb_val_of_index_zero t a (idx10 t a) y

/-- Window 11 stays at block (0, 0): its block at every point is its whole array. -/
theorem iblk11 (c : Dev nD) (t : Fin cfg0.N) : iblk m c 11 t = V m c main_v14 := by
  unfold iblk
  funext y
  rw [View.read_apply, cast_eq]
  refine congrArg (V m c main_v14) (funext fun a => Fin.ext ?_)
  exact (cfg0.win 11).rect_emb_val_of_index_zero t a (idx11 t a) y

/-- Window 12 stays at block (0, 0): its block at every point is its whole array. -/
theorem iblk12 (c : Dev nD) (t : Fin cfg0.N) : iblk m c 12 t = V m c main_v23 := by
  unfold iblk
  funext y
  rw [View.read_apply, cast_eq]
  refine congrArg (V m c main_v23) (funext fun a => Fin.ext ?_)
  exact (cfg0.win 12).rect_emb_val_of_index_zero t a (idx12 t a) y

end Cert.KernelIdeal.Points

end
-- ==== Proof.KernelBlock0.lean ====
/-
  The input window's block at a grid point: the window is at block (t, 0) at point t, with blocks of 256 rows, so row p
  of its block is row 256 t + p of the input array.
-/
import proofs.«174068_j74491912782221_2_alg».proof.Proof.KernelIndex
import Idealize.ShloMosaic.Lib.Pipeline.Value
import Idealize.ShloMosaic.Lib.ValueIdx
import Idealize.ShloMosaic.PureOps.Ideal

noncomputable section

namespace Cert.KernelIdeal.Points

open Idealize.ShloMosaic Idealize.ShloMosaic.TcCoe Idealize.ShloMosaic.ValueIdx Idealize.SL.Sem Cert.KernelIdeal Cert.KernelIdeal.Gen
open Idealize.ShloMosaic.Pipeline (Dat Cfg Window)

attribute [local instance] Cert.KernelIdeal.Gen.facts

variable (m : (ℓ : Loc nD τ sig) → Buf (Elt Ideal) ℓ)

theorem iblk0_apply (c : Dev nD) (t : Fin cfg0.N) (p : Fin 256) (k : Fin 1536) :
    iblk m c 0 t (ix2 p k) = V m c main_arg0 (ix2 (⟨256 * t.val + p.val, by have := lt_of_lt_of_eq t.isLt N_0; omega⟩ : Fin 16384) k) := by
  unfold iblk
  show V m c main_arg0 (((cfg0.win 0).blk t).view.emb (ix2 p k)) = _
  refine congrArg (V m c main_arg0) (funext fun a => Fin.ext ?_)
  obtain ⟨e0, e1⟩ := idx0 t
  match a with
  | ⟨0, _⟩ => show win0_0.index t (0 : Fin 2) * 256 + 1 * p.val = 256 * t.val + p.val; rw [e0]; omega
  | ⟨1, _⟩ => show win0_0.index t (1 : Fin 2) * 1536 + 1 * k.val = k.val; rw [e1]; omega

end Cert.KernelIdeal.Points

end
-- ==== Proof.KernelFinal.lean ====
/-
  From the blocks to the array. What point t writes back is block t of ONE function of the arrays the call finds -- at
  (r, q) the row network's output entry q on row r of the input, with the weights read off the weight arrays -- because
  the weight windows' blocks are their whole arrays and the input window's block at point t is rows 256 t .. 256 t + 255
  of the input. The 64 output blocks, rows 256 t .. 256 t + 255 each, cover the [16384,1024] output array: the point that
  covers row r is r / 256. So the output array ends holding that function.
-/
import proofs.«174068_j74491912782221_2_alg».proof.Proof.KernelWhole
import proofs.«174068_j74491912782221_2_alg».proof.Proof.KernelBlocksA
import proofs.«174068_j74491912782221_2_alg».proof.Proof.KernelBlocksB
import proofs.«174068_j74491912782221_2_alg».proof.Proof.KernelBlocksC
import proofs.«174068_j74491912782221_2_alg».proof.Proof.KernelBlock0

noncomputable section

namespace Cert.KernelIdeal.Final

open Idealize.ShloMosaic Idealize.ShloMosaic.TcCoe Idealize.ShloMosaic.ValueIdx Idealize.SL.Sem Cert.KernelIdeal Cert.KernelIdeal.Gen Cert
open Cert.KernelIdeal.Block Cert.KernelIdeal.Whole Cert.KernelIdeal.Points
open Idealize.ShloMosaic.Pipeline (Dat Cfg Window)

attribute [local instance] Cert.KernelIdeal.Gen.facts

variable (m : (ℓ : Loc nD τ sig) → Buf (Elt Ideal) ℓ)

/-- What point t writes back is block t of the whole-array function. -/
theorem flushed_eq (c : Dev nD) (t : Fin cfg0.N) :
    (dats m 0 c).flushed 13 t
      = ((cfg0.win 13).blk t).view.read (Elt Ideal) (Gpad (V m c main_arg0) (V m c main_v1) (V m c main_v18) (V m c main_v3) (V m c main_v19) (V m c main_v5) (V m c main_v20) (V m c main_v7) (V m c main_v21) (V m c main_v9) (V m c main_v22) (V m c main_v14) (V m c main_v23)) := by
  show (cfg0.win 13).cut (grid0.coords t) ((dats m 0 c).after 13 t) = _
  rw [after0_13, iblk1 m c t, iblk2 m c t, iblk3 m c t, iblk4 m c t, iblk5 m c t, iblk6 m c t, iblk7 m c t, iblk8 m c t, iblk9 m c t, iblk10 m c t, iblk11 m c t, iblk12 m c t]
  funext j
  rw [View.read_apply, cast_eq]
  refine (point_var t.val (lt_of_lt_of_eq t.isLt N_0) (iblk m c 0 t) (V m c main_arg0) (V m c main_v1) (V m c main_v18) (V m c main_v3) (V m c main_v19) (V m c main_v5) (V m c main_v20) (V m c main_v7) (V m c main_v21) (V m c main_v9) (V m c main_v22) (V m c main_v14) (V m c main_v23)
    (fun p k => iblk0_apply m c t p k) j).trans
    (congrArg (Gpad (V m c main_arg0) (V m c main_v1) (V m c main_v18) (V m c main_v3) (V m c main_v19) (V m c main_v5) (V m c main_v20) (V m c main_v7) (V m c main_v21) (V m c main_v9) (V m c main_v22) (V m c main_v14) (V m c main_v23)) (funext fun a => Fin.ext ?_))
  obtain ⟨e0, e1⟩ := idx13 t
  match a with
  | ⟨0, _⟩ =>
    refine ((cfg0.win 13).rect_emb_val t j ⟨0, by decide⟩).symm ▸ ?_
    show 256 * t.val + (j 0).val = win0_13.index t (0 : Fin 2) * 256 + (j 0).val
    rw [e0]; omega
  | ⟨1, _⟩ =>
    refine ((cfg0.win 13).rect_emb_val t j ⟨1, by decide⟩).symm ▸ ?_
    show (j 1).val = win0_13.index t (1 : Fin 2) * 1024 + (j 1).val
    rw [e1]; omega

/-- An index of the output array is in point t's block iff each coordinate is in the block's range on its axis. -/
theorem mem_blk13 (t : Fin cfg0.N) (i : S16384x1024.Idx) :
    i ∈ ((cfg0.win 13).blk t).view.set ↔ ∀ a : Fin 2, win0_13.index t a * S256x1024.size a ≤ (i a).val ∧ (i a).val < win0_13.index t a * S256x1024.size a + S256x1024.size a := by
  show i ∈ ((View.whole main_v24).slice (win0_13.rect t)).set ↔ _
  rw [View.set_slice_whole, Rect.mem_set_unit]
  exact Iff.rfl

/-- Every index of the output array is in the block of the point its row belongs to. -/
theorem cover13 (i : S16384x1024.Idx) : ∃ t : Fin cfg0.N, (cfg0.win 13).flush t = true ∧ i ∈ ((cfg0.win 13).blk t).view.set := by
  have hi0 : (i 0).val < 16384 := (i 0).isLt
  have hi1 : (i 1).val < 1024 := (i 1).isLt
  have h64 : cfg0.N = 64 := N_0
  have hq : (i 0).val / 256 < cfg0.N := by rw [h64]; omega
  refine ⟨⟨(i 0).val / 256, hq⟩, flush0_13 _, ?_⟩
  rw [mem_blk13]
  obtain ⟨e0, e1⟩ := idx13 ⟨(i 0).val / 256, hq⟩
  intro a
  match a with
  | ⟨0, _⟩ =>
    show win0_13.index ⟨(i 0).val / 256, hq⟩ (0 : Fin 2) * 256 ≤ (i 0).val ∧ (i 0).val < win0_13.index ⟨(i 0).val / 256, hq⟩ (0 : Fin 2) * 256 + 256
    rw [e0]; show (i 0).val / 256 * 256 ≤ (i 0).val ∧ (i 0).val < (i 0).val / 256 * 256 + 256; omega
  | ⟨1, _⟩ =>
    show win0_13.index ⟨(i 0).val / 256, hq⟩ (1 : Fin 2) * 1024 ≤ (i 1).val ∧ (i 1).val < win0_13.index ⟨(i 0).val / 256, hq⟩ (1 : Fin 2) * 1024 + 1024
    rw [e1]; omega

/-- The output array after the call: the whole-array function of the arrays the call finds. -/
theorem final13 (c : Dev nD) :
    (dats m 0 c).arrAt 13 cfg0.N = Gpad (V m c main_arg0) (V m c main_v1) (V m c main_v18) (V m c main_v3) (V m c main_v19) (V m c main_v5) (V m c main_v20) (V m c main_v7) (V m c main_v21) (V m c main_v9) (V m c main_v22) (V m c main_v14) (V m c main_v23) :=
  (dats m 0 c).arrAt_eq_of_cover 13 (Gpad (V m c main_arg0) (V m c main_v1) (V m c main_v18) (V m c main_v3) (V m c main_v19) (V m c main_v5) (V m c main_v20) (V m c main_v7) (V m c main_v21) (V m c main_v9) (V m c main_v22) (V m c main_v14) (V m c main_v23))
    (fun t _ => flushed_eq m c t) cover13

end Cert.KernelIdeal.Final

end
-- ==== Proof.HostPrelude.lean ====
/-
  What the kernel's windows hold when the call is entered. Before the call the program transposes each weight
  matrix (so that it is indexed (input position, output position)), recasts it to bf16 (no change on the extended
  reals) and recasts each bias vector as a one-row matrix. This module reads those arrays off the host operations
  that wrote them. The last layer's weights and bias are first padded with zeros from 1000 to 1024 output positions
  (an overwrite of the leading part of an array of zeros): those two arrays are named here and read in another module.
-/
import proofs.«174068_j74491912782221_2_alg».proof.Proof.Gen.KernelIdeal.Frame
import Idealize.ShloMosaic.Lib.StableHlo.Run
import Idealize.ShloMosaic.PureOps.Ideal

noncomputable section

namespace Cert.KernelIdeal.Prelude

open Idealize.ShloMosaic Idealize.ShloMosaic.TcCoe Idealize.SL.Sem Idealize.ShloMosaic.StableHlo Cert.KernelIdeal Cert.KernelIdeal.Gen

attribute [local instance] Cert.KernelIdeal.Gen.facts

variable (m : (ℓ : Loc nD τ sig) → Buf (Elt Ideal) ℓ)

/-- Window 1's array: the first layer's weights, transposed (and recast to bf16: no change on the extended reals). -/
theorem V_main_v1 (c : Dev nD) :
    V m c main_v1
      = truncf (F := Ideal) .bf16 (transpose S512x1024 [1, 0] (m ((c : Thread nD τ).loc main_arg1)) transposes_S1024x512_S512x1024_1_0) bitsLt_bf16_f32 := by
  show StableHlo.after hostOps0 (fun b => m (c, b)) (Proc.devRef .tc main_v1) = _
  after_results

/-- Window 2's array: the first layer's bias, recast as a one-row matrix. -/
theorem V_main_v18 (c : Dev nD) :
    V m c main_v18 = shapeCast S1x1024 (m ((c : Thread nD τ).loc main_arg2)) shapeCasts_S1024_S1x1024 := by
  show StableHlo.after hostOps0 (fun b => m (c, b)) (Proc.devRef .tc main_v18) = _
  after_results
  rfl

/-- Window 3's array: the second layer's weights, transposed (and recast to bf16: no change on the extended reals). -/
theorem V_main_v3 (c : Dev nD) :
    V m c main_v3
      = truncf (F := Ideal) .bf16 (transpose S512x1024 [1, 0] (m ((c : Thread nD τ).loc main_arg3)) transposes_S1024x512_S512x1024_1_0) bitsLt_bf16_f32 := by
  show StableHlo.after hostOps0 (fun b => m (c, b)) (Proc.devRef .tc main_v3) = _
  after_results

/-- Window 4's array: the second layer's bias, recast as a one-row matrix. -/
theorem V_main_v19 (c : Dev nD) :
    V m c main_v19 = shapeCast S1x1024 (m ((c : Thread nD τ).loc main_arg4)) shapeCasts_S1024_S1x1024 := by
  show StableHlo.after hostOps0 (fun b => m (c, b)) (Proc.devRef .tc main_v19) = _
  after_results
  rfl

/-- Window 5's array: the third layer's weights, transposed (and recast to bf16: no change on the extended reals). -/
theorem V_main_v5 (c : Dev nD) :
    V m c main_v5
      = truncf (F := Ideal) .bf16 (transpose S512x1024 [1, 0] (m ((c : Thread nD τ).loc main_arg5)) transposes_S1024x512_S512x1024_1_0) bitsLt_bf16_f32 := by
  show StableHlo.after hostOps0 (fun b => m (c, b)) (Proc.devRef .tc main_v5) = _
  after_results

/-- Window 6's array: the third layer's bias, recast as a one-row matrix. -/
theorem V_main_v20 (c : Dev nD) :
    V m c main_v20 = shapeCast S1x1024 (m ((c : Thread nD τ).loc main_arg6)) shapeCasts_S1024_S1x1024 := by
  show StableHlo.after hostOps0 (fun b => m (c, b)) (Proc.devRef .tc main_v20) = _
  after_results
  rfl

/-- Window 7's array: the hidden layer's weights, transposed (and recast to bf16: no change on the extended reals). -/
theorem V_main_v7 (c : Dev nD) :
    V m c main_v7
      = truncf (F := Ideal) .bf16 (transpose S3072x1024 [1, 0] (m ((c : Thread nD τ).loc main_arg7)) transposes_S1024x3072_S3072x1024_1_0) bitsLt_bf16_f32 := by
  show StableHlo.after hostOps0 (fun b => m (c, b)) (Proc.devRef .tc main_v7) = _
  after_results

/-- Window 8's array: the hidden layer's bias, recast as a one-row matrix. -/
theorem V_main_v21 (c : Dev nD) :
    V m c main_v21 = shapeCast S1x1024 (m ((c : Thread nD τ).loc main_arg8)) shapeCasts_S1024_S1x1024 := by
  show StableHlo.after hostOps0 (fun b => m (c, b)) (Proc.devRef .tc main_v21) = _
  after_results
  rfl

/-- Window 9's array: the decoder's first layer's weights, transposed (and recast to bf16: no change on the extended reals). -/
theorem V_main_v9 (c : Dev nD) :
    V m c main_v9
      = truncf (F := Ideal) .bf16 (transpose S2048x2048 [1, 0] (m ((c : Thread nD τ).loc main_arg9)) transposes_S2048x2048_S2048x2048_1_0) bitsLt_bf16_f32 := by
  show StableHlo.after hostOps0 (fun b => m (c, b)) (Proc.devRef .tc main_v9) = _
  after_results

/-- Window 10's array: the decoder's first layer's bias, recast as a one-row matrix. -/
theorem V_main_v22 (c : Dev nD) :
    V m c main_v22 = shapeCast S1x2048 (m ((c : Thread nD τ).loc main_arg10)) shapeCasts_S2048_S1x2048 := by
  show StableHlo.after hostOps0 (fun b => m (c, b)) (Proc.devRef .tc main_v22) = _
  after_results
  rfl

/-- The last layer's weights padded with zero rows to 1024 rows: the weights written over the leading rows of zeros. -/
def padW (w : S1000x2048.Idx → EReal) : S1024x2048.Idx → EReal :=
  Host.scatter scatter_S1024x2048_S1_S1000x2048_01_n_0_0 (fun _ b => b)
    (broadcastInDim S1024x2048 ![] bcast_S_S1024x2048 (constant (F := Ideal) S_ .f32 0x00000000#32))
    (broadcastInDim S1 ![] bcast_S_S1 (constantI S_ 32 0#32)) w

/-- The last layer's bias padded with zeros to 1024 entries. -/
def padB (b : S1000.Idx → EReal) : S1024.Idx → EReal :=
  Host.scatter scatter_S1024_S1_S1000_0_n_0_0 (fun _ b => b)
    (broadcastInDim S1024 ![] bcast_S_S1024 (constant (F := Ideal) S_ .f32 0x00000000#32))
    (broadcastInDim S1 ![] bcast_S_S1 (constantI S_ 32 0#32)) b

/-- Window 11's array: the padded last layer's weights, transposed (and recast to bf16). -/
theorem V_main_v14 (c : Dev nD) :
    V m c main_v14
      = truncf (F := Ideal) .bf16 (transpose S2048x1024 [1, 0] (padW (m ((c : Thread nD τ).loc main_arg11))) transposes_S1024x2048_S2048x1024_1_0) bitsLt_bf16_f32 := by
  show StableHlo.after hostOps0 (fun b => m (c, b)) (Proc.devRef .tc main_v14) = _
  after_results
  rfl

/-- Window 12's array: the padded last layer's bias, recast as a one-row matrix. -/
theorem V_main_v23 (c : Dev nD) :
    V m c main_v23 = shapeCast S1x1024 (padB (m ((c : Thread nD τ).loc main_arg12))) shapeCasts_S1024_S1x1024 := by
  show StableHlo.after hostOps0 (fun b => m (c, b)) (Proc.devRef .tc main_v23) = _
  after_results
  rfl

end Cert.KernelIdeal.Prelude

end
-- ==== Proof.LibScatterSet.lean ====
/-
  A scatter that overwrites, read at an index. The host's scatter is a left fold, over the update positions in
  row-major order, of single-position overwrites: update j replaces the operand's element at the position it lands
  at (start index plus window coordinate), when that position is inside the operand. When the combiner keeps the
  update and every update j lands at emb j for an injective map emb, the result is update j at emb j and the
  operand at every position no update lands on. Two auxiliary facts compute where an update lands: start plus
  window coordinate equal to a given position on every axis, and every window start zero when all scatter indices
  are the zero word.
-/
import Idealize.ShloMosaic.PureOps.ShapeOps
import Idealize.ShloMosaic.Lib.ValueIdx

noncomputable section

namespace Idealize.ShloMosaic.ScatterSet

open Idealize.ShloMosaic

/-! ## A left fold of pointwise overwrites, read at one position -/

section Fold
variable {ι κ α : Type}

/-- If every step of a fold keeps position i' at the value v once it holds v, the fold from a start that holds v
    there ends with v there. -/
theorem foldl_keep (step : (ι → α) → κ → (ι → α)) (i' : ι) (v : α) (l : List κ)
    (hstep : ∀ r n, n ∈ l → r i' = v → step r n i' = v) :
    ∀ x : ι → α, x i' = v → (l.foldl step x) i' = v := by
  induction l with
  | nil => intro x hx; exact hx
  | cons a l ih =>
    intro x hx
    rw [List.foldl_cons]
    exact ih (fun r n hn hr => hstep r n (List.mem_cons_of_mem _ hn) hr) _ (hstep x a List.mem_cons_self hx)

/-- If some step of the list sets position i' to v whatever it finds, and every step keeps v there, the fold ends
    with v there, from any start. -/
theorem foldl_hit (step : (ι → α) → κ → (ι → α)) (i' : ι) (v : α) (l : List κ) (n : κ) (hn : n ∈ l)
    (hset : ∀ r, step r n i' = v) (hkeep : ∀ r m, m ∈ l → r i' = v → step r m i' = v) :
    ∀ x : ι → α, (l.foldl step x) i' = v := by
  induction l with
  | nil => cases hn
  | cons a l ih =>
    intro x
    rw [List.foldl_cons]
    rcases List.mem_cons.1 hn with rfl | hn'
    · exact foldl_keep step i' v l (fun r m hm hr => hkeep r m (List.mem_cons_of_mem _ hm) hr) _ (hset x)
    · exact ih hn' (fun r m hm hr => hkeep r m (List.mem_cons_of_mem _ hm) hr) _

end Fold

/-! ## A scatter that overwrites, whose updates land at pairwise distinct positions inside the operand -/

section ScatterSet
variable {s si u : Shape} {w : Nat} {α : Type}

/-- Where update j lands, when start plus window coordinate is the position i on every axis. -/
theorem resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  rw [dif_pos (fun a => by rw [h a]; exact ⟨Int.natCast_nonneg _, Int.ofNat_lt.2 (i a).isLt⟩)]
  refine congrArg some (funext fun a => Fin.ext ?_)
  show (d.start j idx a + (d.window j a : Int)).toNat = (i a).val
  rw [h a]; exact Int.toNat_natCast _

/-- With every scatter index zero, every window starts at zero. -/
theorem start_zero (d : ScatterDims s si u) (j : u.Idx) (idx : IVec si 32) (hidx : ∀ i, idx i = 0#32) (a : Fin s.rank) :
    d.start j idx a = 0 := by
  unfold ScatterDims.start
  split
  · rw [hidx]; rfl
  · rfl

/-- A scatter whose combiner keeps the update (a 'set'), when update j lands at emb j inside the operand for every j and
    the landing map emb is injective: at the position emb j the result is update j. -/
theorem scatter_set_hit (d : ScatterDims s si u) (x : s.Idx → α) (idx : IVec si w) (upd : u.Idx → α)
    (emb : u.Idx → s.Idx) (hemb : ∀ j, d.resultIdx? j idx = some (emb j)) (hinj : Function.Injective emb) (j : u.Idx) :
    Host.scatter d (fun _ b => b) x idx upd (emb j) = upd j := by
  unfold Host.scatter
  refine foldl_hit _ (emb j) (upd j) _ (u.rowMajor j) (List.mem_finRange _) ?_ ?_ x
  · intro r
    simp only [Equiv.symm_apply_apply, hemb, ↓reduceIte]
  · intro r m _ hr
    simp only [hemb]
    by_cases h : emb j = emb (u.rowMajor.symm m)
    · rw [if_pos h]; exact congrArg upd (hinj h).symm
    · rw [if_neg h]; exact hr

/-- The same scatter at a position no update lands on: the result is the operand there. -/
theorem scatter_set_miss (d : ScatterDims s si u) (x : s.Idx → α) (idx : IVec si w) (upd : u.Idx → α)
    (emb : u.Idx → s.Idx) (hemb : ∀ j, d.resultIdx? j idx = some (emb j)) (i' : s.Idx) (hmiss : ∀ j, emb j ≠ i') :
    Host.scatter d (fun _ b => b) x idx upd i' = x i' := by
  unfold Host.scatter
  refine foldl_keep _ i' (x i') _ (fun r m _ hr => ?_) x rfl
  simp only [hemb]
  rw [if_neg (fun h => hmiss _ h.symm)]; exact hr

end ScatterSet

end Idealize.ShloMosaic.ScatterSet

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.HostPad.lean ====
/-
  The zero-padded last layer on its first 1000 positions. The program pads the [1000,2048] weights to [1024,2048] and
  the [1000] bias to [1024] by overwriting the leading part of an array of zeros (a scatter whose single index is zero
  and whose updates are the whole array: update (i, k) lands at position (i, k)). Distinct updates land at distinct
  positions, so at a position (i, k) with i < 1000 the padded array holds the weight (i, k), and likewise for the bias.
-/
import proofs.«174068_j74491912782221_2_alg».proof.Proof.HostPrelude
import proofs.«174068_j74491912782221_2_alg».proof.Proof.LibScatterSet
import proofs.«174068_j74491912782221_2_alg».proof.Proof.LibBroadcastInDim

noncomputable section

namespace Cert.KernelIdeal.Prelude

open Idealize.ShloMosaic Idealize.ShloMosaic.ValueIdx Idealize.ShloMosaic.ScatterSet Cert.KernelIdeal Cert.KernelIdeal.Gen

attribute [local instance] Cert.KernelIdeal.Gen.facts

/-- The scatter's one index is the zero word. -/
theorem pad_idx_zero (i : S1.Idx) : (broadcastInDim S1 ![] bcast_S_S1 (constantI S_ 32 0#32) : IVec S1 32) i = 0#32 :=
  broadcastInDim_scalar_apply _ bcast_S_S1 _ i

/-! ## The weights -/

/-- Where update (i, k) of the weights lands: position (i, k) of the padded array. -/
def embW (j : S1000x2048.Idx) : S1024x2048.Idx :=
  ix2 (⟨(j 0).val, by have h : (j 0).val < 1000 := (j 0).isLt; omega⟩ : Fin 1024) (⟨(j 1).val, (j 1).isLt⟩ : Fin 2048)

theorem windowW (j : S1000x2048.Idx) (a : Fin 2) : scatter_S1024x2048_S1_S1000x2048_01_n_0_0.window j a = (j a).val := by
  match a with
  | ⟨0, _⟩ =>
    unfold ScatterDims.window
    rw [dif_pos]
    · rfl
    · show (0 : Fin S1024x2048.rank) ∈ scatter_S1024x2048_S1_S1000x2048_01_n_0_0.sKept; decide
  | ⟨1, _⟩ =>
    unfold ScatterDims.window
    rw [dif_pos]
    · rfl
    · show (1 : Fin S1024x2048.rank) ∈ scatter_S1024x2048_S1_S1000x2048_01_n_0_0.sKept; decide

theorem landW (j : S1000x2048.Idx) :
    scatter_S1024x2048_S1_S1000x2048_01_n_0_0.resultIdx? j (broadcastInDim S1 ![] bcast_S_S1 (constantI S_ 32 0#32) : IVec S1 32) = some (embW j) :=
  resultIdx?_eq_some _ j _ (embW j) fun a => by
    rw [start_zero _ j _ pad_idx_zero a, windowW j a, zero_add]
    match a with
    | ⟨0, _⟩ => rfl
    | ⟨1, _⟩ => rfl

theorem embW_injective : Function.Injective embW := fun j j' h => funext fun a => Fin.ext (by
  match a with
  | ⟨0, _⟩ => exact (congrArg Fin.val (congrFun h (0 : Fin 2)) : (embW j 0).val = (embW j' 0).val)
  | ⟨1, _⟩ => exact (congrArg Fin.val (congrFun h (1 : Fin 2)) : (embW j 1).val = (embW j' 1).val))

/-- The padded weights at a position (i, k) with i < 1000: the weight (i, k). -/
theorem padW_apply (w : S1000x2048.Idx → EReal) (i : Fin 1000) (k : Fin 2048) :
    padW w (ix2 (⟨i.val, by omega⟩ : Fin 1024) k) = w (ix2 i k) := by
  unfold padW
  exact scatter_set_hit _ _ _ w embW landW embW_injective (ix2 i k)

/-! ## The bias -/

/-- Where update i of the bias lands: position i of the padded vector. -/
def embB (j : S1000.Idx) : S1024.Idx := ix1 (⟨(j 0).val, by have h : (j 0).val < 1000 := (j 0).isLt; omega⟩ : Fin 1024)

theorem windowB (j : S1000.Idx) (a : Fin 1) : scatter_S1024_S1_S1000_0_n_0_0.window j a = (j a).val := by
  match a with
  | ⟨0, _⟩ =>
    unfold ScatterDims.window
    rw [dif_pos]
    · rfl
    · show (0 : Fin S1024.rank) ∈ scatter_S1024_S1_S1000_0_n_0_0.sKept; decide

theorem landB (j : S1000.Idx) :
    scatter_S1024_S1_S1000_0_n_0_0.resultIdx? j (broadcastInDim S1 ![] bcast_S_S1 (constantI S_ 32 0#32) : IVec S1 32) = some (embB j) :=
  resultIdx?_eq_some _ j _ (embB j) fun a => by
    rw [start_zero _ j _ pad_idx_zero a, windowB j a, zero_add]
    match a with
    | ⟨0, _⟩ => rfl

theorem embB_injective : Function.Injective embB := fun j j' h => funext fun a => Fin.ext (by
  match a with
  | ⟨0, _⟩ => exact (congrArg Fin.val (congrFun h (0 : Fin 1)) : (embB j 0).val = (embB j' 0).val))

/-- The padded bias at a position i < 1000: the bias entry i. -/
theorem padB_apply (b : S1000.Idx → EReal) (i : Fin 1000) :
    padB b (ix1 (⟨i.val, by omega⟩ : Fin 1024)) = b (ix1 i) := by
  unfold padB
  exact scatter_set_hit _ _ _ b embB landB embB_injective (ix1 i)

end Cert.KernelIdeal.Prelude

end
-- ==== Proof.NetSpec.lean ====
/-
  The claim's result as one function of the argument arrays. Entry (r, q) of the [16384,1000] result is the row
  network's output entry on row r of the input array (columns 0-511, 512-1023, 1024-1535 its three input vectors), the
  weights read off the argument matrices as given -- each stored (output position, input position), so the network's
  (input, output) entry is the matrix's (output, input) entry; the hidden layer's three thirds are columns 0-1023,
  1024-2047, 2048-3071 of its [1024,3072] matrix and the decoder's two halves columns 0-1023, 1024-2047 of its
  [2048,2048] matrix -- and the last layer being row q of the [1000,2048] matrix and entry q of its bias.
-/
import proofs.«174068_j74491912782221_2_alg».proof.Proof.RowNet
import Idealize.ShloMosaic.Lib.ValueIdx

noncomputable section

namespace Cert.NetSpec

open Idealize.ShloMosaic Idealize.ShloMosaic.ValueIdx Cert

/-- The network's weights read off the argument arrays. -/
def thetaA (x1 : (⟨2, ![1024, 512]⟩ : Shape).Idx → EReal) (x2 : (⟨1, ![1024]⟩ : Shape).Idx → EReal) (x3 : (⟨2, ![1024, 512]⟩ : Shape).Idx → EReal)
    (x4 : (⟨1, ![1024]⟩ : Shape).Idx → EReal) (x5 : (⟨2, ![1024, 512]⟩ : Shape).Idx → EReal) (x6 : (⟨1, ![1024]⟩ : Shape).Idx → EReal)
    (x7 : (⟨2, ![1024, 3072]⟩ : Shape).Idx → EReal) (x8 : (⟨1, ![1024]⟩ : Shape).Idx → EReal) (x9 : (⟨2, ![2048, 2048]⟩ : Shape).Idx → EReal)
    (x10 : (⟨1, ![2048]⟩ : Shape).Idx → EReal) : RowNet.Params where
  w1 := fun k c => x1 (ix2 c k)
  b1 := fun c => x2 (ix1 c)
  w2 := fun k c => x3 (ix2 c k)
  b2 := fun c => x4 (ix1 c)
  w3 := fun k c => x5 (ix2 c k)
  b3 := fun c => x6 (ix1 c)
  h1 := fun k c => x7 (ix2 c (⟨k.val, by omega⟩ : Fin 3072))
  h2 := fun k c => x7 (ix2 c (⟨1024 + k.val, by omega⟩ : Fin 3072))
  h3 := fun k c => x7 (ix2 c (⟨2048 + k.val, by omega⟩ : Fin 3072))
  bh := fun c => x8 (ix1 c)
  da := fun j k => x9 (ix2 k (⟨j.val, by omega⟩ : Fin 2048))
  db := fun j k => x9 (ix2 k (⟨1024 + j.val, by omega⟩ : Fin 2048))
  bd := fun k => x10 (ix1 k)

/-- The result array as a function of the thirteen argument arrays. -/
def spec (x0 : (⟨2, ![16384, 1536]⟩ : Shape).Idx → EReal) (x1 : (⟨2, ![1024, 512]⟩ : Shape).Idx → EReal) (x2 : (⟨1, ![1024]⟩ : Shape).Idx → EReal)
    (x3 : (⟨2, ![1024, 512]⟩ : Shape).Idx → EReal) (x4 : (⟨1, ![1024]⟩ : Shape).Idx → EReal) (x5 : (⟨2, ![1024, 512]⟩ : Shape).Idx → EReal)
    (x6 : (⟨1, ![1024]⟩ : Shape).Idx → EReal) (x7 : (⟨2, ![1024, 3072]⟩ : Shape).Idx → EReal) (x8 : (⟨1, ![1024]⟩ : Shape).Idx → EReal)
    (x9 : (⟨2, ![2048, 2048]⟩ : Shape).Idx → EReal) (x10 : (⟨1, ![2048]⟩ : Shape).Idx → EReal) (x11 : (⟨2, ![1000, 2048]⟩ : Shape).Idx → EReal)
    (x12 : (⟨1, ![1000]⟩ : Shape).Idx → EReal) (i : (⟨2, ![16384, 1000]⟩ : Shape).Idx) : EReal :=
  RowNet.out (thetaA x1 x2 x3 x4 x5 x6 x7 x8 x9 x10)
    (fun k : Fin 512 => x0 (ix2 (⟨(i 0).val, (i 0).isLt⟩ : Fin 16384) (⟨k.val, by omega⟩ : Fin 1536)))
    (fun k : Fin 512 => x0 (ix2 (⟨(i 0).val, (i 0).isLt⟩ : Fin 16384) (⟨512 + k.val, by omega⟩ : Fin 1536)))
    (fun k : Fin 512 => x0 (ix2 (⟨(i 0).val, (i 0).isLt⟩ : Fin 16384) (⟨1024 + k.val, by omega⟩ : Fin 1536)))
    (fun k : Fin 2048 => x11 (ix2 (⟨(i 1).val, (i 1).isLt⟩ : Fin 1000) k))
    (x12 (ix1 (⟨(i 1).val, (i 1).isLt⟩ : Fin 1000)))

end Cert.NetSpec

end
-- ==== Proof.KernelValue.lean ====
/-
  The kernel's result as a function of the arguments. The arrays the call finds are the arguments transposed (weights),
  recast as one-row matrices (biases) or, for the last layer, first padded with zeros. Read back through those
  operations, the padded output array cut to its first 1000 columns is the claim's result function of the argument
  arrays: a transposed matrix at (k, c) is the matrix at (c, k); a one-row recast at (0, c) is the vector at c; and at a
  column q < 1000 the padded last layer is the last layer itself.
-/
import proofs.«174068_j74491912782221_2_alg».proof.Proof.KernelWhole
import proofs.«174068_j74491912782221_2_alg».proof.Proof.HostPad
import proofs.«174068_j74491912782221_2_alg».proof.Proof.NetSpec
import Idealize.ShloMosaic.Lib.ValueLayout

noncomputable section

namespace Cert.KernelIdeal.Val

open Idealize.ShloMosaic Idealize.ShloMosaic.ValueIdx Cert.KernelIdeal Cert.KernelIdeal.Gen Cert
open Cert.KernelIdeal.Block Cert.KernelIdeal.Whole Cert.KernelIdeal.Prelude

attribute [local instance] Cert.KernelIdeal.Gen.facts

/-- The row network's output entry depends on its arguments only. -/
theorem out_congr {θ θ' : RowNet.Params} {a a' b b' c c' : Fin 512 → EReal} {w w' : Fin 2048 → EReal} {e e' : EReal}
    (hθ : θ = θ') (ha : a = a') (hb : b = b') (hc : c = c') (hw : w = w') (he : e = e') :
    RowNet.out θ a b c w e = RowNet.out θ' a' b' c' w' e' := by
  subst hθ ha hb hc hw he; rfl

/-- The whole-array function at an index given by its coordinates. -/
theorem Gpad_ix2 (tube : S16384x1536.Idx → EReal) (a1 : Vec Ideal S512x1024 .bf16) (a2 : Vec Ideal S1x1024 .f32) (a3 : Vec Ideal S512x1024 .bf16) (a4 : Vec Ideal S1x1024 .f32) (a5 : Vec Ideal S512x1024 .bf16) (a6 : Vec Ideal S1x1024 .f32) (a7 : Vec Ideal S3072x1024 .bf16) (a8 : Vec Ideal S1x1024 .f32) (a9 : Vec Ideal S2048x2048 .bf16) (a10 : Vec Ideal S1x2048 .f32) (a11 : Vec Ideal S2048x1024 .bf16) (a12 : Vec Ideal S1x1024 .f32) (r : Fin 16384) (q : Fin 1024) :
    Gpad tube a1 a2 a3 a4 a5 a6 a7 a8 a9 a10 a11 a12 (ix2 r q)
      = RowNet.out (thetaX a1 a2 a3 a4 a5 a6 a7 a8 a9 a10)
        (fun k : Fin 512 => tube (ix2 r (⟨k.val, by omega⟩ : Fin 1536)))
        (fun k : Fin 512 => tube (ix2 r (⟨512 + k.val, by omega⟩ : Fin 1536)))
        (fun k : Fin 512 => tube (ix2 r (⟨1024 + k.val, by omega⟩ : Fin 1536)))
        (fun k : Fin 2048 => (a11 (ix2 k q) : EReal)) (a12 (ix2 (0 : Fin 1) q)) := rfl

/-- The result function at an index given by its coordinates. -/
theorem spec_ix2 (x0 : S16384x1536.Idx → EReal) (x1 : S1024x512.Idx → EReal) (x2 : S1024.Idx → EReal) (x3 : S1024x512.Idx → EReal) (x4 : S1024.Idx → EReal) (x5 : S1024x512.Idx → EReal) (x6 : S1024.Idx → EReal) (x7 : S1024x3072.Idx → EReal) (x8 : S1024.Idx → EReal) (x9 : S2048x2048.Idx → EReal) (x10 : S2048.Idx → EReal) (x11 : S1000x2048.Idx → EReal) (x12 : S1000.Idx → EReal) (r : Fin 16384) (q : Fin 1000) :
    NetSpec.spec x0 x1 x2 x3 x4 x5 x6 x7 x8 x9 x10 x11 x12 (ix2 r q)
      = RowNet.out (NetSpec.thetaA x1 x2 x3 x4 x5 x6 x7 x8 x9 x10)
        (fun k : Fin 512 => x0 (ix2 r (⟨k.val, by omega⟩ : Fin 1536)))
        (fun k : Fin 512 => x0 (ix2 r (⟨512 + k.val, by omega⟩ : Fin 1536)))
        (fun k : Fin 512 => x0 (ix2 r (⟨1024 + k.val, by omega⟩ : Fin 1536)))
        (fun k : Fin 2048 => x11 (ix2 q k)) (x12 (ix1 q)) := rfl

/-- The weights read off the transposed, recast arrays are the weights read off the arguments. -/
theorem theta_eq (x1 : S1024x512.Idx → EReal) (x2 : S1024.Idx → EReal) (x3 : S1024x512.Idx → EReal) (x4 : S1024.Idx → EReal)
    (x5 : S1024x512.Idx → EReal) (x6 : S1024.Idx → EReal) (x7 : S1024x3072.Idx → EReal) (x8 : S1024.Idx → EReal)
    (x9 : S2048x2048.Idx → EReal) (x10 : S2048.Idx → EReal) :
    thetaX (truncf (F := Ideal) .bf16 (transpose S512x1024 [1, 0] x1 transposes_S1024x512_S512x1024_1_0) bitsLt_bf16_f32) (shapeCast S1x1024 x2 shapeCasts_S1024_S1x1024) (truncf (F := Ideal) .bf16 (transpose S512x1024 [1, 0] x3 transposes_S1024x512_S512x1024_1_0) bitsLt_bf16_f32) (shapeCast S1x1024 x4 shapeCasts_S1024_S1x1024) (truncf (F := Ideal) .bf16 (transpose S512x1024 [1, 0] x5 transposes_S1024x512_S512x1024_1_0) bitsLt_bf16_f32) (shapeCast S1x1024 x6 shapeCasts_S1024_S1x1024) (truncf (F := Ideal) .bf16 (transpose S3072x1024 [1, 0] x7 transposes_S1024x3072_S3072x1024_1_0) bitsLt_bf16_f32) (shapeCast S1x1024 x8 shapeCasts_S1024_S1x1024) (truncf (F := Ideal) .bf16 (transpose S2048x2048 [1, 0] x9 transposes_S2048x2048_S2048x2048_1_0) bitsLt_bf16_f32) (shapeCast S1x2048 x10 shapeCasts_S2048_S1x2048)
      = NetSpec.thetaA x1 x2 x3 x4 x5 x6 x7 x8 x9 x10 := by
  unfold thetaX NetSpec.thetaA
  congr 1
  · funext k c; exact transpose_ix2_apply x1 _ k c
  · funext c; exact shapeCast_a_1a_apply x2 _ 0 c
  · funext k c; exact transpose_ix2_apply x3 _ k c
  · funext c; exact shapeCast_a_1a_apply x4 _ 0 c
  · funext k c; exact transpose_ix2_apply x5 _ k c
  · funext c; exact shapeCast_a_1a_apply x6 _ 0 c
  · funext k c; exact transpose_ix2_apply x7 _ _ c
  · funext k c; exact transpose_ix2_apply x7 _ _ c
  · funext k c; exact transpose_ix2_apply x7 _ _ c
  · funext c; exact shapeCast_a_1a_apply x8 _ 0 c
  · funext j k; exact transpose_ix2_apply x9 _ _ k
  · funext j k; exact transpose_ix2_apply x9 _ _ k
  · funext k; exact shapeCast_a_1a_apply x10 _ 0 k

/-- The padded output array, cut to its first 1000 columns, as the result function of the arguments. -/
theorem value_var (tube : S16384x1536.Idx → EReal) (a1 : Vec Ideal S512x1024 .bf16) (a2 : Vec Ideal S1x1024 .f32) (a3 : Vec Ideal S512x1024 .bf16)
    (a4 : Vec Ideal S1x1024 .f32) (a5 : Vec Ideal S512x1024 .bf16) (a6 : Vec Ideal S1x1024 .f32) (a7 : Vec Ideal S3072x1024 .bf16)
    (a8 : Vec Ideal S1x1024 .f32) (a9 : Vec Ideal S2048x2048 .bf16) (a10 : Vec Ideal S1x2048 .f32) (a11 : Vec Ideal S2048x1024 .bf16)
    (a12 : Vec Ideal S1x1024 .f32)
    (x0 : S16384x1536.Idx → EReal) (x1 : S1024x512.Idx → EReal) (x2 : S1024.Idx → EReal) (x3 : S1024x512.Idx → EReal) (x4 : S1024.Idx → EReal)
    (x5 : S1024x512.Idx → EReal) (x6 : S1024.Idx → EReal) (x7 : S1024x3072.Idx → EReal) (x8 : S1024.Idx → EReal)
    (x9 : S2048x2048.Idx → EReal) (x10 : S2048.Idx → EReal) (x11 : S1000x2048.Idx → EReal) (x12 : S1000.Idx → EReal)
    (h0 : tube = x0) (h1 : a1 = truncf (F := Ideal) .bf16 (transpose S512x1024 [1, 0] x1 transposes_S1024x512_S512x1024_1_0) bitsLt_bf16_f32) (h2 : a2 = shapeCast S1x1024 x2 shapeCasts_S1024_S1x1024) (h3 : a3 = truncf (F := Ideal) .bf16 (transpose S512x1024 [1, 0] x3 transposes_S1024x512_S512x1024_1_0) bitsLt_bf16_f32) (h4 : a4 = shapeCast S1x1024 x4 shapeCasts_S1024_S1x1024)
    (h5 : a5 = truncf (F := Ideal) .bf16 (transpose S512x1024 [1, 0] x5 transposes_S1024x512_S512x1024_1_0) bitsLt_bf16_f32) (h6 : a6 = shapeCast S1x1024 x6 shapeCasts_S1024_S1x1024) (h7 : a7 = truncf (F := Ideal) .bf16 (transpose S3072x1024 [1, 0] x7 transposes_S1024x3072_S3072x1024_1_0) bitsLt_bf16_f32) (h8 : a8 = shapeCast S1x1024 x8 shapeCasts_S1024_S1x1024) (h9 : a9 = truncf (F := Ideal) .bf16 (transpose S2048x2048 [1, 0] x9 transposes_S2048x2048_S2048x2048_1_0) bitsLt_bf16_f32) (h10 : a10 = shapeCast S1x2048 x10 shapeCasts_S2048_S1x2048)
    (h11 : a11 = truncf (F := Ideal) .bf16 (transpose S2048x1024 [1, 0] (padW x11) transposes_S1024x2048_S2048x1024_1_0) bitsLt_bf16_f32) (h12 : a12 = shapeCast S1x1024 (padB x12) shapeCasts_S1024_S1x1024) :
    extractStridedSlice S16384x1000 ![0, 0] (Gpad tube a1 a2 a3 a4 a5 a6 a7 a8 a9 a10 a11 a12) slices_S16384x1024_S16384x1000_0_0
      = NetSpec.spec x0 x1 x2 x3 x4 x5 x6 x7 x8 x9 x10 x11 x12 := by
  funext i
  obtain ⟨r, q, rfl⟩ : ∃ (r : Fin 16384) (q : Fin 1000), i = ix2 r q := ⟨i 0, i 1, eq_ix2 i⟩
  rw [extractStridedSlice_apply ![0, 0] _ slices_S16384x1024_S16384x1000_0_0 (ix2 r q)
    (ix2 r (⟨q.val, by omega⟩ : Fin 1024)) (fun a => match a with
      | ⟨0, _⟩ => by show r.val = 0 + r.val; omega
      | ⟨1, _⟩ => by show q.val = 0 + q.val; omega)]
  rw [Gpad_ix2, spec_ix2]
  subst h0 h1 h2 h3 h4 h5 h6 h7 h8 h9 h10 h11 h12
  refine out_congr (theta_eq x1 x2 x3 x4 x5 x6 x7 x8 x9 x10) rfl rfl rfl ?_ ?_
  · funext k
    refine (truncf_apply (φ := .f32) (ψ := .bf16) (transpose S2048x1024 [1, 0] (padW x11) transposes_S1024x2048_S2048x1024_1_0) bitsLt_bf16_f32 _).trans ?_
    exact (transpose_ix2_apply (padW x11) transposes_S1024x2048_S2048x1024_1_0 k (⟨q.val, by omega⟩ : Fin 1024)).trans (padW_apply x11 q k)
  · exact (shapeCast_a_1a_apply (padB x12) shapeCasts_S1024_S1x1024 (0 : Fin 1) (⟨q.val, by omega⟩ : Fin 1024)).trans (padB_apply x12 q)

end Cert.KernelIdeal.Val

end
-- ==== Proof.KernelRun.lean ====
/-
  The kernel program's run, read. After the call the program cuts the padded [16384,1024] output to its first 1000
  columns. Every weakly fair execution of the program terminates with that result holding the claim's result function
  of the argument arrays, and with the argument arrays unchanged: the call leaves the padded output array at the
  whole-array function of the arrays it finds, the cut reads it, and those arrays are the arguments transposed, recast
  or padded.
-/
import proofs.«174068_j74491912782221_2_alg».proof.Proof.KernelFinal
import proofs.«174068_j74491912782221_2_alg».proof.Proof.KernelValue
import Idealize.ShloMosaic.Lib.StableHlo.Run

noncomputable section

namespace Cert.KernelIdeal.RunV

open Idealize.ShloMosaic Idealize.ShloMosaic.TcCoe Idealize.ShloMosaic.ValueIdx Idealize.SL.Sem Idealize.ShloMosaic.StableHlo
open Cert.KernelIdeal Cert.KernelIdeal.Gen Cert
open Cert.KernelIdeal.Whole Cert.KernelIdeal.Prelude Cert.KernelIdeal.Val

attribute [local instance] Cert.KernelIdeal.Gen.facts

variable (m : (ℓ : Loc nD τ sig) → Buf (Elt Ideal) ℓ) (ρ : Dev nD → PrngReg)

/-- The result buffer after the program's last operation: the padded output array cut to its first 1000 columns. -/
theorem tail_v25 (c : Dev nD) :
    Pipeline.afterTail₀ cfgs (dats m) 0 (V0 m) [hostOps1] c main_v25
      = extractStridedSlice S16384x1000 ![0, 0] (Gpad (V m c main_arg0) (V m c main_v1) (V m c main_v18) (V m c main_v3) (V m c main_v19) (V m c main_v5) (V m c main_v20) (V m c main_v7) (V m c main_v21) (V m c main_v9) (V m c main_v22) (V m c main_v14) (V m c main_v23)) slices_S16384x1024_S16384x1000_0_0 := by
  unfold Pipeline.afterTail₀
  show StableHlo.after hostOps1 _ (Proc.devRef .tc main_v25) = _
  after_results
  exact congrArg (fun A => extractStridedSlice S16384x1000 ![0, 0] A slices_S16384x1024_S16384x1000_0_0)
    ((Pipeline.withArrays_arr spec0 launch0.win.arr_inj c (V0 m c) (fun w => (dats m 0 c).arrAt w cfg0.N) 13).trans (Final.final13 m c))

/-- That cut, as the result function of the argument arrays. -/
theorem value_at (c : Dev nD) :
    extractStridedSlice S16384x1000 ![0, 0] (Gpad (V m c main_arg0) (V m c main_v1) (V m c main_v18) (V m c main_v3) (V m c main_v19) (V m c main_v5) (V m c main_v20) (V m c main_v7) (V m c main_v21) (V m c main_v9) (V m c main_v22) (V m c main_v14) (V m c main_v23)) slices_S16384x1024_S16384x1000_0_0
      = NetSpec.spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  value_var (V m c main_arg0) (V m c main_v1) (V m c main_v18) (V m c main_v3) (V m c main_v19) (V m c main_v5) (V m c main_v20) (V m c main_v7) (V m c main_v21) (V m c main_v9) (V m c main_v22) (V m c main_v14) (V m c main_v23) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (V_main_arg0 m c) (V_main_v1 m c) (V_main_v18 m c) (V_main_v3 m c) (V_main_v19 m c) (V_main_v5 m c) (V_main_v20 m c) (V_main_v7 m c) (V_main_v21 m c) (V_main_v9 m c) (V_main_v22 m c) (V_main_v14 m c) (V_main_v23 m c)

/-- The run of the kernel program: the result at the claim's result function of the arguments, the arguments unchanged. -/
theorem run : θ_run defs (onTc (τ := τ) (main (F := Ideal))) ⟨m, fun _ => 0, ρ⟩ (fun r => ∀ c : Dev nD,
      r.2.mem ((c.tc : Thread nD τ).loc main_v25) = NetSpec.spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨
      (((h c).2 main_v25 (Pipeline.mem_restRefs_of main_v25 (by decide) (by decide))).trans (tail_v25 m c)).trans (value_at m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩) (run_main m ρ)

end Cert.KernelIdeal.RunV

end
-- ==== Proof.RefDots.lean ====
/-
  The four matrix products of the reference program -- [16384,512]x[512,1024], [16384,3072]x[3072,1024],
  [16384,2048]x[2048,2048] and [16384,2048]x[2048,1000] -- are plain products: each contracts the left operand's second
  axis with the right operand's first and batches nothing. With that, each product is read at (row, column), on the
  extended reals, as the finite sum over the inner position of left (row, k) * right (k, column).
-/
import proofs.«174068_j74491912782221_2_alg».proof.ReferenceIdeal
import proofs.«174068_j74491912782221_2_alg».proof.Proof.Gen.ReferenceIdeal
import proofs.«174068_j74491912782221_2_alg».proof.Proof.LibDotIx2

noncomputable section

namespace Cert.ReferenceIdeal.Dots

open Idealize.ShloMosaic Idealize.ShloMosaic.ValueIdx Cert.ReferenceIdeal

attribute [local instance] Cert.ReferenceIdeal.Gen.facts

/-- The product record dot_S16384x512_S512x1024_S16384x1024_1_0_0_1_n_n is a plain one: the left operand's second axis is contracted with the
    right operand's first, nothing is batched. -/
theorem plain_S16384x512_S512x1024_S16384x1024_1_0_0_1_n_n : PlainDot dot_S16384x512_S512x1024_S16384x1024_1_0_0_1_n_n where
  rank := rfl
  size := rfl
  l0 := fun j q => by
    unfold DotDims.lhsIdx
    rw [dif_neg (show ¬(0 : Fin (2 : ℕ)) ∈ dot_S16384x512_S512x1024_S16384x1024_1_0_0_1_n_n.lhsBatch by decide),
      dif_pos (show (0 : Fin (2 : ℕ)) ∈ dot_S16384x512_S512x1024_S16384x1024_1_0_0_1_n_n.lhsNonContracting by decide)]
    rfl
  l1 := fun j q => dot_S16384x512_S512x1024_S16384x1024_1_0_0_1_n_n.lhsIdx_val_of_single rfl j q
  r0 := fun j q => dot_S16384x512_S512x1024_S16384x1024_1_0_0_1_n_n.rhsIdx_val_of_single rfl j q
  r1 := fun j q => by
    unfold DotDims.rhsIdx
    rw [dif_neg (show ¬(1 : Fin (2 : ℕ)) ∈ dot_S16384x512_S512x1024_S16384x1024_1_0_0_1_n_n.rhsBatch by decide),
      dif_pos (show (1 : Fin (2 : ℕ)) ∈ dot_S16384x512_S512x1024_S16384x1024_1_0_0_1_n_n.rhsNonContracting by decide)]
    rfl

/-- The product record dot_S16384x3072_S3072x1024_S16384x1024_1_0_0_1_n_n is a plain one: the left operand's second axis is contracted with the
    right operand's first, nothing is batched. -/
theorem plain_S16384x3072_S3072x1024_S16384x1024_1_0_0_1_n_n : PlainDot dot_S16384x3072_S3072x1024_S16384x1024_1_0_0_1_n_n where
  rank := rfl
  size := rfl
  l0 := fun j q => by
    unfold DotDims.lhsIdx
    rw [dif_neg (show ¬(0 : Fin (2 : ℕ)) ∈ dot_S16384x3072_S3072x1024_S16384x1024_1_0_0_1_n_n.lhsBatch by decide),
      dif_pos (show (0 : Fin (2 : ℕ)) ∈ dot_S16384x3072_S3072x1024_S16384x1024_1_0_0_1_n_n.lhsNonContracting by decide)]
    rfl
  l1 := fun j q => dot_S16384x3072_S3072x1024_S16384x1024_1_0_0_1_n_n.lhsIdx_val_of_single rfl j q
  r0 := fun j q => dot_S16384x3072_S3072x1024_S16384x1024_1_0_0_1_n_n.rhsIdx_val_of_single rfl j q
  r1 := fun j q => by
    unfold DotDims.rhsIdx
    rw [dif_neg (show ¬(1 : Fin (2 : ℕ)) ∈ dot_S16384x3072_S3072x1024_S16384x1024_1_0_0_1_n_n.rhsBatch by decide),
      dif_pos (show (1 : Fin (2 : ℕ)) ∈ dot_S16384x3072_S3072x1024_S16384x1024_1_0_0_1_n_n.rhsNonContracting by decide)]
    rfl

/-- The product record dot_S16384x2048_S2048x2048_S16384x2048_1_0_0_1_n_n is a plain one: the left operand's second axis is contracted with the
    right operand's first, nothing is batched. -/
theorem plain_S16384x2048_S2048x2048_S16384x2048_1_0_0_1_n_n : PlainDot dot_S16384x2048_S2048x2048_S16384x2048_1_0_0_1_n_n where
  rank := rfl
  size := rfl
  l0 := fun j q => by
    unfold DotDims.lhsIdx
    rw [dif_neg (show ¬(0 : Fin (2 : ℕ)) ∈ dot_S16384x2048_S2048x2048_S16384x2048_1_0_0_1_n_n.lhsBatch by decide),
      dif_pos (show (0 : Fin (2 : ℕ)) ∈ dot_S16384x2048_S2048x2048_S16384x2048_1_0_0_1_n_n.lhsNonContracting by decide)]
    rfl
  l1 := fun j q => dot_S16384x2048_S2048x2048_S16384x2048_1_0_0_1_n_n.lhsIdx_val_of_single rfl j q
  r0 := fun j q => dot_S16384x2048_S2048x2048_S16384x2048_1_0_0_1_n_n.rhsIdx_val_of_single rfl j q
  r1 := fun j q => by
    unfold DotDims.rhsIdx
    rw [dif_neg (show ¬(1 : Fin (2 : ℕ)) ∈ dot_S16384x2048_S2048x2048_S16384x2048_1_0_0_1_n_n.rhsBatch by decide),
      dif_pos (show (1 : Fin (2 : ℕ)) ∈ dot_S16384x2048_S2048x2048_S16384x2048_1_0_0_1_n_n.rhsNonContracting by decide)]
    rfl

/-- The product record dot_S16384x2048_S2048x1000_S16384x1000_1_0_0_1_n_n is a plain one: the left operand's second axis is contracted with the
    right operand's first, nothing is batched. -/
theorem plain_S16384x2048_S2048x1000_S16384x1000_1_0_0_1_n_n : PlainDot dot_S16384x2048_S2048x1000_S16384x1000_1_0_0_1_n_n where
  rank := rfl
  size := rfl
  l0 := fun j q => by
    unfold DotDims.lhsIdx
    rw [dif_neg (show ¬(0 : Fin (2 : ℕ)) ∈ dot_S16384x2048_S2048x1000_S16384x1000_1_0_0_1_n_n.lhsBatch by decide),
      dif_pos (show (0 : Fin (2 : ℕ)) ∈ dot_S16384x2048_S2048x1000_S16384x1000_1_0_0_1_n_n.lhsNonContracting by decide)]
    rfl
  l1 := fun j q => dot_S16384x2048_S2048x1000_S16384x1000_1_0_0_1_n_n.lhsIdx_val_of_single rfl j q
  r0 := fun j q => dot_S16384x2048_S2048x1000_S16384x1000_1_0_0_1_n_n.rhsIdx_val_of_single rfl j q
  r1 := fun j q => by
    unfold DotDims.rhsIdx
    rw [dif_neg (show ¬(1 : Fin (2 : ℕ)) ∈ dot_S16384x2048_S2048x1000_S16384x1000_1_0_0_1_n_n.rhsBatch by decide),
      dif_pos (show (1 : Fin (2 : ℕ)) ∈ dot_S16384x2048_S2048x1000_S16384x1000_1_0_0_1_n_n.rhsNonContracting by decide)]
    rfl

end Cert.ReferenceIdeal.Dots

end
-- ==== Proof.RefStage1.lean ====
/-
  The reference's three rectified layers as whole arrays. Each is a column slice of the [16384,1536] input (columns
  0-511, 512-1023, 1024-1535) times the transposed [1024,512] weights, plus the bias spread over the rows, rectified.
  Read at (r, c) it is the row network's rectified dense layer on the matching third of row r.
-/
import proofs.«174068_j74491912782221_2_alg».proof.Proof.RefDots
import proofs.«174068_j74491912782221_2_alg».proof.Proof.LibBroadcastInDim
import proofs.«174068_j74491912782221_2_alg».proof.Proof.RowNet
import Idealize.ShloMosaic.Lib.Pipeline.Value
import Idealize.ShloMosaic.Lib.ValueLayout
import Idealize.ShloMosaic.PureOps.Ideal.Laws

noncomputable section

namespace Cert.ReferenceIdeal.Stages

open Idealize.ShloMosaic Idealize.ShloMosaic.ValueIdx Cert.ReferenceIdeal Cert
open Cert.ReferenceIdeal.Facts₀ Cert.ReferenceIdeal.Facts

attribute [local instance] Cert.ReferenceIdeal.Gen.facts

/-- The first rectified layer of every row, as an array: entry (r, c) is the rectified dense layer's entry c on
    columns 0-511 of row r of the input, the weight matrix given (output position, input position). -/
def P1arr (x0 : FVec Ideal S16384x1536 .f32) (w : FVec Ideal S1024x512 .f32) (b : FVec Ideal S1024 .f32) (i : S16384x1024.Idx) : EReal :=
  RowNet.act1 (fun k : Fin 512 => x0 (ix2 (⟨(i 0).val, (i 0).isLt⟩ : Fin 16384) (⟨k.val, by omega⟩ : Fin 1536)))
    (fun (k : Fin 512) (c : Fin 1024) => w (ix2 c k)) (fun c : Fin 1024 => b (ix1 c)) (⟨(i 1).val, (i 1).isLt⟩ : Fin 1024)

/-- The reference's operations for that layer -- a column slice of the input times the transposed weights, plus the
    bias spread over the rows, rectified against a splat of zero -- compute that array. -/
theorem P1_eq (x0 : FVec Ideal S16384x1536 .f32) (w : FVec Ideal S1024x512 .f32) (b : FVec Ideal S1024 .f32) :
    maximumf (addf (Host.dotGeneral dot_S16384x512_S512x1024_S16384x1024_1_0_0_1_n_n none
          (extractStridedSlice S16384x512 ![0, 0] x0 slices_S16384x1536_S16384x512_0_0)
          (transpose S512x1024 [1, 0] w transposes_S1024x512_S512x1024_1_0))
        (broadcastInDim S16384x1024 ![0, 1] bcast_S1x1024_S16384x1024_0_1 (broadcastInDim S1x1024 ![1] bcast_S1024_S1x1024_1 b)))
      (broadcastInDim S16384x1024 ![] bcast_S_S16384x1024 (constant (F := Ideal) S_ .f32 0x00000000#32))
      = P1arr x0 w b := by
  funext i
  obtain ⟨r, c, rfl⟩ : ∃ (r : Fin 16384) (c : Fin 1024), i = ix2 r c := ⟨i 0, i 1, eq_ix2 i⟩
  unfold P1arr RowNet.act1
  refine congrArg₂ max (congrArg₂ (· + ·) ?_ ?_) ?_
  · refine (dotGeneral_ix2_any Dots.plain_S16384x512_S512x1024_S16384x1024_1_0_0_1_n_n none _ _ _ r c).trans ?_
    refine Finset.sum_congr rfl fun k _ => congrArg₂ (· * ·) ?_ ?_
    · exact extractStridedSlice_apply ![0, 0] x0 slices_S16384x1536_S16384x512_0_0 (ix2 r k)
        (ix2 r (⟨k.val, by omega⟩ : Fin 1536)) (fun a => match a with
          | ⟨0, _⟩ => by show r.val = 0 + r.val; omega
          | ⟨1, _⟩ => by show k.val = 0 + k.val; omega)
    · exact transpose_ix2_apply w transposes_S1024x512_S512x1024_1_0 k c
  · exact (broadcastInDim_row_mat_apply bcast_S1x1024_S16384x1024_0_1 _ r c).trans
      (broadcastInDim_vec_row_apply bcast_S1024_S1x1024_1 b (0 : Fin 1) c)
  · exact (broadcastInDim_scalar_apply _ bcast_S_S16384x1024 _ (ix2 r c)).trans Ideal.ofBits_zero_f32

/-- The second rectified layer of every row, as an array: entry (r, c) is the rectified dense layer's entry c on
    columns 512-1023 of row r of the input, the weight matrix given (output position, input position). -/
def P2arr (x0 : FVec Ideal S16384x1536 .f32) (w : FVec Ideal S1024x512 .f32) (b : FVec Ideal S1024 .f32) (i : S16384x1024.Idx) : EReal :=
  RowNet.act1 (fun k : Fin 512 => x0 (ix2 (⟨(i 0).val, (i 0).isLt⟩ : Fin 16384) (⟨512 + k.val, by omega⟩ : Fin 1536)))
    (fun (k : Fin 512) (c : Fin 1024) => w (ix2 c k)) (fun c : Fin 1024 => b (ix1 c)) (⟨(i 1).val, (i 1).isLt⟩ : Fin 1024)

/-- The reference's operations for that layer -- a column slice of the input times the transposed weights, plus the
    bias spread over the rows, rectified against a splat of zero -- compute that array. -/
theorem P2_eq (x0 : FVec Ideal S16384x1536 .f32) (w : FVec Ideal S1024x512 .f32) (b : FVec Ideal S1024 .f32) :
    maximumf (addf (Host.dotGeneral dot_S16384x512_S512x1024_S16384x1024_1_0_0_1_n_n none
          (extractStridedSlice S16384x512 ![0, 512] x0 slices_S16384x1536_S16384x512_0_512)
          (transpose S512x1024 [1, 0] w transposes_S1024x512_S512x1024_1_0))
        (broadcastInDim S16384x1024 ![0, 1] bcast_S1x1024_S16384x1024_0_1 (broadcastInDim S1x1024 ![1] bcast_S1024_S1x1024_1 b)))
      (broadcastInDim S16384x1024 ![] bcast_S_S16384x1024 (constant (F := Ideal) S_ .f32 0x00000000#32))
      = P2arr x0 w b := by
  funext i
  obtain ⟨r, c, rfl⟩ : ∃ (r : Fin 16384) (c : Fin 1024), i = ix2 r c := ⟨i 0, i 1, eq_ix2 i⟩
  unfold P2arr RowNet.act1
  refine congrArg₂ max (congrArg₂ (· + ·) ?_ ?_) ?_
  · refine (dotGeneral_ix2_any Dots.plain_S16384x512_S512x1024_S16384x1024_1_0_0_1_n_n none _ _ _ r c).trans ?_
    refine Finset.sum_congr rfl fun k _ => congrArg₂ (· * ·) ?_ ?_
    · exact extractStridedSlice_apply ![0, 512] x0 slices_S16384x1536_S16384x512_0_512 (ix2 r k)
        (ix2 r (⟨512 + k.val, by omega⟩ : Fin 1536)) (fun a => match a with
          | ⟨0, _⟩ => by show r.val = 0 + r.val; omega
          | ⟨1, _⟩ => by show 512 + k.val = 512 + k.val; omega)
    · exact transpose_ix2_apply w transposes_S1024x512_S512x1024_1_0 k c
  · exact (broadcastInDim_row_mat_apply bcast_S1x1024_S16384x1024_0_1 _ r c).trans
      (broadcastInDim_vec_row_apply bcast_S1024_S1x1024_1 b (0 : Fin 1) c)
  · exact (broadcastInDim_scalar_apply _ bcast_S_S16384x1024 _ (ix2 r c)).trans Ideal.ofBits_zero_f32

/-- The third rectified layer of every row, as an array: entry (r, c) is the rectified dense layer's entry c on
    columns 1024-1535 of row r of the input, the weight matrix given (output position, input position). -/
def P3arr (x0 : FVec Ideal S16384x1536 .f32) (w : FVec Ideal S1024x512 .f32) (b : FVec Ideal S1024 .f32) (i : S16384x1024.Idx) : EReal :=
  RowNet.act1 (fun k : Fin 512 => x0 (ix2 (⟨(i 0).val, (i 0).isLt⟩ : Fin 16384) (⟨1024 + k.val, by omega⟩ : Fin 1536)))
    (fun (k : Fin 512) (c : Fin 1024) => w (ix2 c k)) (fun c : Fin 1024 => b (ix1 c)) (⟨(i 1).val, (i 1).isLt⟩ : Fin 1024)

/-- The reference's operations for that layer -- a column slice of the input times the transposed weights, plus the
    bias spread over the rows, rectified against a splat of zero -- compute that array. -/
theorem P3_eq (x0 : FVec Ideal S16384x1536 .f32) (w : FVec Ideal S1024x512 .f32) (b : FVec Ideal S1024 .f32) :
    maximumf (addf (Host.dotGeneral dot_S16384x512_S512x1024_S16384x1024_1_0_0_1_n_n none
          (extractStridedSlice S16384x512 ![0, 1024] x0 slices_S16384x1536_S16384x512_0_1024)
          (transpose S512x1024 [1, 0] w transposes_S1024x512_S512x1024_1_0))
        (broadcastInDim S16384x1024 ![0, 1] bcast_S1x1024_S16384x1024_0_1 (broadcastInDim S1x1024 ![1] bcast_S1024_S1x1024_1 b)))
      (broadcastInDim S16384x1024 ![] bcast_S_S16384x1024 (constant (F := Ideal) S_ .f32 0x00000000#32))
      = P3arr x0 w b := by
  funext i
  obtain ⟨r, c, rfl⟩ : ∃ (r : Fin 16384) (c : Fin 1024), i = ix2 r c := ⟨i 0, i 1, eq_ix2 i⟩
  unfold P3arr RowNet.act1
  refine congrArg₂ max (congrArg₂ (· + ·) ?_ ?_) ?_
  · refine (dotGeneral_ix2_any Dots.plain_S16384x512_S512x1024_S16384x1024_1_0_0_1_n_n none _ _ _ r c).trans ?_
    refine Finset.sum_congr rfl fun k _ => congrArg₂ (· * ·) ?_ ?_
    · exact extractStridedSlice_apply ![0, 1024] x0 slices_S16384x1536_S16384x512_0_1024 (ix2 r k)
        (ix2 r (⟨1024 + k.val, by omega⟩ : Fin 1536)) (fun a => match a with
          | ⟨0, _⟩ => by show r.val = 0 + r.val; omega
          | ⟨1, _⟩ => by show 1024 + k.val = 1024 + k.val; omega)
    · exact transpose_ix2_apply w transposes_S1024x512_S512x1024_1_0 k c
  · exact (broadcastInDim_row_mat_apply bcast_S1x1024_S16384x1024_0_1 _ r c).trans
      (broadcastInDim_vec_row_apply bcast_S1024_S1x1024_1 b (0 : Fin 1) c)
  · exact (broadcastInDim_scalar_apply _ bcast_S_S16384x1024 _ (ix2 r c)).trans Ideal.ofBits_zero_f32

end Cert.ReferenceIdeal.Stages

end
-- ==== Proof.LibConcatCols.lean ====
/-
  A concatenation of matrices along their COLUMNS, read at an index. The result's entry (r, c) comes from the piece whose
  span of columns holds c -- the piece k with (the widths of the pieces before it) <= c < (those widths) + (its width) --
  at row r and column c less those widths.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type}

/-- A concatenation of matrices along the columns, read at (r, c) with c in piece k: that piece at (r, j), where
    pre + j = c and pre is the total width of the pieces before piece k. -/
theorem concat_cols_piece {M N : ℕ} (xs : List ((s : Shape) × (s.Idx → α)))
    (h : Shape.Concatenates (xs.map (·.1)) (⟨2, ![M, N]⟩ : Shape) 1)
    (k : ℕ) (hk : k < xs.length) {n₁ : ℕ} (x₁ : (⟨2, ![M, n₁]⟩ : Shape).Idx → α)
    (hxk : xs[k] = ⟨(⟨2, ![M, n₁]⟩ : Shape), x₁⟩) (pre : ℕ)
    (hpre : (((xs.take k).map (·.1)).map fun s : Shape =>
      if h : s.rank = (⟨2, ![M, N]⟩ : Shape).rank then s.size ((1 : Fin (⟨2, ![M, N]⟩ : Shape).rank).cast h.symm) else 0).sum = pre)
    (r : Fin M) (j : Fin n₁) (c : Fin N) (hc : pre + j.val = c.val) :
    concatenate (⟨2, ![M, N]⟩ : Shape) 1 xs h (ix2 r c) = x₁ (ix2 r j) :=
  concatenate_apply_piece 1 xs h (ix2 r c) k hk _ x₁ hxk rfl pre hpre (ix2 r j)
    (fun d hd => by
      match d with
      | ⟨0, _⟩ => rfl
      | ⟨1, _⟩ => exact absurd rfl hd)
    hc

end Idealize.ShloMosaic.ConcatCols

end
-- ==== Proof.RefStage2.lean ====
/-
  The reference's hidden layer as a whole array. It is the three rectified layers laid side by side ([16384,3072]) times
  the transposed [1024,3072] weights, plus the bias spread over the rows, rectified. A sum over the 3072 joined columns
  is the sum of the sums over its three thirds, so at (r, c) this is the row network's three-input rectified layer on
  row r of the three layers, each against its third of the weight columns.
-/
import proofs.«174068_j74491912782221_2_alg».proof.Proof.RefStage1
import proofs.«174068_j74491912782221_2_alg».proof.Proof.LibConcatCols

noncomputable section

namespace Cert.ReferenceIdeal.Stages

open Idealize.ShloMosaic Idealize.ShloMosaic.ValueIdx Idealize.ShloMosaic.ConcatCols Cert.ReferenceIdeal Cert
open Cert.ReferenceIdeal.Facts₀ Cert.ReferenceIdeal.Facts

attribute [local instance] Cert.ReferenceIdeal.Gen.facts

/-- Three [16384,1024] arrays laid side by side, read at (r, k): the row-r entries of the three laid end to end. -/
theorem cat3_apply (p1 p2 p3 : FVec Ideal S16384x1024 .f32) (r : Fin 16384) (k : Fin 3072) :
    concatenate S16384x3072 1 [⟨S16384x1024, p1⟩, ⟨S16384x1024, p2⟩, ⟨S16384x1024, p3⟩] concatenates_S16384x1024_S16384x1024_S16384x1024_S16384x3072_d1 (ix2 r k)
      = RowNet.cat3 (fun j : Fin 1024 => (p1 (ix2 r j) : EReal)) (fun j : Fin 1024 => (p2 (ix2 r j) : EReal))
          (fun j : Fin 1024 => (p3 (ix2 r j) : EReal)) k := by
  unfold RowNet.cat3
  by_cases h1 : k.val < 1024
  · rw [dif_pos h1]
    exact concat_cols_piece [⟨S16384x1024, p1⟩, ⟨S16384x1024, p2⟩, ⟨S16384x1024, p3⟩] concatenates_S16384x1024_S16384x1024_S16384x1024_S16384x3072_d1 0 (by simp) p1 rfl 0 rfl r ⟨k.val, h1⟩ k (by simp)
  · rw [dif_neg h1]
    by_cases h2 : k.val < 2048
    · rw [dif_pos h2]
      exact concat_cols_piece [⟨S16384x1024, p1⟩, ⟨S16384x1024, p2⟩, ⟨S16384x1024, p3⟩] concatenates_S16384x1024_S16384x1024_S16384x1024_S16384x3072_d1 1 (by simp) p2 rfl 1024 rfl r ⟨k.val - 1024, by omega⟩ k (by show 1024 + (k.val - 1024) = k.val; omega)
    · rw [dif_neg h2]
      exact concat_cols_piece [⟨S16384x1024, p1⟩, ⟨S16384x1024, p2⟩, ⟨S16384x1024, p3⟩] concatenates_S16384x1024_S16384x1024_S16384x1024_S16384x3072_d1 2 (by simp) p3 rfl 2048 rfl r ⟨k.val - 2048, by have := k.isLt; omega⟩ k (by show 2048 + (k.val - 2048) = k.val; omega)

/-- The hidden layer of every row, as an array: entry (r, c) is the three-input rectified layer's entry c on row r of
    the three layers, the [1024,3072] weight matrix given (output position, input position). -/
def Harr (p1 p2 p3 : FVec Ideal S16384x1024 .f32) (w : FVec Ideal S1024x3072 .f32) (b : FVec Ideal S1024 .f32) (i : S16384x1024.Idx) : EReal :=
  RowNet.act3 (fun k : Fin 1024 => (p1 (ix2 (⟨(i 0).val, (i 0).isLt⟩ : Fin 16384) k) : EReal))
    (fun k : Fin 1024 => (p2 (ix2 (⟨(i 0).val, (i 0).isLt⟩ : Fin 16384) k) : EReal))
    (fun k : Fin 1024 => (p3 (ix2 (⟨(i 0).val, (i 0).isLt⟩ : Fin 16384) k) : EReal))
    (fun (k : Fin 1024) (c : Fin 1024) => w (ix2 c (⟨k.val, by omega⟩ : Fin 3072)))
    (fun (k : Fin 1024) (c : Fin 1024) => w (ix2 c (⟨1024 + k.val, by omega⟩ : Fin 3072)))
    (fun (k : Fin 1024) (c : Fin 1024) => w (ix2 c (⟨2048 + k.val, by omega⟩ : Fin 3072)))
    (fun c : Fin 1024 => b (ix1 c)) (⟨(i 1).val, (i 1).isLt⟩ : Fin 1024)

/-- The reference's operations for the hidden layer compute that array. -/
theorem H_eq (p1 p2 p3 : FVec Ideal S16384x1024 .f32) (w : FVec Ideal S1024x3072 .f32) (b : FVec Ideal S1024 .f32) :
    maximumf (addf (Host.dotGeneral dot_S16384x3072_S3072x1024_S16384x1024_1_0_0_1_n_n none
          (concatenate S16384x3072 1 [⟨S16384x1024, p1⟩, ⟨S16384x1024, p2⟩, ⟨S16384x1024, p3⟩] concatenates_S16384x1024_S16384x1024_S16384x1024_S16384x3072_d1)
          (transpose S3072x1024 [1, 0] w transposes_S1024x3072_S3072x1024_1_0))
        (broadcastInDim S16384x1024 ![0, 1] bcast_S1x1024_S16384x1024_0_1 (broadcastInDim S1x1024 ![1] bcast_S1024_S1x1024_1 b)))
      (broadcastInDim S16384x1024 ![] bcast_S_S16384x1024 (constant (F := Ideal) S_ .f32 0x00000000#32))
      = Harr p1 p2 p3 w b := by
  funext i
  obtain ⟨r, c, rfl⟩ : ∃ (r : Fin 16384) (c : Fin 1024), i = ix2 r c := ⟨i 0, i 1, eq_ix2 i⟩
  have hdot : Host.dotGeneral dot_S16384x3072_S3072x1024_S16384x1024_1_0_0_1_n_n none
        (concatenate S16384x3072 1 [⟨S16384x1024, p1⟩, ⟨S16384x1024, p2⟩, ⟨S16384x1024, p3⟩] concatenates_S16384x1024_S16384x1024_S16384x1024_S16384x3072_d1)
        (transpose S3072x1024 [1, 0] w transposes_S1024x3072_S3072x1024_1_0) (ix2 r c)
      = ∑ k : Fin 3072, RowNet.cat3 (fun j : Fin 1024 => (p1 (ix2 r j) : EReal)) (fun j : Fin 1024 => (p2 (ix2 r j) : EReal))
          (fun j : Fin 1024 => (p3 (ix2 r j) : EReal)) k * (fun (k : Fin 3072) (c : Fin 1024) => (w (ix2 c k) : EReal)) k c :=
    (dotGeneral_ix2_any Dots.plain_S16384x3072_S3072x1024_S16384x1024_1_0_0_1_n_n none _ _ _ r c).trans
      (Finset.sum_congr rfl fun k _ => congrArg₂ (· * ·) (cat3_apply p1 p2 p3 r k)
        (transpose_ix2_apply w transposes_S1024x3072_S3072x1024_1_0 k c))
  have hbias : broadcastInDim S16384x1024 ![0, 1] bcast_S1x1024_S16384x1024_0_1 (broadcastInDim S1x1024 ![1] bcast_S1024_S1x1024_1 b) (ix2 r c)
      = (fun c : Fin 1024 => (b (ix1 c) : EReal)) c :=
    (broadcastInDim_row_mat_apply bcast_S1x1024_S16384x1024_0_1 _ r c).trans
      (broadcastInDim_vec_row_apply bcast_S1024_S1x1024_1 b (0 : Fin 1) c)
  have hzero : broadcastInDim S16384x1024 ![] bcast_S_S16384x1024 (constant (F := Ideal) S_ .f32 0x00000000#32) (ix2 r c) = (0 : EReal) :=
    (broadcastInDim_scalar_apply _ bcast_S_S16384x1024 _ (ix2 r c)).trans Ideal.ofBits_zero_f32
  exact (congrArg₂ max (congrArg₂ (· + ·) hdot hbias) hzero).trans
    (RowNet.act_cat3 _ _ _ (fun (k : Fin 3072) (c : Fin 1024) => (w (ix2 c k) : EReal)) (fun c : Fin 1024 => (b (ix1 c) : EReal)) c)

end Cert.ReferenceIdeal.Stages

end
-- ==== Proof.RefStage3.lean ====
/-
  The reference's three scores as an array. Each score is the sum along a row of the hidden layer times one rectified
  layer (a sum started from zero), stood up as a [16384,1] column; the three columns laid side by side form a [16384,3]
  array whose entry (r, j) is the j-th column's entry in row r.
-/
import proofs.«174068_j74491912782221_2_alg».proof.Proof.RefStage2
import proofs.«174068_j74491912782221_2_alg».proof.Proof.LibRowReduce

noncomputable section

namespace Cert.ReferenceIdeal.Stages

open Idealize.ShloMosaic Idealize.ShloMosaic.ValueIdx Idealize.ShloMosaic.ConcatCols Cert.ReferenceIdeal Cert
open Cert.ReferenceIdeal.Facts₀ Cert.ReferenceIdeal.Facts

attribute [local instance] Cert.ReferenceIdeal.Gen.facts

/-- One score at row r: the sum over j of h (r, j) * p (r, j). -/
theorem score_row (h p : FVec Ideal S16384x1024 .f32) (r : Fin 16384) :
    (Host.reduceAdd (mulf h p) (constant (F := Ideal) S_ .f32 0x00000000#32) reducesTo_S16384x1024_S16384_d1 h_S_) (ix1 r)
      = RowNet.score (fun j : Fin 1024 => (h (ix2 r j) : EReal)) (fun j : Fin 1024 => (p (ix2 r j) : EReal)) := by
  simp only [Host.reduceAdd, Ideal.hostReduceAdd_def]
  refine (hostReduceAdd_row reducesTo_S16384x1024_S16384_d1 (by decide) _ _ r).trans ?_
  unfold RowNet.score
  refine (congrArg (· + _) (Ideal.ofBits_zero_f32)).trans ?_
  exact zero_add _

/-- A score column: entry (r, 0) is the score of row r. -/
def colArr (h p : FVec Ideal S16384x1024 .f32) (i : S16384x1.Idx) : EReal :=
  RowNet.score (fun j : Fin 1024 => (h (ix2 (⟨(i 0).val, (i 0).isLt⟩ : Fin 16384) j) : EReal))
    (fun j : Fin 1024 => (p (ix2 (⟨(i 0).val, (i 0).isLt⟩ : Fin 16384) j) : EReal))

/-- The reference's operations for one score column compute that column. -/
theorem col_eq (h p : FVec Ideal S16384x1024 .f32) :
    broadcastInDim S16384x1 ![0] bcast_S16384_S16384x1_0 (Host.reduceAdd (mulf h p) (constant (F := Ideal) S_ .f32 0x00000000#32) reducesTo_S16384x1024_S16384_d1 h_S_) = colArr h p := by
  funext i
  obtain ⟨r, u, rfl⟩ : ∃ (r : Fin 16384) (u : Fin 1), i = ix2 r u := ⟨i 0, i 1, eq_ix2 i⟩
  exact (broadcastInDim_vec_col_apply bcast_S16384_S16384x1_0 _ r u).trans (score_row h p r)

/-- Three [16384,1] columns laid side by side, read at (r, j): the j-th column's entry in row r. -/
theorem cols3_apply (q1 q2 q3 : FVec Ideal S16384x1 .f32) (r : Fin 16384) (j : Fin 3) :
    concatenate S16384x3 1 [⟨S16384x1, q1⟩, ⟨S16384x1, q2⟩, ⟨S16384x1, q3⟩] concatenates_S16384x1_S16384x1_S16384x1_S16384x3_d1 (ix2 r j)
      = if j.val = 0 then (q1 (ix2 r (0 : Fin 1)) : EReal) else if j.val = 1 then q2 (ix2 r (0 : Fin 1)) else q3 (ix2 r (0 : Fin 1)) := by
  have hj : j.val < 3 := j.isLt
  by_cases h0 : j.val = 0
  · rw [if_pos h0]
    exact concat_cols_piece [⟨S16384x1, q1⟩, ⟨S16384x1, q2⟩, ⟨S16384x1, q3⟩] concatenates_S16384x1_S16384x1_S16384x1_S16384x3_d1 0 (by simp) q1 rfl 0 rfl r (0 : Fin 1) j (by show 0 + 0 = j.val; omega)
  · rw [if_neg h0]
    by_cases h1 : j.val = 1
    · rw [if_pos h1]
      exact concat_cols_piece [⟨S16384x1, q1⟩, ⟨S16384x1, q2⟩, ⟨S16384x1, q3⟩] concatenates_S16384x1_S16384x1_S16384x1_S16384x3_d1 1 (by simp) q2 rfl 1 rfl r (0 : Fin 1) j (by show 1 + 0 = j.val; omega)
    · rw [if_neg h1]
      exact concat_cols_piece [⟨S16384x1, q1⟩, ⟨S16384x1, q2⟩, ⟨S16384x1, q3⟩] concatenates_S16384x1_S16384x1_S16384x1_S16384x3_d1 2 (by simp) q3 rfl 2 rfl r (0 : Fin 1) j (by show 2 + 0 = j.val; omega)

/-- The score array from its three columns: entry (r, j) is the j-th column's entry in row r. -/
def Aarr (q1 q2 q3 : FVec Ideal S16384x1 .f32) (i : S16384x3.Idx) : EReal :=
  if (i 1).val = 0 then (q1 (ix2 (⟨(i 0).val, (i 0).isLt⟩ : Fin 16384) (0 : Fin 1)) : EReal)
  else if (i 1).val = 1 then q2 (ix2 (⟨(i 0).val, (i 0).isLt⟩ : Fin 16384) (0 : Fin 1))
  else q3 (ix2 (⟨(i 0).val, (i 0).isLt⟩ : Fin 16384) (0 : Fin 1))

/-- The three columns laid side by side are that array. -/
theorem A_eq (q1 q2 q3 : FVec Ideal S16384x1 .f32) :
    concatenate S16384x3 1 [⟨S16384x1, q1⟩, ⟨S16384x1, q2⟩, ⟨S16384x1, q3⟩] concatenates_S16384x1_S16384x1_S16384x1_S16384x3_d1 = Aarr q1 q2 q3 := by
  funext i
  obtain ⟨r, j, rfl⟩ : ∃ (r : Fin 16384) (j : Fin 3), i = ix2 r j := ⟨i 0, i 1, eq_ix2 i⟩
  exact cols3_apply q1 q2 q3 r j

end Cert.ReferenceIdeal.Stages

end
-- ==== Proof.RefStage4.lean ====
/-
  The reference's softmax over the three scores, as arrays. From the [16384,3] score array: the row maximum (a fold of
  max started from minus infinity, and the maximum of that with minus infinity again) is the largest of the row's three
  scores; the exponentials of the scores less that maximum; their row sum started from zero, the normaliser; and each
  exponential divided by the normaliser.
-/
import proofs.«174068_j74491912782221_2_alg».proof.Proof.RefStage3

noncomputable section

namespace Cert.ReferenceIdeal.Stages

open Idealize.ShloMosaic Idealize.ShloMosaic.ValueIdx Cert.ReferenceIdeal Cert
open Cert.ReferenceIdeal.Facts₀ Cert.ReferenceIdeal.Facts

attribute [local instance] Cert.ReferenceIdeal.Gen.facts

/-- The row maximum at row r: the largest of the row's three entries. -/
theorem rowmax_row (a : FVec Ideal S16384x3 .f32) (r : Fin 16384) :
    (maximumf (broadcastInDim S16384 ![] bcast_S_S16384 (constant (F := Ideal) S_ .f32 0xFF800000#32)) (Host.reduce FloatOps.maximumf a (constant (F := Ideal) S_ .f32 0xFF800000#32) reducesTo_S16384x3_S16384_d1 h_S_)) (ix1 r) = RowNet.top (a (ix2 r (0 : Fin 3))) (a (ix2 r (1 : Fin 3))) (a (ix2 r (2 : Fin 3))) := by
  show max ((broadcastInDim S16384 ![] bcast_S_S16384 (constant (F := Ideal) S_ .f32 0xFF800000#32)) (ix1 r))
      (Host.reduce FloatOps.maximumf a (constant (F := Ideal) S_ .f32 0xFF800000#32) reducesTo_S16384x3_S16384_d1 h_S_ (ix1 r)) = _
  rw [broadcastInDim_scalar_apply, hostReduce_max_row reducesTo_S16384x3_S16384_d1 (by decide) a _ h_S_ r]
  show max (Ideal.ofBits .f32 0xFF800000#32) ((Finset.univ : Finset (Fin 3)).fold max (Ideal.ofBits .f32 0xFF800000#32)
      (fun j : Fin 3 => (a (ix2 r j) : EReal))) = _
  rw [RowNet.negInf_f32]
  exact RowNet.top_eq_fold (fun j : Fin 3 => (a (ix2 r j) : EReal))

/-- The exponentials: entry (r, j) is exp of the j-th score of row r less the row's largest score. -/
def Earr (a : FVec Ideal S16384x3 .f32) (i : S16384x3.Idx) : EReal :=
  RowNet.ex (a (ix2 (⟨(i 0).val, (i 0).isLt⟩ : Fin 16384) (⟨(i 1).val, (i 1).isLt⟩ : Fin 3)))
    (RowNet.top (a (ix2 (⟨(i 0).val, (i 0).isLt⟩ : Fin 16384) (0 : Fin 3))) (a (ix2 (⟨(i 0).val, (i 0).isLt⟩ : Fin 16384) (1 : Fin 3)))
      (a (ix2 (⟨(i 0).val, (i 0).isLt⟩ : Fin 16384) (2 : Fin 3))))

/-- The reference's operations for the exponentials compute that array. -/
theorem E_eq (a : FVec Ideal S16384x3 .f32) :
    Host.exp (subf a (broadcastInDim S16384x3 ![0, 1] bcast_S16384x1_S16384x3_0_1
      (broadcastInDim S16384x1 ![0] bcast_S16384_S16384x1_0 (maximumf (broadcastInDim S16384 ![] bcast_S_S16384 (constant (F := Ideal) S_ .f32 0xFF800000#32)) (Host.reduce FloatOps.maximumf a (constant (F := Ideal) S_ .f32 0xFF800000#32) reducesTo_S16384x3_S16384_d1 h_S_))))) = Earr a := by
  funext i
  obtain ⟨r, j, rfl⟩ : ∃ (r : Fin 16384) (j : Fin 3), i = ix2 r j := ⟨i 0, i 1, eq_ix2 i⟩
  have hm : (broadcastInDim S16384x3 ![0, 1] bcast_S16384x1_S16384x3_0_1
      (broadcastInDim S16384x1 ![0] bcast_S16384_S16384x1_0 (maximumf (broadcastInDim S16384 ![] bcast_S_S16384 (constant (F := Ideal) S_ .f32 0xFF800000#32)) (Host.reduce FloatOps.maximumf a (constant (F := Ideal) S_ .f32 0xFF800000#32) reducesTo_S16384x3_S16384_d1 h_S_)))) (ix2 r j)
      = RowNet.top (a (ix2 r (0 : Fin 3))) (a (ix2 r (1 : Fin 3))) (a (ix2 r (2 : Fin 3))) :=
    (broadcastInDim_col_mat_apply bcast_S16384x1_S16384x3_0_1 _ r j).trans
      ((broadcastInDim_vec_col_apply bcast_S16384_S16384x1_0 _ r (0 : Fin 1)).trans (rowmax_row a r))
  exact congrArg (fun t => Ideal.exp (a (ix2 r j) - t)) hm

/-- The normaliser at row r: the sum of the row's three entries, the first two added first. -/
theorem rowsum_row (e : FVec Ideal S16384x3 .f32) (r : Fin 16384) :
    Host.reduceAdd e (constant (F := Ideal) S_ .f32 0x00000000#32) reducesTo_S16384x3_S16384_d1 h_S_ (ix1 r)
      = RowNet.tot (e (ix2 r (0 : Fin 3))) (e (ix2 r (1 : Fin 3))) (e (ix2 r (2 : Fin 3))) := by
  simp only [Host.reduceAdd, Ideal.hostReduceAdd_def]
  refine (hostReduceAdd_row reducesTo_S16384x3_S16384_d1 (by decide) _ _ r).trans ?_
  refine (congrArg (· + _) (Ideal.ofBits_zero_f32)).trans ?_
  exact RowNet.tot_eq_sum (fun j : Fin 3 => (e (ix2 r j) : EReal))

/-- The weights: entry (r, j) is the j-th exponential of row r divided by the row's normaliser. -/
def Warr (e : FVec Ideal S16384x3 .f32) (i : S16384x3.Idx) : EReal :=
  Ideal.div (e (ix2 (⟨(i 0).val, (i 0).isLt⟩ : Fin 16384) (⟨(i 1).val, (i 1).isLt⟩ : Fin 3)))
    (RowNet.tot (e (ix2 (⟨(i 0).val, (i 0).isLt⟩ : Fin 16384) (0 : Fin 3))) (e (ix2 (⟨(i 0).val, (i 0).isLt⟩ : Fin 16384) (1 : Fin 3)))
      (e (ix2 (⟨(i 0).val, (i 0).isLt⟩ : Fin 16384) (2 : Fin 3))))

/-- The weights at an index given by its coordinates. -/
theorem Warr_ix2 (e : FVec Ideal S16384x3 .f32) (r : Fin 16384) (j : Fin 3) :
    Warr e (ix2 r j) = Ideal.div (e (ix2 r j)) (RowNet.tot (e (ix2 r (0 : Fin 3))) (e (ix2 r (1 : Fin 3))) (e (ix2 r (2 : Fin 3)))) := rfl

/-- The reference's operations for the weights compute that array. -/
theorem W_eq (e : FVec Ideal S16384x3 .f32) :
    Host.divf e (broadcastInDim S16384x3 ![0, 1] bcast_S16384x1_S16384x3_0_1
      (broadcastInDim S16384x1 ![0] bcast_S16384_S16384x1_0
        (Host.reduceAdd e (constant (F := Ideal) S_ .f32 0x00000000#32) reducesTo_S16384x3_S16384_d1 h_S_))) = Warr e := by
  funext i
  obtain ⟨r, j, rfl⟩ : ∃ (r : Fin 16384) (j : Fin 3), i = ix2 r j := ⟨i 0, i 1, eq_ix2 i⟩
  have hd : (broadcastInDim S16384x3 ![0, 1] bcast_S16384x1_S16384x3_0_1
      (broadcastInDim S16384x1 ![0] bcast_S16384_S16384x1_0
        (Host.reduceAdd e (constant (F := Ideal) S_ .f32 0x00000000#32) reducesTo_S16384x3_S16384_d1 h_S_))) (ix2 r j)
      = RowNet.tot (e (ix2 r (0 : Fin 3))) (e (ix2 r (1 : Fin 3))) (e (ix2 r (2 : Fin 3))) :=
    (broadcastInDim_col_mat_apply bcast_S16384x1_S16384x3_0_1 _ r j).trans
      ((broadcastInDim_vec_col_apply bcast_S16384_S16384x1_0 _ r (0 : Fin 1)).trans (rowsum_row e r))
  rw [Warr_ix2]
  simp only [Host.divf, Ideal.hostDivf_def]
  rw [hd]

end Cert.ReferenceIdeal.Stages

end
-- ==== Proof.RefStage5.lean ====
/-
  The reference's mixture, decoder layer and output layer, as arrays. The mixture: each softmax weight column, cut out of
  the [16384,3] weight array and spread along its row, times its rectified layer, the three products added left to right.
  The decoder layer: the mixture and the hidden layer laid side by side ([16384,2048]) times the transposed [2048,2048]
  weights, plus the bias, rectified -- the two-input rectified layer against the two halves of the weight columns. The
  output: that times the transposed [1000,2048] weights plus the bias.
-/
import proofs.«174068_j74491912782221_2_alg».proof.Proof.RefStage4

noncomputable section

namespace Cert.ReferenceIdeal.Stages

open Idealize.ShloMosaic Idealize.ShloMosaic.ValueIdx Idealize.ShloMosaic.ConcatCols Cert.ReferenceIdeal Cert
open Cert.ReferenceIdeal.Facts₀ Cert.ReferenceIdeal.Facts

attribute [local instance] Cert.ReferenceIdeal.Gen.facts

/-! ## The mixture -/

/-- The mixture of every row, as an array. -/
def Carr (wt : FVec Ideal S16384x3 .f32) (p1 p2 p3 : FVec Ideal S16384x1024 .f32) (i : S16384x1024.Idx) : EReal :=
  RowNet.mix (wt (ix2 (⟨(i 0).val, (i 0).isLt⟩ : Fin 16384) (0 : Fin 3))) (wt (ix2 (⟨(i 0).val, (i 0).isLt⟩ : Fin 16384) (1 : Fin 3)))
    (wt (ix2 (⟨(i 0).val, (i 0).isLt⟩ : Fin 16384) (2 : Fin 3)))
    (fun c : Fin 1024 => (p1 (ix2 (⟨(i 0).val, (i 0).isLt⟩ : Fin 16384) c) : EReal))
    (fun c : Fin 1024 => (p2 (ix2 (⟨(i 0).val, (i 0).isLt⟩ : Fin 16384) c) : EReal))
    (fun c : Fin 1024 => (p3 (ix2 (⟨(i 0).val, (i 0).isLt⟩ : Fin 16384) c) : EReal)) (⟨(i 1).val, (i 1).isLt⟩ : Fin 1024)

/-- The reference's operations for the mixture compute that array. -/
theorem C_eq (wt : FVec Ideal S16384x3 .f32) (p1 p2 p3 : FVec Ideal S16384x1024 .f32) :
    addf (addf (mulf (broadcastInDim S16384x1024 ![0, 1] bcast_S16384x1_S16384x1024_0_1 (extractStridedSlice S16384x1 ![0, 0] wt slices_S16384x3_S16384x1_0_0)) p1) (mulf (broadcastInDim S16384x1024 ![0, 1] bcast_S16384x1_S16384x1024_0_1 (extractStridedSlice S16384x1 ![0, 1] wt slices_S16384x3_S16384x1_0_1)) p2)) (mulf (broadcastInDim S16384x1024 ![0, 1] bcast_S16384x1_S16384x1024_0_1 (extractStridedSlice S16384x1 ![0, 2] wt slices_S16384x3_S16384x1_0_2)) p3) = Carr wt p1 p2 p3 := by
  funext i
  obtain ⟨r, c, rfl⟩ : ∃ (r : Fin 16384) (c : Fin 1024), i = ix2 r c := ⟨i 0, i 1, eq_ix2 i⟩
  have hg0 : (broadcastInDim S16384x1024 ![0, 1] bcast_S16384x1_S16384x1024_0_1 (extractStridedSlice S16384x1 ![0, 0] wt slices_S16384x3_S16384x1_0_0)) (ix2 r c) = wt (ix2 r (0 : Fin 3)) :=
    (broadcastInDim_col_mat_apply bcast_S16384x1_S16384x1024_0_1 _ r c).trans
      (extractStridedSlice_apply ![0, 0] wt slices_S16384x3_S16384x1_0_0 (ix2 r (0 : Fin 1)) (ix2 r (0 : Fin 3)) (fun a => match a with
        | ⟨0, _⟩ => by show r.val = 0 + r.val; omega
        | ⟨1, _⟩ => by show (0 : ℕ) = 0 + 0; rfl))
  have hg1 : (broadcastInDim S16384x1024 ![0, 1] bcast_S16384x1_S16384x1024_0_1 (extractStridedSlice S16384x1 ![0, 1] wt slices_S16384x3_S16384x1_0_1)) (ix2 r c) = wt (ix2 r (1 : Fin 3)) :=
    (broadcastInDim_col_mat_apply bcast_S16384x1_S16384x1024_0_1 _ r c).trans
      (extractStridedSlice_apply ![0, 1] wt slices_S16384x3_S16384x1_0_1 (ix2 r (0 : Fin 1)) (ix2 r (1 : Fin 3)) (fun a => match a with
        | ⟨0, _⟩ => by show r.val = 0 + r.val; omega
        | ⟨1, _⟩ => by show (1 : ℕ) = 1 + 0; rfl))
  have hg2 : (broadcastInDim S16384x1024 ![0, 1] bcast_S16384x1_S16384x1024_0_1 (extractStridedSlice S16384x1 ![0, 2] wt slices_S16384x3_S16384x1_0_2)) (ix2 r c) = wt (ix2 r (2 : Fin 3)) :=
    (broadcastInDim_col_mat_apply bcast_S16384x1_S16384x1024_0_1 _ r c).trans
      (extractStridedSlice_apply ![0, 2] wt slices_S16384x3_S16384x1_0_2 (ix2 r (0 : Fin 1)) (ix2 r (2 : Fin 3)) (fun a => match a with
        | ⟨0, _⟩ => by show r.val = 0 + r.val; omega
        | ⟨1, _⟩ => by show (2 : ℕ) = 2 + 0; rfl))
  unfold Carr RowNet.mix
  exact congrArg₂ (· + ·) (congrArg₂ (· + ·) (congrArg (· * p1 (ix2 r c)) hg0) (congrArg (· * p2 (ix2 r c)) hg1)) (congrArg (· * p3 (ix2 r c)) hg2)

/-! ## The decoder layer -/

/-- Two [16384,1024] arrays laid side by side, read at (r, k). -/
theorem cat2_apply (ctx h : FVec Ideal S16384x1024 .f32) (r : Fin 16384) (k : Fin 2048) :
    concatenate S16384x2048 1 [⟨S16384x1024, ctx⟩, ⟨S16384x1024, h⟩] concatenates_S16384x1024_S16384x1024_S16384x2048_d1 (ix2 r k)
      = RowNet.cat2 (fun j : Fin 1024 => (ctx (ix2 r j) : EReal)) (fun j : Fin 1024 => (h (ix2 r j) : EReal)) k := by
  unfold RowNet.cat2
  by_cases h1 : k.val < 1024
  · rw [dif_pos h1]
    exact concat_cols_piece [⟨S16384x1024, ctx⟩, ⟨S16384x1024, h⟩] concatenates_S16384x1024_S16384x1024_S16384x2048_d1 0 (by show (0 : ℕ) < 2; decide) ctx rfl 0 rfl r ⟨k.val, h1⟩ k (by simp)
  · rw [dif_neg h1]
    exact concat_cols_piece [⟨S16384x1024, ctx⟩, ⟨S16384x1024, h⟩] concatenates_S16384x1024_S16384x1024_S16384x2048_d1 1 (by show (1 : ℕ) < 2; decide) h rfl 1024 rfl r ⟨k.val - 1024, by have := k.isLt; omega⟩ k (by show 1024 + (k.val - 1024) = k.val; omega)

/-- The decoder layer of every row, as an array. -/
def Darr (ctx h : FVec Ideal S16384x1024 .f32) (w9 : FVec Ideal S2048x2048 .f32) (b10 : FVec Ideal S2048 .f32) (i : S16384x2048.Idx) : EReal :=
  RowNet.act2 (fun j : Fin 1024 => (ctx (ix2 (⟨(i 0).val, (i 0).isLt⟩ : Fin 16384) j) : EReal))
    (fun j : Fin 1024 => (h (ix2 (⟨(i 0).val, (i 0).isLt⟩ : Fin 16384) j) : EReal))
    (fun (j : Fin 1024) (k : Fin 2048) => w9 (ix2 k (⟨j.val, by omega⟩ : Fin 2048)))
    (fun (j : Fin 1024) (k : Fin 2048) => w9 (ix2 k (⟨1024 + j.val, by omega⟩ : Fin 2048)))
    (fun k : Fin 2048 => b10 (ix1 k)) (⟨(i 1).val, (i 1).isLt⟩ : Fin 2048)

/-- The reference's operations for the decoder layer compute that array. -/
theorem D_eq (ctx h : FVec Ideal S16384x1024 .f32) (w9 : FVec Ideal S2048x2048 .f32) (b10 : FVec Ideal S2048 .f32) :
    (maximumf (addf (Host.dotGeneral dot_S16384x2048_S2048x2048_S16384x2048_1_0_0_1_n_n none
          (concatenate S16384x2048 1 [⟨S16384x1024, ctx⟩, ⟨S16384x1024, h⟩] concatenates_S16384x1024_S16384x1024_S16384x2048_d1)
          (transpose S2048x2048 [1, 0] w9 transposes_S2048x2048_S2048x2048_1_0))
        (broadcastInDim S16384x2048 ![0, 1] bcast_S1x2048_S16384x2048_0_1 (broadcastInDim S1x2048 ![1] bcast_S2048_S1x2048_1 b10)))
      (broadcastInDim S16384x2048 ![] bcast_S_S16384x2048 (constant (F := Ideal) S_ .f32 0x00000000#32))) = Darr ctx h w9 b10 := by
  funext i
  obtain ⟨r, c, rfl⟩ : ∃ (r : Fin 16384) (c : Fin 2048), i = ix2 r c := ⟨i 0, i 1, eq_ix2 i⟩
  have hdot : Host.dotGeneral dot_S16384x2048_S2048x2048_S16384x2048_1_0_0_1_n_n none
        (concatenate S16384x2048 1 [⟨S16384x1024, ctx⟩, ⟨S16384x1024, h⟩] concatenates_S16384x1024_S16384x1024_S16384x2048_d1)
        (transpose S2048x2048 [1, 0] w9 transposes_S2048x2048_S2048x2048_1_0) (ix2 r c)
      = ∑ k : Fin 2048, RowNet.cat2 (fun j : Fin 1024 => (ctx (ix2 r j) : EReal)) (fun j : Fin 1024 => (h (ix2 r j) : EReal)) k
          * (fun (k : Fin 2048) (c : Fin 2048) => (w9 (ix2 c k) : EReal)) k c :=
    (dotGeneral_ix2_any Dots.plain_S16384x2048_S2048x2048_S16384x2048_1_0_0_1_n_n none _ _ _ r c).trans
      (Finset.sum_congr rfl fun k _ => congrArg₂ (· * ·) (cat2_apply ctx h r k)
        (transpose_ix2_apply w9 transposes_S2048x2048_S2048x2048_1_0 k c))
  have hbias : broadcastInDim S16384x2048 ![0, 1] bcast_S1x2048_S16384x2048_0_1 (broadcastInDim S1x2048 ![1] bcast_S2048_S1x2048_1 b10) (ix2 r c)
      = (fun c : Fin 2048 => (b10 (ix1 c) : EReal)) c :=
    (broadcastInDim_row_mat_apply bcast_S1x2048_S16384x2048_0_1 _ r c).trans
      (broadcastInDim_vec_row_apply bcast_S2048_S1x2048_1 b10 (0 : Fin 1) c)
  have hzero : broadcastInDim S16384x2048 ![] bcast_S_S16384x2048 (constant (F := Ideal) S_ .f32 0x00000000#32) (ix2 r c) = (0 : EReal) :=
    (broadcastInDim_scalar_apply _ bcast_S_S16384x2048 _ (ix2 r c)).trans Ideal.ofBits_zero_f32
  exact (congrArg₂ max (congrArg₂ (· + ·) hdot hbias) hzero).trans
    (RowNet.act_cat2 _ _ (fun (k : Fin 2048) (c : Fin 2048) => (w9 (ix2 c k) : EReal)) (fun c : Fin 2048 => (b10 (ix1 c) : EReal)) c)

/-! ## The output layer -/

/-- The output of every row, as an array. -/
def Oarr (d : FVec Ideal S16384x2048 .f32) (w11 : FVec Ideal S1000x2048 .f32) (b12 : FVec Ideal S1000 .f32) (i : S16384x1000.Idx) : EReal :=
  RowNet.lin (fun k : Fin 2048 => (d (ix2 (⟨(i 0).val, (i 0).isLt⟩ : Fin 16384) k) : EReal))
    (fun k : Fin 2048 => (w11 (ix2 (⟨(i 1).val, (i 1).isLt⟩ : Fin 1000) k) : EReal)) (b12 (ix1 (⟨(i 1).val, (i 1).isLt⟩ : Fin 1000)))

/-- The reference's operations for the output layer compute that array. -/
theorem O_eq (d : FVec Ideal S16384x2048 .f32) (w11 : FVec Ideal S1000x2048 .f32) (b12 : FVec Ideal S1000 .f32) :
    addf (Host.dotGeneral dot_S16384x2048_S2048x1000_S16384x1000_1_0_0_1_n_n none d
          (transpose S2048x1000 [1, 0] w11 transposes_S1000x2048_S2048x1000_1_0))
        (broadcastInDim S16384x1000 ![0, 1] bcast_S1x1000_S16384x1000_0_1 (broadcastInDim S1x1000 ![1] bcast_S1000_S1x1000_1 b12))
      = Oarr d w11 b12 := by
  funext i
  obtain ⟨r, q, rfl⟩ : ∃ (r : Fin 16384) (q : Fin 1000), i = ix2 r q := ⟨i 0, i 1, eq_ix2 i⟩
  unfold Oarr RowNet.lin
  refine congrArg₂ (· + ·) ?_ ?_
  · refine (dotGeneral_ix2_any Dots.plain_S16384x2048_S2048x1000_S16384x1000_1_0_0_1_n_n none _ _ _ r q).trans ?_
    exact Finset.sum_congr rfl fun k _ => congrArg₂ (· * ·) rfl (transpose_ix2_apply w11 transposes_S1000x2048_S2048x1000_1_0 k q)
  · exact (broadcastInDim_row_mat_apply bcast_S1x1000_S16384x1000_0_1 _ r q).trans
      (broadcastInDim_vec_row_apply bcast_S1000_S1x1000_1 b12 (0 : Fin 1) q)

end Cert.ReferenceIdeal.Stages

end
-- ==== Proof.RefWindows.lean ====
/-
  The reference program's 88 host operations read window by window. The list is cut into six stretches -- the three
  rectified layers; the hidden layer; the three score columns; the score array, its exponentials and the softmax weights;
  the mixture; the decoder and output layers -- and the contents after the whole list are the contents after the last
  stretch from the contents after the stretches before it. For each stretch: the buffers it computes, as the stage arrays of
  the buffers it reads, from ANY contents; and the buffers later stretches still read, which it leaves as they were. Put
  together, the result buffer after the whole list is the output array built from the stage arrays of the arguments, and
  every argument is left as it was.
-/
import proofs.«174068_j74491912782221_2_alg».proof.Proof.RefOpsPatched
import proofs.«174068_j74491912782221_2_alg».proof.Proof.RefStage5
import Idealize.ShloMosaic.Lib.StableHlo.Run

noncomputable section

namespace Cert.ReferenceIdeal.Win

open Idealize.ShloMosaic Idealize.ShloMosaic.TcCoe Idealize.SL.Sem Idealize.ShloMosaic.StableHlo
open Cert.ReferenceIdeal Cert.ReferenceIdeal.Gen Cert

attribute [local instance] Cert.ReferenceIdeal.Gen.facts

/-- The contents after two stretches run one after the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-! ## The six stretches -/

section Stretches

variable {F : FTy → Type} [FloatOps F]

/-- Operations 1 to 27 of the reference program, in order. -/
abbrev W1 : List (HloOp τ sig (Elt F)) :=
  [ unary main_arg0 main_v0 ((extractStridedSlice S16384x512 ![0, 0] · slices_S16384x1536_S16384x512_0_0) : (⟨S16384x1536, .f32⟩ : BufTy).Contents (Elt F) → (⟨S16384x512, .f32⟩ : BufTy).Contents (Elt F)),
    unary main_arg0 main_v1 ((extractStridedSlice S16384x512 ![0, 512] · slices_S16384x1536_S16384x512_0_512) : (⟨S16384x1536, .f32⟩ : BufTy).Contents (Elt F) → (⟨S16384x512, .f32⟩ : BufTy).Contents (Elt F)),
    unary main_arg0 main_v2 ((extractStridedSlice S16384x512 ![0, 1024] · slices_S16384x1536_S16384x512_0_1024) : (⟨S16384x1536, .f32⟩ : BufTy).Contents (Elt F) → (⟨S16384x512, .f32⟩ : BufTy).Contents (Elt F)),
    unary main_arg1 main_v3 ((transpose S512x1024 [1, 0] · transposes_S1024x512_S512x1024_1_0) : (⟨S1024x512, .f32⟩ : BufTy).Contents (Elt F) → (⟨S512x1024, .f32⟩ : BufTy).Contents (Elt F)),
    binary main_v0 main_v3 main_v4 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    unary main_arg2 main_v5 (broadcastInDim S1x1024 ![1] bcast_S1024_S1x1024_1 : (⟨S1024, .f32⟩ : BufTy).Contents (Elt F) → (⟨S1x1024, .f32⟩ : BufTy).Contents (Elt F)),
    unary main_v5 main_v6 (broadcastInDim S16384x1024 ![0, 1] bcast_S1x1024_S16384x1024_0_1 : (⟨S1x1024, .f32⟩ : BufTy).Contents (Elt F) → (⟨S16384x1024, .f32⟩ : BufTy).Contents (Elt F)),
    binary main_v4 main_v6 main_v7 (addf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x1024, .f32⟩) main_call0_v0) (broadcastInDim S16384x1024 ![] bcast_S_S16384x1024),
    TRef.binary (TRef.of (T := ⟨S16384x1024, .f32⟩) main_v7) (TRef.of (T := ⟨S16384x1024, .f32⟩) main_call0_v0) (TRef.of (T := ⟨S16384x1024, .f32⟩) main_v8) maximumf,
    unary main_arg3 main_v9 ((transpose S512x1024 [1, 0] · transposes_S1024x512_S512x1024_1_0) : (⟨S1024x512, .f32⟩ : BufTy).Contents (Elt F) → (⟨S512x1024, .f32⟩ : BufTy).Contents (Elt F)),
    binary main_v1 main_v9 main_v10 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    unary main_arg4 main_v11 (broadcastInDim S1x1024 ![1] bcast_S1024_S1x1024_1 : (⟨S1024, .f32⟩ : BufTy).Contents (Elt F) → (⟨S1x1024, .f32⟩ : BufTy).Contents (Elt F)),
    unary main_v11 main_v12 (broadcastInDim S16384x1024 ![0, 1] bcast_S1x1024_S16384x1024_0_1 : (⟨S1x1024, .f32⟩ : BufTy).Contents (Elt F) → (⟨S16384x1024, .f32⟩ : BufTy).Contents (Elt F)),
    binary main_v10 main_v12 main_v13 (addf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x1024, .f32⟩) main_call1_v0) (broadcastInDim S16384x1024 ![] bcast_S_S16384x1024),
    TRef.binary (TRef.of (T := ⟨S16384x1024, .f32⟩) main_v13) (TRef.of (T := ⟨S16384x1024, .f32⟩) main_call1_v0) (TRef.of (T := ⟨S16384x1024, .f32⟩) main_v14) maximumf,
    unary main_arg5 main_v15 ((transpose S512x1024 [1, 0] · transposes_S1024x512_S512x1024_1_0) : (⟨S1024x512, .f32⟩ : BufTy).Contents (Elt F) → (⟨S512x1024, .f32⟩ : BufTy).Contents (Elt F)),
    binary main_v2 main_v15 main_v16 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    unary main_arg6 main_v17 (broadcastInDim S1x1024 ![1] bcast_S1024_S1x1024_1 : (⟨S1024, .f32⟩ : BufTy).Contents (Elt F) → (⟨S1x1024, .f32⟩ : BufTy).Contents (Elt F)),
    unary main_v17 main_v18 (broadcastInDim S16384x1024 ![0, 1] bcast_S1x1024_S16384x1024_0_1 : (⟨S1x1024, .f32⟩ : BufTy).Contents (Elt F) → (⟨S16384x1024, .f32⟩ : BufTy).Contents (Elt F)),
    binary main_v16 main_v18 main_v19 (addf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x1024, .f32⟩) main_call2_v0) (broadcastInDim S16384x1024 ![] bcast_S_S16384x1024),
    TRef.binary (TRef.of (T := ⟨S16384x1024, .f32⟩) main_v19) (TRef.of (T := ⟨S16384x1024, .f32⟩) main_call2_v0) (TRef.of (T := ⟨S16384x1024, .f32⟩) main_v20) maximumf ]

/-- Operations 28 to 36 of the reference program, in order. -/
abbrev W2 : List (HloOp τ sig (Elt F)) :=
  [ nary ![main_v8, main_v14, main_v20] main_v21 (fun u => concatenate S16384x3072 1 [⟨S16384x1024, u 0⟩, ⟨S16384x1024, u 1⟩, ⟨S16384x1024, u 2⟩] concatenates_S16384x1024_S16384x1024_S16384x1024_S16384x3072_d1),
    unary main_arg7 main_v22 ((transpose S3072x1024 [1, 0] · transposes_S1024x3072_S3072x1024_1_0) : (⟨S1024x3072, .f32⟩ : BufTy).Contents (Elt F) → (⟨S3072x1024, .f32⟩ : BufTy).Contents (Elt F)),
    binary main_v21 main_v22 main_v23 ((fun l r => Host.dotGeneral dot_S16384x3072_S3072x1024_S16384x1024_1_0_0_1_n_n none l r) : (⟨S16384x3072, .f32⟩ : BufTy).Contents (Elt F) → (⟨S3072x1024, .f32⟩ : BufTy).Contents (Elt F) → (⟨S16384x1024, .f32⟩ : BufTy).Contents (Elt F)),
    unary main_arg8 main_v24 (broadcastInDim S1x1024 ![1] bcast_S1024_S1x1024_1 : (⟨S1024, .f32⟩ : BufTy).Contents (Elt F) → (⟨S1x1024, .f32⟩ : BufTy).Contents (Elt F)),
    unary main_v24 main_v25 (broadcastInDim S16384x1024 ![0, 1] bcast_S1x1024_S16384x1024_0_1 : (⟨S1x1024, .f32⟩ : BufTy).Contents (Elt F) → (⟨S16384x1024, .f32⟩ : BufTy).Contents (Elt F)),
    binary main_v23 main_v25 main_v26 (addf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16384x1024, .f32⟩) main_call3_v0) (broadcastInDim S16384x1024 ![] bcast_S_S16384x1024),
    TRef.binary (TRef.of (T := ⟨S16384x1024, .f32⟩) main_v26) (TRef.of (T := ⟨S16384x1024, .f32⟩) main_call3_v0) (TRef.of (T := ⟨S16384x1024, .f32⟩) main_v27) maximumf ]

/-- Operations 37 to 48 of the reference program, in order. -/
abbrev W3 : List (HloOp τ sig (Elt F)) :=
  [ binary main_v27 main_v8 main_v28 (mulf : (⟨S16384x1024, .f32⟩ : BufTy).Contents (Elt F) → (⟨S16384x1024, .f32⟩ : BufTy).Contents (Elt F) → (⟨S16384x1024, .f32⟩ : BufTy).Contents (Elt F)),
    nullary main_cst (constant S_ .f32 0x00000000#32),
    binary main_v28 main_cst main_v29 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    binary main_v27 main_v14 main_v30 (mulf : (⟨S16384x1024, .f32⟩ : BufTy).Contents (Elt F) → (⟨S16384x1024, .f32⟩ : BufTy).Contents (Elt F) → (⟨S16384x1024, .f32⟩ : BufTy).Contents (Elt F)),
    nullary main_cst_0 (constant S_ .f32 0x00000000#32),
    binary main_v30 main_cst_0 main_v31 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    binary main_v27 main_v20 main_v32 (mulf : (⟨S16384x1024, .f32⟩ : BufTy).Contents (Elt F) → (⟨S16384x1024, .f32⟩ : BufTy).Contents (Elt F) → (⟨S16384x1024, .f32⟩ : BufTy).Contents (Elt F)),
    nullary main_cst_1 (constant S_ .f32 0x00000000#32),
    binary main_v32 main_cst_1 main_v33 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v29 main_v34 (broadcastInDim S16384x1 ![0] bcast_S16384_S16384x1_0 : (⟨S16384, .f32⟩ : BufTy).Contents (Elt F) → (⟨S16384x1, .f32⟩ : BufTy).Contents (Elt F)),
    unary main_v31 main_v35 (broadcastInDim S16384x1 ![0] bcast_S16384_S16384x1_0 : (⟨S16384, .f32⟩ : BufTy).Contents (Elt F) → (⟨S16384x1, .f32⟩ : BufTy).Contents (Elt F)),
    unary main_v33 main_v36 (broadcastInDim S16384x1 ![0] bcast_S16384_S16384x1_0 : (⟨S16384, .f32⟩ : BufTy).Contents (Elt F) → (⟨S16384x1, .f32⟩ : BufTy).Contents (Elt F)) ]

/-- Operations 49 to 63 of the reference program, in order. -/
abbrev W4 : List (HloOp τ sig (Elt F)) :=
  [ nary ![main_v34, main_v35, main_v36] main_v37 (fun u => concatenate S16384x3 1 [⟨S16384x1, u 0⟩, ⟨S16384x1, u 1⟩, ⟨S16384x1, u 2⟩] concatenates_S16384x1_S16384x1_S16384x1_S16384x3_d1),
    nullary main_cst_2 (constant S_ .f32 0xFF800000#32),
    binary main_v37 main_cst_2 main_v38 ((fun x v => Host.reduce FloatOps.maximumf x v reducesTo_S16384x3_S16384_d1 h_S_) : (⟨S16384x3, .f32⟩ : BufTy).Contents (Elt F) → (⟨S_, .f32⟩ : BufTy).Contents (Elt F) → (⟨S16384, .f32⟩ : BufTy).Contents (Elt F)),
    nullary main_cst_3 (constant S_ .f32 0xFF800000#32),
    unary main_cst_3 main_v39 (broadcastInDim S16384 ![] bcast_S_S16384 : (⟨S_, .f32⟩ : BufTy).Contents (Elt F) → (⟨S16384, .f32⟩ : BufTy).Contents (Elt F)),
    binary main_v39 main_v38 main_v40 (maximumf : (⟨S16384, .f32⟩ : BufTy).Contents (Elt F) → (⟨S16384, .f32⟩ : BufTy).Contents (Elt F) → (⟨S16384, .f32⟩ : BufTy).Contents (Elt F)),
    unary main_v40 main_v41 (broadcastInDim S16384x1 ![0] bcast_S16384_S16384x1_0 : (⟨S16384, .f32⟩ : BufTy).Contents (Elt F) → (⟨S16384x1, .f32⟩ : BufTy).Contents (Elt F)),
    unary main_v41 main_v42 (broadcastInDim S16384x3 ![0, 1] bcast_S16384x1_S16384x3_0_1 : (⟨S16384x1, .f32⟩ : BufTy).Contents (Elt F) → (⟨S16384x3, .f32⟩ : BufTy).Contents (Elt F)),
    binary main_v37 main_v42 main_v43 (subf : (⟨S16384x3, .f32⟩ : BufTy).Contents (Elt F) → (⟨S16384x3, .f32⟩ : BufTy).Contents (Elt F) → (⟨S16384x3, .f32⟩ : BufTy).Contents (Elt F)),
    unary main_v43 main_v44 (Host.exp : (⟨S16384x3, .f32⟩ : BufTy).Contents (Elt F) → (⟨S16384x3, .f32⟩ : BufTy).Contents (Elt F)),
    nullary main_cst_4 (constant S_ .f32 0x00000000#32),
    binary main_v44 main_cst_4 main_v45 ((fun x v => Host.reduceAdd x v reducesTo_S16384x3_S16384_d1 h_S_) : (⟨S16384x3, .f32⟩ : BufTy).Contents (Elt F) → (⟨S_, .f32⟩ : BufTy).Contents (Elt F) → (⟨S16384, .f32⟩ : BufTy).Contents (Elt F)),
    unary main_v45 main_v46 (broadcastInDim S16384x1 ![0] bcast_S16384_S16384x1_0 : (⟨S16384, .f32⟩ : BufTy).Contents (Elt F) → (⟨S16384x1, .f32⟩ : BufTy).Contents (Elt F)),
    unary main_v46 main_v47 (broadcastInDim S16384x3 ![0, 1] bcast_S16384x1_S16384x3_0_1 : (⟨S16384x1, .f32⟩ : BufTy).Contents (Elt F) → (⟨S16384x3, .f32⟩ : BufTy).Contents (Elt F)),
    binary main_v44 main_v47 main_v48 (Host.divf : (⟨S16384x3, .f32⟩ : BufTy).Contents (Elt F) → (⟨S16384x3, .f32⟩ : BufTy).Contents (Elt F) → (⟨S16384x3, .f32⟩ : BufTy).Contents (Elt F)) ]

/-- Operations 64 to 74 of the reference program, in order. -/
abbrev W5 : List (HloOp τ sig (Elt F)) :=
  [ unary main_v48 main_v49 ((extractStridedSlice S16384x1 ![0, 0] · slices_S16384x3_S16384x1_0_0) : (⟨S16384x3, .f32⟩ : BufTy).Contents (Elt F) → (⟨S16384x1, .f32⟩ : BufTy).Contents (Elt F)),
    unary main_v49 main_v50 (broadcastInDim S16384x1024 ![0, 1] bcast_S16384x1_S16384x1024_0_1 : (⟨S16384x1, .f32⟩ : BufTy).Contents (Elt F) → (⟨S16384x1024, .f32⟩ : BufTy).Contents (Elt F)),
    binary main_v50 main_v8 main_v51 (mulf : (⟨S16384x1024, .f32⟩ : BufTy).Contents (Elt F) → (⟨S16384x1024, .f32⟩ : BufTy).Contents (Elt F) → (⟨S16384x1024, .f32⟩ : BufTy).Contents (Elt F)),
    unary main_v48 main_v52 ((extractStridedSlice S16384x1 ![0, 1] · slices_S16384x3_S16384x1_0_1) : (⟨S16384x3, .f32⟩ : BufTy).Contents (Elt F) → (⟨S16384x1, .f32⟩ : BufTy).Contents (Elt F)),
    unary main_v52 main_v53 (broadcastInDim S16384x1024 ![0, 1] bcast_S16384x1_S16384x1024_0_1 : (⟨S16384x1, .f32⟩ : BufTy).Contents (Elt F) → (⟨S16384x1024, .f32⟩ : BufTy).Contents (Elt F)),
    binary main_v53 main_v14 main_v54 (mulf : (⟨S16384x1024, .f32⟩ : BufTy).Contents (Elt F) → (⟨S16384x1024, .f32⟩ : BufTy).Contents (Elt F) → (⟨S16384x1024, .f32⟩ : BufTy).Contents (Elt F)),
    binary main_v51 main_v54 main_v55 (addf : (⟨S16384x1024, .f32⟩ : BufTy).Contents (Elt F) → (⟨S16384x1024, .f32⟩ : BufTy).Contents (Elt F) → (⟨S16384x1024, .f32⟩ : BufTy).Contents (Elt F)),
    unary main_v48 main_v56 ((extractStridedSlice S16384x1 ![0, 2] · slices_S16384x3_S16384x1_0_2) : (⟨S16384x3, .f32⟩ : BufTy).Contents (Elt F) → (⟨S16384x1, .f32⟩ : BufTy).Contents (Elt F)),
    unary main_v56 main_v57 (broadcastInDim S16384x1024 ![0, 1] bcast_S16384x1_S16384x1024_0_1 : (⟨S16384x1, .f32⟩ : BufTy).Contents (Elt F) → (⟨S16384x1024, .f32⟩ : BufTy).Contents (Elt F)),
    binary main_v57 main_v20 main_v58 (mulf : (⟨S16384x1024, .f32⟩ : BufTy).Contents (Elt F) → (⟨S16384x1024, .f32⟩ : BufTy).Contents (Elt F) → (⟨S16384x1024, .f32⟩ : BufTy).Contents (Elt F)),
    binary main_v55 main_v58 main_v59 (addf : (⟨S16384x1024, .f32⟩ : BufTy).Contents (Elt F) → (⟨S16384x1024, .f32⟩ : BufTy).Contents (Elt F) → (⟨S16384x1024, .f32⟩ : BufTy).Contents (Elt F)) ]

/-- Operations 75 to 88 of the reference program, in order. -/
abbrev W6 : List (HloOp τ sig (Elt F)) :=
  [ binary main_v59 main_v27 main_v60 ((fun a b => concatenate S16384x2048 1 [⟨S16384x1024, a⟩, ⟨S16384x1024, b⟩] concatenates_S16384x1024_S16384x1024_S16384x2048_d1) : (⟨S16384x1024, .f32⟩ : BufTy).Contents (Elt F) → (⟨S16384x1024, .f32⟩ : BufTy).Contents (Elt F) → (⟨S16384x2048, .f32⟩ : BufTy).Contents (Elt F)),
    unary main_arg9 main_v61 ((transpose S2048x2048 [1, 0] · transposes_S2048x2048_S2048x2048_1_0) : (⟨S2048x2048, .f32⟩ : BufTy).Contents (Elt F) → (⟨S2048x2048, .f32⟩ : BufTy).Contents (Elt F)),
    binary main_v60 main_v61 main_v62 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_arg10 main_v63 (broadcastInDim S1x2048 ![1] bcast_S2048_S1x2048_1 : (⟨S2048, .f32⟩ : BufTy).Contents (Elt F) → (⟨S1x2048, .f32⟩ : BufTy).Contents (Elt F)),
    unary main_v63 main_v64 (broadcastInDim S16384x2048 ![0, 1] bcast_S1x2048_S16384x2048_0_1 : (⟨S1x2048, .f32⟩ : BufTy).Contents (Elt F) → (⟨S16384x2048, .f32⟩ : BufTy).Contents (Elt F)),
    binary main_v62 main_v64 main_v65 (addf : (⟨S16384x2048, .f32⟩ : BufTy).Contents (Elt F) → (⟨S16384x2048, .f32⟩ : BufTy).Contents (Elt F) → (⟨S16384x2048, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16384x2048, .f32⟩) main_call4_v0) (broadcastInDim S16384x2048 ![] bcast_S_S16384x2048),
    TRef.binary (TRef.of (T := ⟨S16384x2048, .f32⟩) main_v65) (TRef.of (T := ⟨S16384x2048, .f32⟩) main_call4_v0) (TRef.of (T := ⟨S16384x2048, .f32⟩) main_v66) maximumf,
    unary main_arg11 main_v67 ((transpose S2048x1000 [1, 0] · transposes_S1000x2048_S2048x1000_1_0) : (⟨S1000x2048, .f32⟩ : BufTy).Contents (Elt F) → (⟨S2048x1000, .f32⟩ : BufTy).Contents (Elt F)),
    binary main_v66 main_v67 main_v68 ((fun l r => Host.dotGeneral dot_S16384x2048_S2048x1000_S16384x1000_1_0_0_1_n_n none l r) : (⟨S16384x2048, .f32⟩ : BufTy).Contents (Elt F) → (⟨S2048x1000, .f32⟩ : BufTy).Contents (Elt F) → (⟨S16384x1000, .f32⟩ : BufTy).Contents (Elt F)),
    unary main_arg12 main_v69 (broadcastInDim S1x1000 ![1] bcast_S1000_S1x1000_1 : (⟨S1000, .f32⟩ : BufTy).Contents (Elt F) → (⟨S1x1000, .f32⟩ : BufTy).Contents (Elt F)),
    unary main_v69 main_v70 (broadcastInDim S16384x1000 ![0, 1] bcast_S1x1000_S16384x1000_0_1 : (⟨S1x1000, .f32⟩ : BufTy).Contents (Elt F) → (⟨S16384x1000, .f32⟩ : BufTy).Contents (Elt F)),
    binary main_v68 main_v70 main_v71 (addf : (⟨S16384x1000, .f32⟩ : BufTy).Contents (Elt F) → (⟨S16384x1000, .f32⟩ : BufTy).Contents (Elt F) → (⟨S16384x1000, .f32⟩ : BufTy).Contents (Elt F)) ]

set_option maxRecDepth 8192 in
/-- The program's operations are the six stretches in order. -/
theorem ops_split : (ValueP.ops (F := F)) = W1 ++ (W2 ++ (W3 ++ (W4 ++ (W5 ++ W6)))) := rfl

end Stretches

/-! ## What each stretch computes, from any contents -/

theorem w1_v8 (V : Valuation τ sig (Elt Ideal)) :
    after (W1 (F := Ideal)) V (Proc.devRef .tc main_v8) = Stages.P1arr (V (Proc.devRef .tc main_arg0)) (V (Proc.devRef .tc main_arg1)) (V (Proc.devRef .tc main_arg2)) := by
  after_results
  exact Stages.P1_eq _ _ _

theorem w1_v14 (V : Valuation τ sig (Elt Ideal)) :
    after (W1 (F := Ideal)) V (Proc.devRef .tc main_v14) = Stages.P2arr (V (Proc.devRef .tc main_arg0)) (V (Proc.devRef .tc main_arg3)) (V (Proc.devRef .tc main_arg4)) := by
  after_results
  exact Stages.P2_eq _ _ _

theorem w1_v20 (V : Valuation τ sig (Elt Ideal)) :
    after (W1 (F := Ideal)) V (Proc.devRef .tc main_v20) = Stages.P3arr (V (Proc.devRef .tc main_arg0)) (V (Proc.devRef .tc main_arg5)) (V (Proc.devRef .tc main_arg6)) := by
  after_results_simp
  exact Stages.P3_eq _ _ _

theorem w2_v27 (V : Valuation τ sig (Elt Ideal)) :
    after (W2 (F := Ideal)) V (Proc.devRef .tc main_v27) = Stages.Harr (V (Proc.devRef .tc main_v8)) (V (Proc.devRef .tc main_v14)) (V (Proc.devRef .tc main_v20)) (V (Proc.devRef .tc main_arg7)) (V (Proc.devRef .tc main_arg8)) := by
  after_results
  exact Stages.H_eq _ _ _ _ _

theorem w3_v34 (V : Valuation τ sig (Elt Ideal)) :
    after (W3 (F := Ideal)) V (Proc.devRef .tc main_v34) = Stages.colArr (V (Proc.devRef .tc main_v27)) (V (Proc.devRef .tc main_v8)) := by
  after_results
  exact Stages.col_eq _ _

theorem w3_v35 (V : Valuation τ sig (Elt Ideal)) :
    after (W3 (F := Ideal)) V (Proc.devRef .tc main_v35) = Stages.colArr (V (Proc.devRef .tc main_v27)) (V (Proc.devRef .tc main_v14)) := by
  after_results
  exact Stages.col_eq _ _

theorem w3_v36 (V : Valuation τ sig (Elt Ideal)) :
    after (W3 (F := Ideal)) V (Proc.devRef .tc main_v36) = Stages.colArr (V (Proc.devRef .tc main_v27)) (V (Proc.devRef .tc main_v20)) := by
  after_results
  exact Stages.col_eq _ _

theorem w4_v48 (V : Valuation τ sig (Elt Ideal)) :
    after (W4 (F := Ideal)) V (Proc.devRef .tc main_v48) = Stages.Warr (Stages.Earr (Stages.Aarr (V (Proc.devRef .tc main_v34)) (V (Proc.devRef .tc main_v35)) (V (Proc.devRef .tc main_v36)))) := by
  after_results_simp
  show Host.divf (Host.exp (subf (concatenate S16384x3 1 [⟨S16384x1, (V (Proc.devRef .tc main_v34))⟩, ⟨S16384x1, (V (Proc.devRef .tc main_v35))⟩, ⟨S16384x1, (V (Proc.devRef .tc main_v36))⟩] concatenates_S16384x1_S16384x1_S16384x1_S16384x3_d1) (broadcastInDim S16384x3 ![0, 1] bcast_S16384x1_S16384x3_0_1 (broadcastInDim S16384x1 ![0] bcast_S16384_S16384x1_0 (maximumf (broadcastInDim S16384 ![] bcast_S_S16384 (constant (F := Ideal) S_ .f32 0xFF800000#32)) (Host.reduce FloatOps.maximumf (concatenate S16384x3 1 [⟨S16384x1, (V (Proc.devRef .tc main_v34))⟩, ⟨S16384x1, (V (Proc.devRef .tc main_v35))⟩, ⟨S16384x1, (V (Proc.devRef .tc main_v36))⟩] concatenates_S16384x1_S16384x1_S16384x1_S16384x3_d1) (constant (F := Ideal) S_ .f32 0xFF800000#32) reducesTo_S16384x3_S16384_d1 h_S_)))))) (broadcastInDim S16384x3 ![0, 1] bcast_S16384x1_S16384x3_0_1 (broadcastInDim S16384x1 ![0] bcast_S16384_S16384x1_0 (Host.reduceAdd (Host.exp (subf (concatenate S16384x3 1 [⟨S16384x1, (V (Proc.devRef .tc main_v34))⟩, ⟨S16384x1, (V (Proc.devRef .tc main_v35))⟩, ⟨S16384x1, (V (Proc.devRef .tc main_v36))⟩] concatenates_S16384x1_S16384x1_S16384x1_S16384x3_d1) (broadcastInDim S16384x3 ![0, 1] bcast_S16384x1_S16384x3_0_1 (broadcastInDim S16384x1 ![0] bcast_S16384_S16384x1_0 (maximumf (broadcastInDim S16384 ![] bcast_S_S16384 (constant (F := Ideal) S_ .f32 0xFF800000#32)) (Host.reduce FloatOps.maximumf (concatenate S16384x3 1 [⟨S16384x1, (V (Proc.devRef .tc main_v34))⟩, ⟨S16384x1, (V (Proc.devRef .tc main_v35))⟩, ⟨S16384x1, (V (Proc.devRef .tc main_v36))⟩] concatenates_S16384x1_S16384x1_S16384x1_S16384x3_d1) (constant (F := Ideal) S_ .f32 0xFF800000#32) reducesTo_S16384x3_S16384_d1 h_S_)))))) (constant (F := Ideal) S_ .f32 0x00000000#32) reducesTo_S16384x3_S16384_d1 h_S_))) = _
  rw [Stages.A_eq, Stages.E_eq, Stages.W_eq]

theorem w5_v59 (V : Valuation τ sig (Elt Ideal)) :
    after (W5 (F := Ideal)) V (Proc.devRef .tc main_v59) = Stages.Carr (V (Proc.devRef .tc main_v48)) (V (Proc.devRef .tc main_v8)) (V (Proc.devRef .tc main_v14)) (V (Proc.devRef .tc main_v20)) := by
  after_results
  exact Stages.C_eq _ _ _ _

theorem w6_v71 (V : Valuation τ sig (Elt Ideal)) :
    after (W6 (F := Ideal)) V (Proc.devRef .tc main_v71) = Stages.Oarr (Stages.Darr (V (Proc.devRef .tc main_v59)) (V (Proc.devRef .tc main_v27)) (V (Proc.devRef .tc main_arg9)) (V (Proc.devRef .tc main_arg10))) (V (Proc.devRef .tc main_arg11)) (V (Proc.devRef .tc main_arg12)) := by
  after_results_simp
  show addf (Host.dotGeneral dot_S16384x2048_S2048x1000_S16384x1000_1_0_0_1_n_n none (maximumf (addf (Host.dotGeneral dot_S16384x2048_S2048x2048_S16384x2048_1_0_0_1_n_n none (concatenate S16384x2048 1 [⟨S16384x1024, (V (Proc.devRef .tc main_v59))⟩, ⟨S16384x1024, (V (Proc.devRef .tc main_v27))⟩] concatenates_S16384x1024_S16384x1024_S16384x2048_d1) (transpose S2048x2048 [1, 0] (V (Proc.devRef .tc main_arg9)) transposes_S2048x2048_S2048x2048_1_0)) (broadcastInDim S16384x2048 ![0, 1] bcast_S1x2048_S16384x2048_0_1 (broadcastInDim S1x2048 ![1] bcast_S2048_S1x2048_1 (V (Proc.devRef .tc main_arg10))))) (broadcastInDim S16384x2048 ![] bcast_S_S16384x2048 (constant (F := Ideal) S_ .f32 0x00000000#32))) (transpose S2048x1000 [1, 0] (V (Proc.devRef .tc main_arg11)) transposes_S1000x2048_S2048x1000_1_0)) (broadcastInDim S16384x1000 ![0, 1] bcast_S1x1000_S16384x1000_0_1 (broadcastInDim S1x1000 ![1] bcast_S1000_S1x1000_1 (V (Proc.devRef .tc main_arg12)))) = _
  rw [Stages.D_eq]
  exact Stages.O_eq _ _ _

/-! ## What each stretch leaves as it was -/

theorem keep1_arg7 (V : Valuation τ sig (Elt Ideal)) : after (W1 (F := Ideal)) V (Proc.devRef .tc main_arg7) = V (Proc.devRef .tc main_arg7) := by
  after_results
theorem keep1_arg8 (V : Valuation τ sig (Elt Ideal)) : after (W1 (F := Ideal)) V (Proc.devRef .tc main_arg8) = V (Proc.devRef .tc main_arg8) := by
  after_results
theorem keep1_arg9 (V : Valuation τ sig (Elt Ideal)) : after (W1 (F := Ideal)) V (Proc.devRef .tc main_arg9) = V (Proc.devRef .tc main_arg9) := by
  after_results
theorem keep1_arg10 (V : Valuation τ sig (Elt Ideal)) : after (W1 (F := Ideal)) V (Proc.devRef .tc main_arg10) = V (Proc.devRef .tc main_arg10) := by
  after_results
theorem keep1_arg11 (V : Valuation τ sig (Elt Ideal)) : after (W1 (F := Ideal)) V (Proc.devRef .tc main_arg11) = V (Proc.devRef .tc main_arg11) := by
  after_results
theorem keep1_arg12 (V : Valuation τ sig (Elt Ideal)) : after (W1 (F := Ideal)) V (Proc.devRef .tc main_arg12) = V (Proc.devRef .tc main_arg12) := by
  after_results

theorem keep2_v8 (V : Valuation τ sig (Elt Ideal)) : after (W2 (F := Ideal)) V (Proc.devRef .tc main_v8) = V (Proc.devRef .tc main_v8) := by
  after_results
theorem keep2_v14 (V : Valuation τ sig (Elt Ideal)) : after (W2 (F := Ideal)) V (Proc.devRef .tc main_v14) = V (Proc.devRef .tc main_v14) := by
  after_results
theorem keep2_v20 (V : Valuation τ sig (Elt Ideal)) : after (W2 (F := Ideal)) V (Proc.devRef .tc main_v20) = V (Proc.devRef .tc main_v20) := by
  after_results
theorem keep2_arg9 (V : Valuation τ sig (Elt Ideal)) : after (W2 (F := Ideal)) V (Proc.devRef .tc main_arg9) = V (Proc.devRef .tc main_arg9) := by
  after_results
theorem keep2_arg10 (V : Valuation τ sig (Elt Ideal)) : after (W2 (F := Ideal)) V (Proc.devRef .tc main_arg10) = V (Proc.devRef .tc main_arg10) := by
  after_results
theorem keep2_arg11 (V : Valuation τ sig (Elt Ideal)) : after (W2 (F := Ideal)) V (Proc.devRef .tc main_arg11) = V (Proc.devRef .tc main_arg11) := by
  after_results
theorem keep2_arg12 (V : Valuation τ sig (Elt Ideal)) : after (W2 (F := Ideal)) V (Proc.devRef .tc main_arg12) = V (Proc.devRef .tc main_arg12) := by
  after_results

theorem keep3_v8 (V : Valuation τ sig (Elt Ideal)) : after (W3 (F := Ideal)) V (Proc.devRef .tc main_v8) = V (Proc.devRef .tc main_v8) := by
  after_results
theorem keep3_v14 (V : Valuation τ sig (Elt Ideal)) : after (W3 (F := Ideal)) V (Proc.devRef .tc main_v14) = V (Proc.devRef .tc main_v14) := by
  after_results
theorem keep3_v20 (V : Valuation τ sig (Elt Ideal)) : after (W3 (F := Ideal)) V (Proc.devRef .tc main_v20) = V (Proc.devRef .tc main_v20) := by
  after_results
theorem keep3_v27 (V : Valuation τ sig (Elt Ideal)) : after (W3 (F := Ideal)) V (Proc.devRef .tc main_v27) = V (Proc.devRef .tc main_v27) := by
  after_results
theorem keep3_arg9 (V : Valuation τ sig (Elt Ideal)) : after (W3 (F := Ideal)) V (Proc.devRef .tc main_arg9) = V (Proc.devRef .tc main_arg9) := by
  after_results
theorem keep3_arg10 (V : Valuation τ sig (Elt Ideal)) : after (W3 (F := Ideal)) V (Proc.devRef .tc main_arg10) = V (Proc.devRef .tc main_arg10) := by
  after_results
theorem keep3_arg11 (V : Valuation τ sig (Elt Ideal)) : after (W3 (F := Ideal)) V (Proc.devRef .tc main_arg11) = V (Proc.devRef .tc main_arg11) := by
  after_results
theorem keep3_arg12 (V : Valuation τ sig (Elt Ideal)) : after (W3 (F := Ideal)) V (Proc.devRef .tc main_arg12) = V (Proc.devRef .tc main_arg12) := by
  after_results

theorem keep4_v8 (V : Valuation τ sig (Elt Ideal)) : after (W4 (F := Ideal)) V (Proc.devRef .tc main_v8) = V (Proc.devRef .tc main_v8) := by
  after_results
theorem keep4_v14 (V : Valuation τ sig (Elt Ideal)) : after (W4 (F := Ideal)) V (Proc.devRef .tc main_v14) = V (Proc.devRef .tc main_v14) := by
  after_results
theorem keep4_v20 (V : Valuation τ sig (Elt Ideal)) : after (W4 (F := Ideal)) V (Proc.devRef .tc main_v20) = V (Proc.devRef .tc main_v20) := by
  after_results
theorem keep4_v27 (V : Valuation τ sig (Elt Ideal)) : after (W4 (F := Ideal)) V (Proc.devRef .tc main_v27) = V (Proc.devRef .tc main_v27) := by
  after_results
theorem keep4_arg9 (V : Valuation τ sig (Elt Ideal)) : after (W4 (F := Ideal)) V (Proc.devRef .tc main_arg9) = V (Proc.devRef .tc main_arg9) := by
  after_results
theorem keep4_arg10 (V : Valuation τ sig (Elt Ideal)) : after (W4 (F := Ideal)) V (Proc.devRef .tc main_arg10) = V (Proc.devRef .tc main_arg10) := by
  after_results
theorem keep4_arg11 (V : Valuation τ sig (Elt Ideal)) : after (W4 (F := Ideal)) V (Proc.devRef .tc main_arg11) = V (Proc.devRef .tc main_arg11) := by
  after_results
theorem keep4_arg12 (V : Valuation τ sig (Elt Ideal)) : after (W4 (F := Ideal)) V (Proc.devRef .tc main_arg12) = V (Proc.devRef .tc main_arg12) := by
  after_results

theorem keep5_v27 (V : Valuation τ sig (Elt Ideal)) : after (W5 (F := Ideal)) V (Proc.devRef .tc main_v27) = V (Proc.devRef .tc main_v27) := by
  after_results
theorem keep5_arg9 (V : Valuation τ sig (Elt Ideal)) : after (W5 (F := Ideal)) V (Proc.devRef .tc main_arg9) = V (Proc.devRef .tc main_arg9) := by
  after_results
theorem keep5_arg10 (V : Valuation τ sig (Elt Ideal)) : after (W5 (F := Ideal)) V (Proc.devRef .tc main_arg10) = V (Proc.devRef .tc main_arg10) := by
  after_results
theorem keep5_arg11 (V : Valuation τ sig (Elt Ideal)) : after (W5 (F := Ideal)) V (Proc.devRef .tc main_arg11) = V (Proc.devRef .tc main_arg11) := by
  after_results
theorem keep5_arg12 (V : Valuation τ sig (Elt Ideal)) : after (W5 (F := Ideal)) V (Proc.devRef .tc main_arg12) = V (Proc.devRef .tc main_arg12) := by
  after_results

/-! ## The whole list -/

/-- The result buffer after the whole program, from any contents: the output array built from the stage arrays of the
    arguments. -/
theorem ref_value (V : Valuation τ sig (Elt Ideal)) :
    after (ValueP.ops (F := Ideal)) V (Proc.devRef .tc main_v71) = Stages.Oarr (Stages.Darr (Stages.Carr (Stages.Warr (Stages.Earr (Stages.Aarr (Stages.colArr (Stages.Harr (Stages.P1arr (V (Proc.devRef .tc main_arg0)) (V (Proc.devRef .tc main_arg1)) (V (Proc.devRef .tc main_arg2))) (Stages.P2arr (V (Proc.devRef .tc main_arg0)) (V (Proc.devRef .tc main_arg3)) (V (Proc.devRef .tc main_arg4))) (Stages.P3arr (V (Proc.devRef .tc main_arg0)) (V (Proc.devRef .tc main_arg5)) (V (Proc.devRef .tc main_arg6))) (V (Proc.devRef .tc main_arg7)) (V (Proc.devRef .tc main_arg8))) (Stages.P1arr (V (Proc.devRef .tc main_arg0)) (V (Proc.devRef .tc main_arg1)) (V (Proc.devRef .tc main_arg2)))) (Stages.colArr (Stages.Harr (Stages.P1arr (V (Proc.devRef .tc main_arg0)) (V (Proc.devRef .tc main_arg1)) (V (Proc.devRef .tc main_arg2))) (Stages.P2arr (V (Proc.devRef .tc main_arg0)) (V (Proc.devRef .tc main_arg3)) (V (Proc.devRef .tc main_arg4))) (Stages.P3arr (V (Proc.devRef .tc main_arg0)) (V (Proc.devRef .tc main_arg5)) (V (Proc.devRef .tc main_arg6))) (V (Proc.devRef .tc main_arg7)) (V (Proc.devRef .tc main_arg8))) (Stages.P2arr (V (Proc.devRef .tc main_arg0)) (V (Proc.devRef .tc main_arg3)) (V (Proc.devRef .tc main_arg4)))) (Stages.colArr (Stages.Harr (Stages.P1arr (V (Proc.devRef .tc main_arg0)) (V (Proc.devRef .tc main_arg1)) (V (Proc.devRef .tc main_arg2))) (Stages.P2arr (V (Proc.devRef .tc main_arg0)) (V (Proc.devRef .tc main_arg3)) (V (Proc.devRef .tc main_arg4))) (Stages.P3arr (V (Proc.devRef .tc main_arg0)) (V (Proc.devRef .tc main_arg5)) (V (Proc.devRef .tc main_arg6))) (V (Proc.devRef .tc main_arg7)) (V (Proc.devRef .tc main_arg8))) (Stages.P3arr (V (Proc.devRef .tc main_arg0)) (V (Proc.devRef .tc main_arg5)) (V (Proc.devRef .tc main_arg6))))))) (Stages.P1arr (V (Proc.devRef .tc main_arg0)) (V (Proc.devRef .tc main_arg1)) (V (Proc.devRef .tc main_arg2))) (Stages.P2arr (V (Proc.devRef .tc main_arg0)) (V (Proc.devRef .tc main_arg3)) (V (Proc.devRef .tc main_arg4))) (Stages.P3arr (V (Proc.devRef .tc main_arg0)) (V (Proc.devRef .tc main_arg5)) (V (Proc.devRef .tc main_arg6)))) (Stages.Harr (Stages.P1arr (V (Proc.devRef .tc main_arg0)) (V (Proc.devRef .tc main_arg1)) (V (Proc.devRef .tc main_arg2))) (Stages.P2arr (V (Proc.devRef .tc main_arg0)) (V (Proc.devRef .tc main_arg3)) (V (Proc.devRef .tc main_arg4))) (Stages.P3arr (V (Proc.devRef .tc main_arg0)) (V (Proc.devRef .tc main_arg5)) (V (Proc.devRef .tc main_arg6))) (V (Proc.devRef .tc main_arg7)) (V (Proc.devRef .tc main_arg8))) (V (Proc.devRef .tc main_arg9)) (V (Proc.devRef .tc main_arg10))) (V (Proc.devRef .tc main_arg11)) (V (Proc.devRef .tc main_arg12)) := by
  rw [ops_split]
  simp only [after_append]
  rw [w6_v71]
  rw [w5_v59, keep5_v27, keep5_arg9, keep5_arg10, keep5_arg11, keep5_arg12]
  rw [w4_v48, keep4_v8, keep4_v14, keep4_v20, keep4_v27, keep4_arg9, keep4_arg10, keep4_arg11, keep4_arg12]
  rw [w3_v34, w3_v35, w3_v36, keep3_v8, keep3_v14, keep3_v20, keep3_v27, keep3_arg9, keep3_arg10, keep3_arg11, keep3_arg12]
  rw [w2_v27, keep2_v8, keep2_v14, keep2_v20, keep2_arg9, keep2_arg10, keep2_arg11, keep2_arg12]
  rw [w1_v8, w1_v14, w1_v20, keep1_arg7, keep1_arg8, keep1_arg9, keep1_arg10, keep1_arg11, keep1_arg12]

/-- Every argument buffer is left as it was by the whole program. -/
theorem kept_arg0 (V : Valuation τ sig (Elt Ideal)) : after (ValueP.ops (F := Ideal)) V (Proc.devRef .tc main_arg0) = V (Proc.devRef .tc main_arg0) := by
  after_results
theorem kept_arg1 (V : Valuation τ sig (Elt Ideal)) : after (ValueP.ops (F := Ideal)) V (Proc.devRef .tc main_arg1) = V (Proc.devRef .tc main_arg1) := by
  after_results
theorem kept_arg2 (V : Valuation τ sig (Elt Ideal)) : after (ValueP.ops (F := Ideal)) V (Proc.devRef .tc main_arg2) = V (Proc.devRef .tc main_arg2) := by
  after_results
theorem kept_arg3 (V : Valuation τ sig (Elt Ideal)) : after (ValueP.ops (F := Ideal)) V (Proc.devRef .tc main_arg3) = V (Proc.devRef .tc main_arg3) := by
  after_results
theorem kept_arg4 (V : Valuation τ sig (Elt Ideal)) : after (ValueP.ops (F := Ideal)) V (Proc.devRef .tc main_arg4) = V (Proc.devRef .tc main_arg4) := by
  after_results
theorem kept_arg5 (V : Valuation τ sig (Elt Ideal)) : after (ValueP.ops (F := Ideal)) V (Proc.devRef .tc main_arg5) = V (Proc.devRef .tc main_arg5) := by
  after_results
theorem kept_arg6 (V : Valuation τ sig (Elt Ideal)) : after (ValueP.ops (F := Ideal)) V (Proc.devRef .tc main_arg6) = V (Proc.devRef .tc main_arg6) := by
  after_results
theorem kept_arg7 (V : Valuation τ sig (Elt Ideal)) : after (ValueP.ops (F := Ideal)) V (Proc.devRef .tc main_arg7) = V (Proc.devRef .tc main_arg7) := by
  after_results
theorem kept_arg8 (V : Valuation τ sig (Elt Ideal)) : after (ValueP.ops (F := Ideal)) V (Proc.devRef .tc main_arg8) = V (Proc.devRef .tc main_arg8) := by
  after_results
theorem kept_arg9 (V : Valuation τ sig (Elt Ideal)) : after (ValueP.ops (F := Ideal)) V (Proc.devRef .tc main_arg9) = V (Proc.devRef .tc main_arg9) := by
  after_results
theorem kept_arg10 (V : Valuation τ sig (Elt Ideal)) : after (ValueP.ops (F := Ideal)) V (Proc.devRef .tc main_arg10) = V (Proc.devRef .tc main_arg10) := by
  after_results
theorem kept_arg11 (V : Valuation τ sig (Elt Ideal)) : after (ValueP.ops (F := Ideal)) V (Proc.devRef .tc main_arg11) = V (Proc.devRef .tc main_arg11) := by
  after_results
theorem kept_arg12 (V : Valuation τ sig (Elt Ideal)) : after (ValueP.ops (F := Ideal)) V (Proc.devRef .tc main_arg12) = V (Proc.devRef .tc main_arg12) := by
  after_results

end Cert.ReferenceIdeal.Win

end
-- ==== Proof.RefValue.lean ====
/-
  The reference's stage arrays, composed, are the claim's result function. Each stage array is the row network's matching
  piece on a row of the stage before it, so the output array built from them is, at (r, q), the row network's output
  entry on row r of the input with the weights read off the argument matrices: the result function of the arguments.
-/
import proofs.«174068_j74491912782221_2_alg».proof.Proof.RefStage5
import proofs.«174068_j74491912782221_2_alg».proof.Proof.NetSpec

noncomputable section

namespace Cert.ReferenceIdeal.Stages

open Idealize.ShloMosaic Idealize.ShloMosaic.ValueIdx Cert.ReferenceIdeal Cert

attribute [local instance] Cert.ReferenceIdeal.Gen.facts

/-- The output array built from the stage arrays of the arguments is the result function of the arguments. -/
theorem stages_eq_spec (x0 : FVec Ideal S16384x1536 .f32) (x1 : FVec Ideal S1024x512 .f32) (x2 : FVec Ideal S1024 .f32) (x3 : FVec Ideal S1024x512 .f32) (x4 : FVec Ideal S1024 .f32) (x5 : FVec Ideal S1024x512 .f32) (x6 : FVec Ideal S1024 .f32) (x7 : FVec Ideal S1024x3072 .f32) (x8 : FVec Ideal S1024 .f32) (x9 : FVec Ideal S2048x2048 .f32) (x10 : FVec Ideal S2048 .f32) (x11 : FVec Ideal S1000x2048 .f32) (x12 : FVec Ideal S1000 .f32) :
    Oarr (Darr (Carr (Warr (Earr (Aarr (colArr (Harr (P1arr x0 x1 x2) (P2arr x0 x3 x4) (P3arr x0 x5 x6) x7 x8) (P1arr x0 x1 x2)) (colArr (Harr (P1arr x0 x1 x2) (P2arr x0 x3 x4) (P3arr x0 x5 x6) x7 x8) (P2arr x0 x3 x4)) (colArr (Harr (P1arr x0 x1 x2) (P2arr x0 x3 x4) (P3arr x0 x5 x6) x7 x8) (P3arr x0 x5 x6))))) (P1arr x0 x1 x2) (P2arr x0 x3 x4) (P3arr x0 x5 x6)) (Harr (P1arr x0 x1 x2) (P2arr x0 x3 x4) (P3arr x0 x5 x6) x7 x8) x9 x10) x11 x12 = NetSpec.spec x0 x1 x2 x3 x4 x5 x6 x7 x8 x9 x10 x11 x12 := by
  funext i
  obtain ⟨r, q, rfl⟩ : ∃ (r : Fin 16384) (q : Fin 1000), i = ix2 r q := ⟨i 0, i 1, eq_ix2 i⟩
  rfl

end Cert.ReferenceIdeal.Stages

end
-- ==== Proof.RefRun.lean ====
/-
  The reference program's run, read. Every weakly fair execution of the reference program terminates with its result
  buffer holding the claim's result function of the argument arrays and with the argument arrays unchanged: the program
  is a straight line of 88 host operations, whose result buffer, read window by window, is the output array built from
  the stage arrays of the arguments, and that array is the result function.
-/
import proofs.«174068_j74491912782221_2_alg».proof.Proof.RefWindows
import proofs.«174068_j74491912782221_2_alg».proof.Proof.RefValue

noncomputable section

namespace Cert.ReferenceIdeal.RunV

open Idealize.ShloMosaic Idealize.ShloMosaic.TcCoe Idealize.SL.Sem Idealize.ShloMosaic.StableHlo
open Cert.ReferenceIdeal Cert.ReferenceIdeal.Gen Cert

attribute [local instance] Cert.ReferenceIdeal.Gen.facts

variable (m : (ℓ : Loc nD τ sig) → Buf (Elt Ideal) ℓ) (ρ : Dev nD → PrngReg)

/-- The run of the reference program: the result at the claim's result function of the arguments, the arguments unchanged. -/
theorem run : θ_run defs (onTc (τ := τ) (main (F := Ideal))) ⟨m, fun _ => 0, ρ⟩ (fun r => ∀ c : Dev nD,
      r.2.mem ((c.tc : Thread nD τ).loc main_v71) = NetSpec.spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨
      (h c main_v71).trans ((Win.ref_value _).trans (Stages.stages_eq_spec _ _ _ _ _ _ _ _ _ _ _ _ _)),
      (h c main_arg0).trans (Win.kept_arg0 _),
      (h c main_arg1).trans (Win.kept_arg1 _),
      (h c main_arg2).trans (Win.kept_arg2 _),
      (h c main_arg3).trans (Win.kept_arg3 _),
      (h c main_arg4).trans (Win.kept_arg4 _),
      (h c main_arg5).trans (Win.kept_arg5 _),
      (h c main_arg6).trans (Win.kept_arg6 _),
      (h c main_arg7).trans (Win.kept_arg7 _),
      (h c main_arg8).trans (Win.kept_arg8 _),
      (h c main_arg9).trans (Win.kept_arg9 _),
      (h c main_arg10).trans (Win.kept_arg10 _),
      (h c main_arg11).trans (Win.kept_arg11 _),
      (h c main_arg12).trans (Win.kept_arg12 _)⟩)
    (run_seq ValueP.scopedRefs_eq ValueP.scopedSems_eq defs main (fun _ => ValueP.ops) ValueP.main_eq (fun _ => ValueP.ops_sub) m ρ)

end Cert.ReferenceIdeal.RunV

end
-- ==== Proof.lean ====
/-
  The kernel and its reference compute the same function of their thirteen arguments, entry by entry, on the extended
  reals.

  Both are one network applied to every row of a [16384,1536] input. A row is three vectors of 512 entries; three
  rectified dense layers give p1, p2, p3; a rectified dense layer on their concatenation gives a hidden vector h; the three
  scores <h, p_k> go through a softmax; the mixture of p1, p2, p3 under the softmax weights, concatenated with h, goes
  through a rectified dense layer of width 2048 and a last dense layer of width 1000 (Proof/RowNet.lean).

  The kernel works on blocks of 256 rows, one per grid point, against weights it transposed beforehand; it multiplies a
  concatenated operand as the sum of the partial products over its pieces (a sum over 3072 or 2048 positions is the sum of
  the sums over its thirds or halves: the one law that joins the two programs, and it holds on the extended reals with no
  finiteness assumed); it pads the last layer with zeros from 1000 to 1024 outputs and cuts the padding off at the end. Its
  body's arithmetic is the row network on a row of the block (Proof/KernelPay1-4, KernelCompose, KernelBlock), the blocks
  cover the output array (Proof/KernelIndex, KernelBlocks*, KernelWhole, KernelFinal), and the arrays the call finds are
  the arguments transposed, recast or padded (Proof/HostPrelude, HostPad), so the kernel program's result is the result
  function of the arguments (Proof/NetSpec, KernelValue, KernelRun).

  The reference is a straight line of 88 host operations. Stage by stage its arrays are the row network's pieces on every
  row (Proof/RefStage1-5, RefValue); its run is read window by window over its operation list (Proof/RefWindows, RefRun),
  and its result is the same result function.

  The three frame claims: the two kernel programs by the generated frame proofs, the reference by its run. The idealized
  kernel is the kernel's own text read on the extended reals (no rewrite was applied), so that claim is trivial.
-/
import proofs.«174068_j74491912782221_2_alg».proof.Defs
import proofs.«174068_j74491912782221_2_alg».proof.Proof.Gen.Kernel
import proofs.«174068_j74491912782221_2_alg».proof.Proof.Gen.Kernel.Skeleton
import proofs.«174068_j74491912782221_2_alg».proof.Proof.Gen.Kernel.Launch
import proofs.«174068_j74491912782221_2_alg».proof.Proof.Gen.Kernel.Points
import proofs.«174068_j74491912782221_2_alg».proof.Proof.Gen.Kernel.Frame
import proofs.«174068_j74491912782221_2_alg».proof.Proof.Gen.KernelIdeal
import proofs.«174068_j74491912782221_2_alg».proof.Proof.Gen.KernelIdeal.Skeleton
import proofs.«174068_j74491912782221_2_alg».proof.Proof.Gen.KernelIdeal.Launch
import proofs.«174068_j74491912782221_2_alg».proof.Proof.Gen.KernelIdeal.Points
import proofs.«174068_j74491912782221_2_alg».proof.Proof.Gen.KernelIdeal.Frame
import proofs.«174068_j74491912782221_2_alg».proof.Proof.Gen.ReferenceIdeal
import proofs.«174068_j74491912782221_2_alg».proof.Proof.Gen.Pre_finite_inputs
import proofs.«174068_j74491912782221_2_alg».proof.Proof.KernelRun
import proofs.«174068_j74491912782221_2_alg».proof.Proof.RefRun
import Idealize.ShloMosaic.Adequacy
import Idealize.ShloMosaic.Init

noncomputable section

namespace Cert.Proof

open Idealize.ShloMosaic Idealize.SL.Sem

/-- The kernel program runs and leaves its arguments unchanged. -/
theorem frame_p : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged. -/
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The reference program runs and leaves its arguments unchanged: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunV.run m ρ)

/-- From memories that agree on the arguments, both programs end with the result function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.NetSpec.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), Cert.KernelIdeal.RunV.run m ρ, ?_⟩
  refine (θ_run Cert.ReferenceIdeal.defs _ _).mono (fun _ h c => ⟨(h c).1.trans ?_, (h c).2⟩) (Cert.ReferenceIdeal.RunV.run m' ρ')
  obtain ⟨h0, h1, h2, h3, h4, h5, h6, h7, h8, h9, h10, h11, h12⟩ := hagree c
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
